-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S1024x3072 : Shape := ⟨2, ![1024, 3072]⟩
abbrev S3072 : Shape := ⟨1, ![3072]⟩
abbrev S16384x3072 : Shape := ⟨2, ![16384, 3072]⟩
abbrev S1x3072 : Shape := ⟨2, ![1, 3072]⟩
abbrev S8x2048x3072 : Shape := ⟨3, ![8, 2048, 3072]⟩
abbrev S1x1024x1024 : Shape := ⟨3, ![1, 1024, 1024]⟩
abbrev S1x2048x1024 : Shape := ⟨3, ![1, 2048, 1024]⟩
abbrev S2048x1024 : Shape := ⟨2, ![2048, 1024]⟩
abbrev S1024x2048 : Shape := ⟨2, ![1024, 2048]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S16384x1024, .f32⟩
  | .hbm, ⟨8, _⟩ => ⟨S1024x3072, .f32⟩
  | .hbm, ⟨9, _⟩ => ⟨S1024x3072, .bf16⟩
  | .hbm, ⟨10, _⟩ => ⟨S3072, .f32⟩
  | .hbm, ⟨11, _⟩ => ⟨S16384x3072, .bf16⟩
  | .hbm, ⟨12, _⟩ => ⟨S8x2048x3072, .bf16⟩
  | .hbm, ⟨13, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S3072, .f32⟩
  | .local _ .vmem, ⟨4, _⟩ => ⟨S1024x3072, .bf16⟩
  | .local _ .vmem, ⟨5, _⟩ => ⟨S1024x3072, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x1024x1024, .f32⟩
  | .local _ .vmem, ⟨13, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8x2048x1024_S16384x1024 : S8x2048x1024.ShapeCasts S16384x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S1024x3072 : S1x3072.Broadcasts S1024x3072
  packedbf16_S1024x3072_S1024x3072_0_0 : (Rect.unit (s := S1024x3072) ![0, 0] S1024x3072.size inb_S1024x3072_S1024x3072_0_0).PackedRows (EltTy.packing .bf16)
  shapeCasts_S16384x3072_S8x2048x3072 : S16384x3072.ShapeCasts S8x2048x3072
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x1024 : S1024x1.Broadcasts S1024x1024
  shapeCasts_S1024x1024_S1x1024x1024 : S1024x1024.ShapeCasts S1x1024x1024
  dot_S1024x1024_S1024x3072_S1024x3072_1_0_0_1_n_n_wf : DotDims.WF S1024x1024 S1024x3072 S1024x3072 [1] [0] [0] [1] [] []
  dot_S1024x1024_S1024x2048_S1024x2048_1_0_0_1_n_n_wf : DotDims.WF S1024x1024 S1024x2048 S1024x2048 [1] [0] [0] [1] [] []
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S16384x3072.size a
  hwx0_3 : ∀ i : grid0.Coords, EltTy.bits .bf16 = 32 ∨ (Rect.block (s := S16384x3072) S1024x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x3072.size a
  hwx1_0 : ∀ i : grid1.Coords, EltTy.bits .bf16 = 32 ∨ (Rect.block (s := S8x2048x3072) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x3072.size a
  hwx1_1 : ∀ i : grid1.Coords, EltTy.bits .bf16 = 32 ∨ (Rect.block (s := S8x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x3072.size a
  hwx1_2 : ∀ i : grid1.Coords, EltTy.bits .bf16 = 32 ∨ (Rect.block (s := S8x2048x3072) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S8x2048x1024.size a
  hwx1_3 : ∀ i : grid1.Coords, EltTy.bits .f32 = 32 ∨ (Rect.block (s := S8x2048x1024) S1x1024x1024.size (cc1_transform_3 i) (hinb1_3 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.K.Lin.lean ====
/-
  The projection kernel's region: at each of the sixteen grid points the body loads a block of 1024 rows of the
  flattened input, the whole joined weight matrix and the whole joined bias, and stores the block's product plus the bias row
  into the output window's buffer. This module states what each window's buffer holds at every point (an input window its
  block of the array as the region finds it, the output window the body's one store) and proves that the body runs from
  those contents to those contents, at any float values.
-/
import proofs.«156074_j40973988004641_2_alg».proof.Proof.Gen.Kernel.Launch
import proofs.«156074_j40973988004641_2_alg».proof.Proof.Gen.Kernel.Skeleton
import proofs.«156074_j40973988004641_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether or not the point fetches it: an
    unfetched point has the same block index as the one before it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_x : Rect S1024x1024 := Rect.unit (s := S1024x1024) ![0, 0] S1024x1024.size inb_S1024x1024_S1024x1024_0_0
abbrev r0_w : Rect S1024x3072 := Rect.unit (s := S1024x3072) ![0, 0] S1024x3072.size inb_S1024x3072_S1024x3072_0_0
abbrev r0_b : Rect S3072 := Rect.unit (s := S3072) ![0] S3072.size inb_S3072_S3072_0

/-- The output window's buffer after the body, from the input windows' blocks: its one store. -/
def out0_3 (x0 : Vec F S1024x1024 .f32) (x1 : Vec F S1024x3072 .bf16) (x2 : Vec F S3072 .f32) : Vec F S1024x3072 .bf16 :=
  View.canon [⟨r0_w, k0_pay1 (View.ld x0 r0_x) (View.ld x1 r0_w) (View.ld x2 r0_b)⟩]

/-- The store covers the buffer. -/
theorem cover0_3 (p0 : Vec F S1024x3072 .bf16) (y : S1024x3072.Idx) :
    ∃ pc ∈ ([⟨r0_w, p0⟩] : List (View.Piece (Elt F) S1024x3072 .bf16)), y ∈ pc.1.set :=
  View.cover_of_tiled [⟨r0_w, p0⟩] S1024x3072.size (by rfl) y

set_option maxHeartbeats 1000000 in
/-- The body on whole buffers, the inputs' at contents x0, x1, x2 and the output's at anything, runs to the continuation
    holding the inputs' as they were and the output's at the store's value. -/
theorem sound_kernel0 (c : Dev nD) (E : Set ℕ) (i : grid0.Coords) (arg1 : Memref sig .tc .vmem S1024x1024 .f32) (harg1 : arg1.IsWhole)
    (arg2 : Memref sig .tc .vmem S1024x3072 .bf16) (harg2 : arg2.IsWhole) (arg3 : Memref sig .tc .vmem S3072 .f32) (harg3 : arg3.IsWhole)
    (arg4 : Memref sig .tc .vmem S1024x3072 .bf16) (harg4 : arg4.IsWhole)
    (x0 : Vec F S1024x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_linear_kernel i arg1 harg1 arg2 harg2 arg3 harg3 arg4 harg4) K := by
  simp only [cc0_linear_kernel_eq_skeleton]; unfold cc0_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core c: the arrays as the region finds them; after the body at point t each input's
    buffer at its block and the output's at the store's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Att.lean ====
/-
  The attention kernel's region: at each of the sixteen grid points (a batch and a half of its queries) the body loads
  the block of 1024 queries, the batch's 2048 keys and its 2048 values — three blocks of ONE array, the joined projections —
  and stores the block of attention outputs into the output window's buffer. This module states what each window's buffer
  holds at every point (an input window its block of the array as the region finds it, the output window the body's one
  store) and proves that the body runs from those contents to those contents, at any float values.
-/
import proofs.«156074_j40973988004641_2_alg».proof.Proof.Gen.Kernel.Launch
import proofs.«156074_j40973988004641_2_alg».proof.Proof.Gen.Kernel.Skeleton
import proofs.«156074_j40973988004641_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether or not the point fetches it: an
    unfetched point has the same block index as the one before it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each buffer whole. -/
abbrev r1_q : Rect S1x1024x1024 := Rect.unit (s := S1x1024x1024) ![0, 0, 0] S1x1024x1024.size inb_S1x1024x1024_S1x1024x1024_0_0_0
abbrev r1_k : Rect S1x2048x1024 := Rect.unit (s := S1x2048x1024) ![0, 0, 0] S1x2048x1024.size inb_S1x2048x1024_S1x2048x1024_0_0_0

/-- The output window's buffer after the body, from the input windows' blocks: its one store. -/
def out1_3 (x0 : Vec F S1x1024x1024 .bf16) (x1 : Vec F S1x2048x1024 .bf16) (x2 : Vec F S1x2048x1024 .bf16) : Vec F S1x1024x1024 .f32 :=
  View.canon [⟨r1_q, k1_pay1 (View.ld x0 r1_q) (View.ld x1 r1_k) (View.ld x2 r1_k)⟩]

/-- The store covers the buffer. -/
theorem cover1_3 (p0 : Vec F S1x1024x1024 .f32) (y : S1x1024x1024.Idx) :
    ∃ pc ∈ ([⟨r1_q, p0⟩] : List (View.Piece (Elt F) S1x1024x1024 .f32)), y ∈ pc.1.set :=
  View.cover_of_tiled [⟨r1_q, p0⟩] S1x1024x1024.size (by rfl) y

set_option maxHeartbeats 1000000 in
/-- The body on whole buffers, the inputs' at contents x0, x1, x2 and the output's at anything, runs to the continuation
    holding the inputs' as they were and the output's at the store's value. -/
theorem sound_kernel1 (c : Dev nD) (E : Set ℕ) (i : grid1.Coords) (arg2 : Memref sig .tc .vmem S1x1024x1024 .bf16) (harg2 : arg2.IsWhole)
    (arg3 : Memref sig .tc .vmem S1x2048x1024 .bf16) (harg3 : arg3.IsWhole) (arg4 : Memref sig .tc .vmem S1x2048x1024 .bf16) (harg4 : arg4.IsWhole)
    (arg5 : Memref sig .tc .vmem S1x1024x1024 .f32) (harg5 : arg5.IsWhole)
    (x0 : Vec F S1x1024x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1_attn_kernel i arg2 harg2 arg3 harg3 arg4 harg4 arg5 harg5) K := by
  simp only [cc1_attn_kernel_eq_skeleton]; unfold cc1_attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The three input windows read ONE array: the core holds it for each of them at a third of the whole — the left half,
    and the two halves of the right half. -/
def share1 : Fin cfg1.W → PosShare TreeShare
  | ⟨0, _⟩ => fullShare.left
  | ⟨1, _⟩ => fullShare.right.left
  | ⟨2, _⟩ => fullShare.right.right
  | ⟨3, _⟩ => fullShare

/-- The region's proof data on core c: the arrays as the region finds them; after the body at point t each input's
    buffer at its block and the output's at the store's value of the input blocks; nothing owed; the input windows' shares
    of their one array as above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := share1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The program's run, at any float values: the host operations before the first region, the projection region, the reshape
  between the regions, the attention region. The buffer contents at each boundary are a fold from the launch memory: a host
  stretch applies its operations, a region changes its output array alone, to what the write-backs of its sixteen points
  leave there. The attention region reads the joined projections through three windows, so the core's hold on that one
  array is split in three at the region's entry and joined again at its exit. Every weakly fair execution terminates with
  every unscoped buffer at the last boundary's contents; in particular each argument as launched and the result array at
  what the attention region's write-backs leave.
-/
import proofs.«156074_j40973988004641_2_alg».proof.Proof.K.Lin
import proofs.«156074_j40973988004641_2_alg».proof.Proof.K.Att
import proofs.«156074_j40973988004641_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (HostSeg RegionSeg Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- What the projection region's write-backs leave in its output array. -/
def res0 (c : Dev nD) : Buf (Elt F) ((c : Thread nD τ).loc main_v4) := (dat0 (V1 m ρ) c).arrAt 3 cfg0.N
/-- At the projection region's exit: its output array at that, every other buffer as entered. -/
def W2 (c : Dev nD) : Valuation τ sig (Elt F) := Function.update (W1 m ρ c) main_v4 (res0 m ρ c)
abbrev V2 : (c : Dev nD) → (b : Ref sig .tc) → Buf (Elt F) ((c : Thread nD τ).loc b) := fun c b => W2 m ρ c b
/-- After the reshape between the regions (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- What the attention region's write-backs leave in its output array. -/
def res1 (c : Dev nD) : Buf (Elt F) ((c : Thread nD τ).loc main_v6) := (dat1 (V3 m ρ) c).arrAt 3 cfg1.N
/-- At the attention region's exit. -/
def W4 (c : Dev nD) : Valuation τ sig (Elt F) := Function.update (W3 m ρ c) main_v6 (res1 m ρ c)
abbrev V4 : (c : Dev nD) → (b : Ref sig .tc) → Buf (Elt F) ((c : Thread nD τ).loc b) := fun c b => W4 m ρ c b

theorem W2_v4 (c : Dev nD) : W2 m ρ c main_v4 = res0 m ρ c := by unfold W2; exact Function.update_self ..
theorem W2_of_ne (c : Dev nD) (b : Ref sig .tc) (hb : b ≠ main_v4) : W2 m ρ c b = W1 m ρ c b := by
  unfold W2; exact Function.update_of_ne (StableHlo.devRef_ne_of_ne hb) ..
theorem W4_v6 (c : Dev nD) : W4 m ρ c main_v6 = res1 m ρ c := by unfold W4; exact Function.update_self ..
theorem W4_of_ne (c : Dev nD) (b : Ref sig .tc) (hb : b ≠ main_v6) : W4 m ρ c b = W3 m ρ c b := by
  unfold W4; exact Function.update_of_ne (StableHlo.devRef_ne_of_ne hb) ..
theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h

/-- A buffer no host operation writes and no region changes ends as launched. -/
theorem W4_arg (c : Dev nD) (r : Ref sig .tc) (h6 : r ≠ main_v6) (h1 : r ∉ hostOps1_W) (h4 : r ≠ main_v4) (h0 : r ∉ hostOps0_W) :
    W4 m ρ c r = m ((c : Thread nD τ).loc r) :=
  (W4_of_ne m ρ c r h6).trans <| (W3_of m ρ c r h1).trans <| (W2_of_ne m ρ c r h4).trans <| (W1_of m ρ c r h0).trans rfl

/-- Each array of the projection region at its exit: the inputs as entered, the output at what the write-backs leave. -/
theorem hF0 (c : Dev nD) (w : Fin cfg0.W) : (dat0 (V1 m ρ) c).arrAt w cfg0.N = V2 m ρ c (Pipeline.arrRef spec0 w) := by
  match w with
  | ⟨0, _⟩ => exact ((dat0 (V1 m ρ) c).arrAt_in 0 rfl _).trans ((A_eq0 (V1 m ρ) c 0).trans (W2_of_ne m ρ c main_v0 (by decide)).symm)
  | ⟨1, _⟩ => exact ((dat0 (V1 m ρ) c).arrAt_in 1 rfl _).trans ((A_eq0 (V1 m ρ) c 1).trans (W2_of_ne m ρ c main_v2 (by decide)).symm)
  | ⟨2, _⟩ => exact ((dat0 (V1 m ρ) c).arrAt_in 2 rfl _).trans ((A_eq0 (V1 m ρ) c 2).trans (W2_of_ne m ρ c main_v3 (by decide)).symm)
  | ⟨3, _⟩ => exact (W2_v4 m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨3, Finset.mem_univ _, e.symm⟩)
/-- Each array of the attention region at its exit. -/
theorem hF1 (c : Dev nD) (w : Fin cfg1.W) : (dat1 (V3 m ρ) c).arrAt w cfg1.N = V4 m ρ c (Pipeline.arrRef spec1 w) := by
  match w with
  | ⟨0, _⟩ => exact ((dat1 (V3 m ρ) c).arrAt_in 0 rfl _).trans ((A_eq1 (V3 m ρ) c 0).trans (W4_of_ne m ρ c main_v5 (by decide)).symm)
  | ⟨1, _⟩ => exact ((dat1 (V3 m ρ) c).arrAt_in 1 rfl _).trans ((A_eq1 (V3 m ρ) c 1).trans (W4_of_ne m ρ c main_v5 (by decide)).symm)
  | ⟨2, _⟩ => exact ((dat1 (V3 m ρ) c).arrAt_in 2 rfl _).trans ((A_eq1 (V3 m ρ) c 2).trans (W4_of_ne m ρ c main_v5 (by decide)).symm)
  | ⟨3, _⟩ => exact (W4_v6 m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The attention region's one shared array: split at the entry, joined at the exit -/

/-- A buffer held whole is held in three parts: the left half, and the two halves of the right half. -/
theorem thirds {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  constructor
  · iintro H
    ihave H' := (pointsTo_share (PosShare.mem_left_op_right fullShare)).1 $$ H
    icases H' with ⟨Hl, Hr⟩
    ihave Hr' := (pointsTo_share (PosShare.mem_left_op_right fullShare.right)).1 $$ Hr
    icases Hr' with ⟨Hrl, Hrr⟩
    isplitl [Hl]; · iexact Hl
    isplitl [Hrl] <;> iassumption
  · iintro ⟨Hl, Hrl, Hrr⟩
    iapply (pointsTo_share (PosShare.mem_left_op_right fullShare)).2
    isplitl [Hl]; · iexact Hl
    iapply (pointsTo_share (PosShare.mem_left_op_right fullShare.right)).2
    isplitl [Hrl] <;> iassumption

/-- The attention region's arrays, window by window: the joined projections' array at its three parts, the result
    array whole. -/
theorem arrays1_eq (c : Dev nD) (Fa : (w : Fin cfg1.W) → Buf (Elt F) ((cfg1.win w).arr.view.loc (c.tc : Thread nD τ))) :
    ((pdats m ρ 1 c).arrays Fa : sProp 𝕄)
      = iprop(((c.tc : Thread nD τ).loc main_v5 ↦{fullShare.left} Fa 0) ∗ ((c.tc : Thread nD τ).loc main_v5 ↦{fullShare.right.left} Fa 1)
          ∗ ((c.tc : Thread nD τ).loc main_v5 ↦{fullShare.right.right} Fa 2) ∗ ((c.tc : Thread nD τ).loc main_v6 ↦{fullShare} Fa 3)) := by
  unfold Dat.arrays
  rw [bigSep_W1]
  have s0 : ((Pipeline.pin (pcfgs (F := F)) adm 1).win (0 : Fin 4)).arr.view.set = Finset.univ := (arr_whole1 0).set_eq_univ
  have s1 : ((Pipeline.pin (pcfgs (F := F)) adm 1).win (1 : Fin 4)).arr.view.set = Finset.univ := (arr_whole1 1).set_eq_univ
  have s2 : ((Pipeline.pin (pcfgs (F := F)) adm 1).win (2 : Fin 4)).arr.view.set = Finset.univ := (arr_whole1 2).set_eq_univ
  have s3 : ((Pipeline.pin (pcfgs (F := F)) adm 1).win (3 : Fin 4)).arr.view.set = Finset.univ := (arr_whole1 3).set_eq_univ
  rw [s0, s1, s2, s3]
  rfl

/-- The two buffers behind the attention region's arrays. -/
theorem arrBufs1_eq (c : Dev nD) (V : (b : Ref sig .tc) → Buf (Elt F) ((c : Thread nD τ).loc b)) :
    (Pipeline.arrBufs (Ix := Unit) (Name := ℕ) (U := UR sig nD τ) (Lvl := ℕ) (cfgs 1).spec c V : sProp 𝕄)
      = iprop(((c.tc : Thread nD τ).loc main_v5 ↦{fullShare} V main_v5) ∗ ((c.tc : Thread nD τ).loc main_v6 ↦{fullShare} V main_v6)) := by
  unfold Pipeline.arrBufs
  rw [show (Finset.image (Pipeline.arrRef (cfgs 1).spec) Finset.univ : Finset (Ref sig .tc)) = {main_v5, main_v6} from by decide,
    BI.bigSep_insert (by decide), BI.bigSep_singleton]
  rfl

/-- ENTRY: the core's unscoped buffers at the contents after the reshape are the attention region's arrays at their entry
    contents — the joined projections' array in three parts, one per window reading it — and the rest. -/
theorem entry1 (c : Dev nD) :
    (unscopedBufs c (V3 m ρ c) : sProp 𝕄)
      ⊢ iprop((pdats m ρ 1 c).arrays ((pdats m ρ 1 c).arrAt · 0) ∗ Pipeline.unscopedRest spec1 c (V3 m ρ c)) := by
  rw [Pipeline.unscopedBufs_split₀ (cfgs) 1 winFacts₀1.arr_unscoped c (V3 m ρ c)]
  refine sep_mono ?_ .rfl
  rw [arrays1_eq, arrBufs1_eq]
  show iprop(((c.tc : Thread nD τ).loc main_v5 ↦{fullShare} V3 m ρ c main_v5) ∗ ((c.tc : Thread nD τ).loc main_v6 ↦{fullShare} V3 m ρ c main_v6))
    ⊢ iprop(((c.tc : Thread nD τ).loc main_v5 ↦{fullShare.left} V3 m ρ c main_v5) ∗ ((c.tc : Thread nD τ).loc main_v5 ↦{fullShare.right.left} V3 m ρ c main_v5)
          ∗ ((c.tc : Thread nD τ).loc main_v5 ↦{fullShare.right.right} V3 m ρ c main_v5) ∗ ((c.tc : Thread nD τ).loc main_v6 ↦{fullShare} V3 m ρ c main_v6))
  iintro ⟨H5, H6⟩
  ihave H := (thirds (V3 m ρ c main_v5)).1 $$ H5
  icases H with ⟨Hl, Hrl, Hrr⟩
  isplitl [Hl]; · iexact Hl
  isplitl [Hrl]; · iexact Hrl
  isplitl [Hrr]; · iexact Hrr
  iexact H6

/-- EXIT: the attention region's arrays at their final contents — the three parts of the joined projections' array, never
    written, joined again; the result array at what the write-backs leave — and the rest are the core's unscoped buffers
    at the last boundary's contents. -/
theorem exit1 (c : Dev nD) :
    iprop((pdats m ρ 1 c).arrays ((pdats m ρ 1 c).arrAt · cfg1.N) ∗ Pipeline.unscopedRest spec1 c (V3 m ρ c))
      ⊢ (unscopedBufs c (V4 m ρ c) : sProp 𝕄) := by
  rw [Pipeline.unscopedBufs_split₀ (cfgs) 1 winFacts₀1.arr_unscoped c (V4 m ρ c)]
  refine sep_mono ?_ (Entails.of_eq ?_)
  · rw [arrays1_eq, arrBufs1_eq]
    have e0 : (pdats m ρ 1 c).arrAt 0 cfg1.N = V4 m ρ c main_v5 := hF1 m ρ c 0
    have e1 : (pdats m ρ 1 c).arrAt 1 cfg1.N = V4 m ρ c main_v5 := hF1 m ρ c 1
    have e2 : (pdats m ρ 1 c).arrAt 2 cfg1.N = V4 m ρ c main_v5 := hF1 m ρ c 2
    have e3 : (pdats m ρ 1 c).arrAt 3 cfg1.N = V4 m ρ c main_v6 := hF1 m ρ c 3
    show iprop(((c.tc : Thread nD τ).loc main_v5 ↦{fullShare.left} (pdats m ρ 1 c).arrAt 0 cfg1.N) ∗ ((c.tc : Thread nD τ).loc main_v5 ↦{fullShare.right.left} (pdats m ρ 1 c).arrAt 1 cfg1.N)
          ∗ ((c.tc : Thread nD τ).loc main_v5 ↦{fullShare.right.right} (pdats m ρ 1 c).arrAt 2 cfg1.N) ∗ ((c.tc : Thread nD τ).loc main_v6 ↦{fullShare} (pdats m ρ 1 c).arrAt 3 cfg1.N))
      ⊢ iprop(((c.tc : Thread nD τ).loc main_v5 ↦{fullShare} V4 m ρ c main_v5) ∗ ((c.tc : Thread nD τ).loc main_v6 ↦{fullShare} V4 m ρ c main_v6))
    rw [e0, e1, e2, e3]
    iintro ⟨Hl, Hrl, Hrr, H6⟩
    isplitr [H6]
    · iapply (thirds (V4 m ρ c main_v5)).2
      isplitl [Hl]; · iexact Hl
      isplitl [Hrl] <;> iassumption
    · iexact H6
  · unfold Pipeline.unscopedRest
    exact bigSep_congr fun b hb => by rw [hrest1 m ρ c b (Finset.mem_sdiff.mp hb).2]

/-! ## The regions as segments -/

set_option backward.isDefEq.respectTransparency.types false in
/-- The projection region: entered from every unscoped buffer at the contents after the first host stretch, left at those
    with its output array changed. Its arrays are split out of the unscoped buffers and put back; the generator register
    goes into the invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at the contents after the reshape, left at those with its
    output array changed. The joined projections' array is split among the three windows that read it at the entry and
    joined at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every final
    memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run with the result named: the result array ends at what the attention region's write-backs leave, each argument
    as launched. -/
theorem run_main : θ_run defs (onTc (τ := τ) (main (F := F))) ⟨m, fun _ => 0, ρ⟩ (fun r => ∀ c : Dev nD,
      r.2.mem ((c.tc : Thread nD τ).loc main_v6) = res1 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v6 (by decide))).trans (W4_v6 m ρ c),
     (h c _ (mem_uc main_arg0 (by decide))).trans (W4_arg m ρ c main_arg0 (by decide) (by decide) (by decide) (by decide)),
     (h c _ (mem_uc main_arg1 (by decide))).trans (W4_arg m ρ c main_arg1 (by decide) (by decide) (by decide) (by decide)),
     (h c _ (mem_uc main_arg2 (by decide))).trans (W4_arg m ρ c main_arg2 (by decide) (by decide) (by decide) (by decide)),
     (h c _ (mem_uc main_arg3 (by decide))).trans (W4_arg m ρ c main_arg3 (by decide) (by decide) (by decide) (by decide)),
     (h c _ (mem_uc main_arg4 (by decide))).trans (W4_arg m ρ c main_arg4 (by decide) (by decide) (by decide) (by decide)),
     (h c _ (mem_uc main_arg5 (by decide))).trans (W4_arg m ρ c main_arg5 (by decide) (by decide) (by decide) (by decide)),
     (h c _ (mem_uc main_arg6 (by decide))).trans (W4_arg m ρ c main_arg6 (by decide) (by decide) (by decide) (by decide))⟩)
    (run_all m ρ)

end Cert.Kernel.Hand

end
-- ==== Proof.KI.Lin.lean ====
/-
  The projection kernel's region: at each of the sixteen grid points the body loads a block of 1024 rows of the
  flattened input, the whole joined weight matrix and the whole joined bias, and stores the block's product plus the bias row
  into the output window's buffer. This module states what each window's buffer holds at every point (an input window its
  block of the array as the region finds it, the output window the body's one store) and proves that the body runs from
  those contents to those contents, at any float values.
-/
import proofs.«156074_j40973988004641_2_alg».proof.Proof.Gen.KernelIdeal.Launch
import proofs.«156074_j40973988004641_2_alg».proof.Proof.Gen.KernelIdeal.Skeleton
import proofs.«156074_j40973988004641_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether or not the point fetches it: an
    unfetched point has the same block index as the one before it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_x : Rect S1024x1024 := Rect.unit (s := S1024x1024) ![0, 0] S1024x1024.size inb_S1024x1024_S1024x1024_0_0
abbrev r0_w : Rect S1024x3072 := Rect.unit (s := S1024x3072) ![0, 0] S1024x3072.size inb_S1024x3072_S1024x3072_0_0
abbrev r0_b : Rect S3072 := Rect.unit (s := S3072) ![0] S3072.size inb_S3072_S3072_0

/-- The output window's buffer after the body, from the input windows' blocks: its one store. -/
def out0_3 (x0 : Vec F S1024x1024 .f32) (x1 : Vec F S1024x3072 .bf16) (x2 : Vec F S3072 .f32) : Vec F S1024x3072 .bf16 :=
  View.canon [⟨r0_w, k0_pay1 (View.ld x0 r0_x) (View.ld x1 r0_w) (View.ld x2 r0_b)⟩]

/-- The store covers the buffer. -/
theorem cover0_3 (p0 : Vec F S1024x3072 .bf16) (y : S1024x3072.Idx) :
    ∃ pc ∈ ([⟨r0_w, p0⟩] : List (View.Piece (Elt F) S1024x3072 .bf16)), y ∈ pc.1.set :=
  View.cover_of_tiled [⟨r0_w, p0⟩] S1024x3072.size (by rfl) y

set_option maxHeartbeats 1000000 in
/-- The body on whole buffers, the inputs' at contents x0, x1, x2 and the output's at anything, runs to the continuation
    holding the inputs' as they were and the output's at the store's value. -/
theorem sound_kernel0 (c : Dev nD) (E : Set ℕ) (i : grid0.Coords) (arg1 : Memref sig .tc .vmem S1024x1024 .f32) (harg1 : arg1.IsWhole)
    (arg2 : Memref sig .tc .vmem S1024x3072 .bf16) (harg2 : arg2.IsWhole) (arg3 : Memref sig .tc .vmem S3072 .f32) (harg3 : arg3.IsWhole)
    (arg4 : Memref sig .tc .vmem S1024x3072 .bf16) (harg4 : arg4.IsWhole)
    (x0 : Vec F S1024x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_linear_kernel i arg1 harg1 arg2 harg2 arg3 harg3 arg4 harg4) K := by
  simp only [cc0_linear_kernel_eq_skeleton]; unfold cc0_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core c: the arrays as the region finds them; after the body at point t each input's
    buffer at its block and the output's at the store's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Att.lean ====
/-
  The attention kernel's region: at each of the sixteen grid points (a batch and a half of its queries) the body loads
  the block of 1024 queries, the batch's 2048 keys and its 2048 values — three blocks of ONE array, the joined projections —
  and stores the block of attention outputs into the output window's buffer. This module states what each window's buffer
  holds at every point (an input window its block of the array as the region finds it, the output window the body's one
  store) and proves that the body runs from those contents to those contents, at any float values.
-/
import proofs.«156074_j40973988004641_2_alg».proof.Proof.Gen.KernelIdeal.Launch
import proofs.«156074_j40973988004641_2_alg».proof.Proof.Gen.KernelIdeal.Skeleton
import proofs.«156074_j40973988004641_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether or not the point fetches it: an
    unfetched point has the same block index as the one before it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each buffer whole. -/
abbrev r1_q : Rect S1x1024x1024 := Rect.unit (s := S1x1024x1024) ![0, 0, 0] S1x1024x1024.size inb_S1x1024x1024_S1x1024x1024_0_0_0
abbrev r1_k : Rect S1x2048x1024 := Rect.unit (s := S1x2048x1024) ![0, 0, 0] S1x2048x1024.size inb_S1x2048x1024_S1x2048x1024_0_0_0

/-- The output window's buffer after the body, from the input windows' blocks: its one store. -/
def out1_3 (x0 : Vec F S1x1024x1024 .bf16) (x1 : Vec F S1x2048x1024 .bf16) (x2 : Vec F S1x2048x1024 .bf16) : Vec F S1x1024x1024 .f32 :=
  View.canon [⟨r1_q, k1_pay1 (View.ld x0 r1_q) (View.ld x1 r1_k) (View.ld x2 r1_k)⟩]

/-- The store covers the buffer. -/
theorem cover1_3 (p0 : Vec F S1x1024x1024 .f32) (y : S1x1024x1024.Idx) :
    ∃ pc ∈ ([⟨r1_q, p0⟩] : List (View.Piece (Elt F) S1x1024x1024 .f32)), y ∈ pc.1.set :=
  View.cover_of_tiled [⟨r1_q, p0⟩] S1x1024x1024.size (by rfl) y

set_option maxHeartbeats 1000000 in
/-- The body on whole buffers, the inputs' at contents x0, x1, x2 and the output's at anything, runs to the continuation
    holding the inputs' as they were and the output's at the store's value. -/
theorem sound_kernel1 (c : Dev nD) (E : Set ℕ) (i : grid1.Coords) (arg2 : Memref sig .tc .vmem S1x1024x1024 .bf16) (harg2 : arg2.IsWhole)
    (arg3 : Memref sig .tc .vmem S1x2048x1024 .bf16) (harg3 : arg3.IsWhole) (arg4 : Memref sig .tc .vmem S1x2048x1024 .bf16) (harg4 : arg4.IsWhole)
    (arg5 : Memref sig .tc .vmem S1x1024x1024 .f32) (harg5 : arg5.IsWhole)
    (x0 : Vec F S1x1024x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1_attn_kernel i arg2 harg2 arg3 harg3 arg4 harg4 arg5 harg5) K := by
  simp only [cc1_attn_kernel_eq_skeleton]; unfold cc1_attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The three input windows read ONE array: the core holds it for each of them at a third of the whole — the left half,
    and the two halves of the right half. -/
def share1 : Fin cfg1.W → PosShare TreeShare
  | ⟨0, _⟩ => fullShare.left
  | ⟨1, _⟩ => fullShare.right.left
  | ⟨2, _⟩ => fullShare.right.right
  | ⟨3, _⟩ => fullShare

/-- The region's proof data on core c: the arrays as the region finds them; after the body at point t each input's
    buffer at its block and the output's at the store's value of the input blocks; nothing owed; the input windows' shares
    of their one array as above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := share1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The program's run, at any float values: the host operations before the first region, the projection region, the reshape
  between the regions, the attention region. The buffer contents at each boundary are a fold from the launch memory: a host
  stretch applies its operations, a region changes its output array alone, to what the write-backs of its sixteen points
  leave there. The attention region reads the joined projections through three windows, so the core's hold on that one
  array is split in three at the region's entry and joined again at its exit. Every weakly fair execution terminates with
  every unscoped buffer at the last boundary's contents; in particular each argument as launched and the result array at
  what the attention region's write-backs leave.
-/
import proofs.«156074_j40973988004641_2_alg».proof.Proof.KI.Lin
import proofs.«156074_j40973988004641_2_alg».proof.Proof.KI.Att
import proofs.«156074_j40973988004641_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (HostSeg RegionSeg Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- What the projection region's write-backs leave in its output array. -/
def res0 (c : Dev nD) : Buf (Elt F) ((c : Thread nD τ).loc main_v4) := (dat0 (V1 m ρ) c).arrAt 3 cfg0.N
/-- At the projection region's exit: its output array at that, every other buffer as entered. -/
def W2 (c : Dev nD) : Valuation τ sig (Elt F) := Function.update (W1 m ρ c) main_v4 (res0 m ρ c)
abbrev V2 : (c : Dev nD) → (b : Ref sig .tc) → Buf (Elt F) ((c : Thread nD τ).loc b) := fun c b => W2 m ρ c b
/-- After the reshape between the regions (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- What the attention region's write-backs leave in its output array. -/
def res1 (c : Dev nD) : Buf (Elt F) ((c : Thread nD τ).loc main_v6) := (dat1 (V3 m ρ) c).arrAt 3 cfg1.N
/-- At the attention region's exit. -/
def W4 (c : Dev nD) : Valuation τ sig (Elt F) := Function.update (W3 m ρ c) main_v6 (res1 m ρ c)
abbrev V4 : (c : Dev nD) → (b : Ref sig .tc) → Buf (Elt F) ((c : Thread nD τ).loc b) := fun c b => W4 m ρ c b

theorem W2_v4 (c : Dev nD) : W2 m ρ c main_v4 = res0 m ρ c := by unfold W2; exact Function.update_self ..
theorem W2_of_ne (c : Dev nD) (b : Ref sig .tc) (hb : b ≠ main_v4) : W2 m ρ c b = W1 m ρ c b := by
  unfold W2; exact Function.update_of_ne (StableHlo.devRef_ne_of_ne hb) ..
theorem W4_v6 (c : Dev nD) : W4 m ρ c main_v6 = res1 m ρ c := by unfold W4; exact Function.update_self ..
theorem W4_of_ne (c : Dev nD) (b : Ref sig .tc) (hb : b ≠ main_v6) : W4 m ρ c b = W3 m ρ c b := by
  unfold W4; exact Function.update_of_ne (StableHlo.devRef_ne_of_ne hb) ..
theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h

/-- A buffer no host operation writes and no region changes ends as launched. -/
theorem W4_arg (c : Dev nD) (r : Ref sig .tc) (h6 : r ≠ main_v6) (h1 : r ∉ hostOps1_W) (h4 : r ≠ main_v4) (h0 : r ∉ hostOps0_W) :
    W4 m ρ c r = m ((c : Thread nD τ).loc r) :=
  (W4_of_ne m ρ c r h6).trans <| (W3_of m ρ c r h1).trans <| (W2_of_ne m ρ c r h4).trans <| (W1_of m ρ c r h0).trans rfl

/-- Each array of the projection region at its exit: the inputs as entered, the output at what the write-backs leave. -/
theorem hF0 (c : Dev nD) (w : Fin cfg0.W) : (dat0 (V1 m ρ) c).arrAt w cfg0.N = V2 m ρ c (Pipeline.arrRef spec0 w) := by
  match w with
  | ⟨0, _⟩ => exact ((dat0 (V1 m ρ) c).arrAt_in 0 rfl _).trans ((A_eq0 (V1 m ρ) c 0).trans (W2_of_ne m ρ c main_v0 (by decide)).symm)
  | ⟨1, _⟩ => exact ((dat0 (V1 m ρ) c).arrAt_in 1 rfl _).trans ((A_eq0 (V1 m ρ) c 1).trans (W2_of_ne m ρ c main_v2 (by decide)).symm)
  | ⟨2, _⟩ => exact ((dat0 (V1 m ρ) c).arrAt_in 2 rfl _).trans ((A_eq0 (V1 m ρ) c 2).trans (W2_of_ne m ρ c main_v3 (by decide)).symm)
  | ⟨3, _⟩ => exact (W2_v4 m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨3, Finset.mem_univ _, e.symm⟩)
/-- Each array of the attention region at its exit. -/
theorem hF1 (c : Dev nD) (w : Fin cfg1.W) : (dat1 (V3 m ρ) c).arrAt w cfg1.N = V4 m ρ c (Pipeline.arrRef spec1 w) := by
  match w with
  | ⟨0, _⟩ => exact ((dat1 (V3 m ρ) c).arrAt_in 0 rfl _).trans ((A_eq1 (V3 m ρ) c 0).trans (W4_of_ne m ρ c main_v5 (by decide)).symm)
  | ⟨1, _⟩ => exact ((dat1 (V3 m ρ) c).arrAt_in 1 rfl _).trans ((A_eq1 (V3 m ρ) c 1).trans (W4_of_ne m ρ c main_v5 (by decide)).symm)
  | ⟨2, _⟩ => exact ((dat1 (V3 m ρ) c).arrAt_in 2 rfl _).trans ((A_eq1 (V3 m ρ) c 2).trans (W4_of_ne m ρ c main_v5 (by decide)).symm)
  | ⟨3, _⟩ => exact (W4_v6 m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The attention region's one shared array: split at the entry, joined at the exit -/

/-- A buffer held whole is held in three parts: the left half, and the two halves of the right half. -/
theorem thirds {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  constructor
  · iintro H
    ihave H' := (pointsTo_share (PosShare.mem_left_op_right fullShare)).1 $$ H
    icases H' with ⟨Hl, Hr⟩
    ihave Hr' := (pointsTo_share (PosShare.mem_left_op_right fullShare.right)).1 $$ Hr
    icases Hr' with ⟨Hrl, Hrr⟩
    isplitl [Hl]; · iexact Hl
    isplitl [Hrl] <;> iassumption
  · iintro ⟨Hl, Hrl, Hrr⟩
    iapply (pointsTo_share (PosShare.mem_left_op_right fullShare)).2
    isplitl [Hl]; · iexact Hl
    iapply (pointsTo_share (PosShare.mem_left_op_right fullShare.right)).2
    isplitl [Hrl] <;> iassumption

/-- The attention region's arrays, window by window: the joined projections' array at its three parts, the result
    array whole. -/
theorem arrays1_eq (c : Dev nD) (Fa : (w : Fin cfg1.W) → Buf (Elt F) ((cfg1.win w).arr.view.loc (c.tc : Thread nD τ))) :
    ((pdats m ρ 1 c).arrays Fa : sProp 𝕄)
      = iprop(((c.tc : Thread nD τ).loc main_v5 ↦{fullShare.left} Fa 0) ∗ ((c.tc : Thread nD τ).loc main_v5 ↦{fullShare.right.left} Fa 1)
          ∗ ((c.tc : Thread nD τ).loc main_v5 ↦{fullShare.right.right} Fa 2) ∗ ((c.tc : Thread nD τ).loc main_v6 ↦{fullShare} Fa 3)) := by
  unfold Dat.arrays
  rw [bigSep_W1]
  have s0 : ((Pipeline.pin (pcfgs (F := F)) adm 1).win (0 : Fin 4)).arr.view.set = Finset.univ := (arr_whole1 0).set_eq_univ
  have s1 : ((Pipeline.pin (pcfgs (F := F)) adm 1).win (1 : Fin 4)).arr.view.set = Finset.univ := (arr_whole1 1).set_eq_univ
  have s2 : ((Pipeline.pin (pcfgs (F := F)) adm 1).win (2 : Fin 4)).arr.view.set = Finset.univ := (arr_whole1 2).set_eq_univ
  have s3 : ((Pipeline.pin (pcfgs (F := F)) adm 1).win (3 : Fin 4)).arr.view.set = Finset.univ := (arr_whole1 3).set_eq_univ
  rw [s0, s1, s2, s3]
  rfl

/-- The two buffers behind the attention region's arrays. -/
theorem arrBufs1_eq (c : Dev nD) (V : (b : Ref sig .tc) → Buf (Elt F) ((c : Thread nD τ).loc b)) :
    (Pipeline.arrBufs (Ix := Unit) (Name := ℕ) (U := UR sig nD τ) (Lvl := ℕ) (cfgs 1).spec c V : sProp 𝕄)
      = iprop(((c.tc : Thread nD τ).loc main_v5 ↦{fullShare} V main_v5) ∗ ((c.tc : Thread nD τ).loc main_v6 ↦{fullShare} V main_v6)) := by
  unfold Pipeline.arrBufs
  rw [show (Finset.image (Pipeline.arrRef (cfgs 1).spec) Finset.univ : Finset (Ref sig .tc)) = {main_v5, main_v6} from by decide,
    BI.bigSep_insert (by decide), BI.bigSep_singleton]
  rfl

/-- ENTRY: the core's unscoped buffers at the contents after the reshape are the attention region's arrays at their entry
    contents — the joined projections' array in three parts, one per window reading it — and the rest. -/
theorem entry1 (c : Dev nD) :
    (unscopedBufs c (V3 m ρ c) : sProp 𝕄)
      ⊢ iprop((pdats m ρ 1 c).arrays ((pdats m ρ 1 c).arrAt · 0) ∗ Pipeline.unscopedRest spec1 c (V3 m ρ c)) := by
  rw [Pipeline.unscopedBufs_split₀ (cfgs) 1 winFacts₀1.arr_unscoped c (V3 m ρ c)]
  refine sep_mono ?_ .rfl
  rw [arrays1_eq, arrBufs1_eq]
  show iprop(((c.tc : Thread nD τ).loc main_v5 ↦{fullShare} V3 m ρ c main_v5) ∗ ((c.tc : Thread nD τ).loc main_v6 ↦{fullShare} V3 m ρ c main_v6))
    ⊢ iprop(((c.tc : Thread nD τ).loc main_v5 ↦{fullShare.left} V3 m ρ c main_v5) ∗ ((c.tc : Thread nD τ).loc main_v5 ↦{fullShare.right.left} V3 m ρ c main_v5)
          ∗ ((c.tc : Thread nD τ).loc main_v5 ↦{fullShare.right.right} V3 m ρ c main_v5) ∗ ((c.tc : Thread nD τ).loc main_v6 ↦{fullShare} V3 m ρ c main_v6))
  iintro ⟨H5, H6⟩
  ihave H := (thirds (V3 m ρ c main_v5)).1 $$ H5
  icases H with ⟨Hl, Hrl, Hrr⟩
  isplitl [Hl]; · iexact Hl
  isplitl [Hrl]; · iexact Hrl
  isplitl [Hrr]; · iexact Hrr
  iexact H6

/-- EXIT: the attention region's arrays at their final contents — the three parts of the joined projections' array, never
    written, joined again; the result array at what the write-backs leave — and the rest are the core's unscoped buffers
    at the last boundary's contents. -/
theorem exit1 (c : Dev nD) :
    iprop((pdats m ρ 1 c).arrays ((pdats m ρ 1 c).arrAt · cfg1.N) ∗ Pipeline.unscopedRest spec1 c (V3 m ρ c))
      ⊢ (unscopedBufs c (V4 m ρ c) : sProp 𝕄) := by
  rw [Pipeline.unscopedBufs_split₀ (cfgs) 1 winFacts₀1.arr_unscoped c (V4 m ρ c)]
  refine sep_mono ?_ (Entails.of_eq ?_)
  · rw [arrays1_eq, arrBufs1_eq]
    have e0 : (pdats m ρ 1 c).arrAt 0 cfg1.N = V4 m ρ c main_v5 := hF1 m ρ c 0
    have e1 : (pdats m ρ 1 c).arrAt 1 cfg1.N = V4 m ρ c main_v5 := hF1 m ρ c 1
    have e2 : (pdats m ρ 1 c).arrAt 2 cfg1.N = V4 m ρ c main_v5 := hF1 m ρ c 2
    have e3 : (pdats m ρ 1 c).arrAt 3 cfg1.N = V4 m ρ c main_v6 := hF1 m ρ c 3
    show iprop(((c.tc : Thread nD τ).loc main_v5 ↦{fullShare.left} (pdats m ρ 1 c).arrAt 0 cfg1.N) ∗ ((c.tc : Thread nD τ).loc main_v5 ↦{fullShare.right.left} (pdats m ρ 1 c).arrAt 1 cfg1.N)
          ∗ ((c.tc : Thread nD τ).loc main_v5 ↦{fullShare.right.right} (pdats m ρ 1 c).arrAt 2 cfg1.N) ∗ ((c.tc : Thread nD τ).loc main_v6 ↦{fullShare} (pdats m ρ 1 c).arrAt 3 cfg1.N))
      ⊢ iprop(((c.tc : Thread nD τ).loc main_v5 ↦{fullShare} V4 m ρ c main_v5) ∗ ((c.tc : Thread nD τ).loc main_v6 ↦{fullShare} V4 m ρ c main_v6))
    rw [e0, e1, e2, e3]
    iintro ⟨Hl, Hrl, Hrr, H6⟩
    isplitr [H6]
    · iapply (thirds (V4 m ρ c main_v5)).2
      isplitl [Hl]; · iexact Hl
      isplitl [Hrl] <;> iassumption
    · iexact H6
  · unfold Pipeline.unscopedRest
    exact bigSep_congr fun b hb => by rw [hrest1 m ρ c b (Finset.mem_sdiff.mp hb).2]

/-! ## The regions as segments -/

set_option backward.isDefEq.respectTransparency.types false in
/-- The projection region: entered from every unscoped buffer at the contents after the first host stretch, left at those
    with its output array changed. Its arrays are split out of the unscoped buffers and put back; the generator register
    goes into the invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at the contents after the reshape, left at those with its
    output array changed. The joined projections' array is split among the three windows that read it at the entry and
    joined at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every final
    memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run with the result named: the result array ends at what the attention region's write-backs leave, each argument
    as launched. -/
theorem run_main : θ_run defs (onTc (τ := τ) (main (F := F))) ⟨m, fun _ => 0, ρ⟩ (fun r => ∀ c : Dev nD,
      r.2.mem ((c.tc : Thread nD τ).loc main_v6) = res1 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v6 (by decide))).trans (W4_v6 m ρ c),
     (h c _ (mem_uc main_arg0 (by decide))).trans (W4_arg m ρ c main_arg0 (by decide) (by decide) (by decide) (by decide)),
     (h c _ (mem_uc main_arg1 (by decide))).trans (W4_arg m ρ c main_arg1 (by decide) (by decide) (by decide) (by decide)),
     (h c _ (mem_uc main_arg2 (by decide))).trans (W4_arg m ρ c main_arg2 (by decide) (by decide) (by decide) (by decide)),
     (h c _ (mem_uc main_arg3 (by decide))).trans (W4_arg m ρ c main_arg3 (by decide) (by decide) (by decide) (by decide)),
     (h c _ (mem_uc main_arg4 (by decide))).trans (W4_arg m ρ c main_arg4 (by decide) (by decide) (by decide) (by decide)),
     (h c _ (mem_uc main_arg5 (by decide))).trans (W4_arg m ρ c main_arg5 (by decide) (by decide) (by decide) (by decide)),
     (h c _ (mem_uc main_arg6 (by decide))).trans (W4_arg m ρ c main_arg6 (by decide) (by decide) (by decide) (by decide))⟩)
    (run_all m ρ)

end Cert.KernelIdeal.Hand

end
-- ==== Proof.KI.Final1.lean ====
/-
  What the attention region leaves in the result array, entry by entry: every grid point — a batch β and a half i of its
  queries — writes back the block of rows i·1024 … i·1024+1023 of batch β, the body's store computed from the block of those
  queries (columns 0 … 1023 of the joined projections), the batch's keys (columns 1024 … 2047) and its values (columns
  2048 … 3071); the sixteen blocks tile the array.
-/
import proofs.«156074_j40973988004641_2_alg».proof.Proof.KI.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg) (c : Dev nD)

/-- The block of queries of batch β, half i: rows i·1024 + r, columns 0 … 1023 of the joined projections. -/
def qblk (A : S8x2048x3072.Idx → EReal) (β : Fin 8) (i : Fin 2) : Vec Ideal S1x1024x1024 .bf16 := fun y =>
  A (ix3 β ⟨i.val * 1024 + (y 1).val, by have := i.isLt; have h : (y 1).val < 1024 := (y 1).isLt; omega⟩
    ⟨(y 2).val, by have h : (y 2).val < 1024 := (y 2).isLt; omega⟩)
/-- The keys of batch β: columns 1024 … 2047. -/
def kblk (A : S8x2048x3072.Idx → EReal) (β : Fin 8) : Vec Ideal S1x2048x1024 .bf16 := fun y =>
  A (ix3 β ⟨(y 1).val, (y 1).isLt⟩ ⟨1024 + (y 2).val, by have h : (y 2).val < 1024 := (y 2).isLt; omega⟩)
/-- The values of batch β: columns 2048 … 3071. -/
def vblk (A : S8x2048x3072.Idx → EReal) (β : Fin 8) : Vec Ideal S1x2048x1024 .bf16 := fun y =>
  A (ix3 β ⟨(y 1).val, (y 1).isLt⟩ ⟨2048 + (y 2).val, by have h : (y 2).val < 1024 := (y 2).isLt; omega⟩)

/-- The result array as one function of the joined projections: entry (β, q, c) is the body's store for batch β and the
    half of q, read at row q mod 1024 and column c. -/
def G1 (A : S8x2048x3072.Idx → EReal) : S8x2048x1024.Idx → EReal := fun i =>
  k1_pay1 (F := Ideal) (qblk A ⟨(i 0).val, (i 0).isLt⟩ ⟨(i 1).val / 1024, by have h : (i 1).val < 2048 := (i 1).isLt; omega⟩)
    (kblk A ⟨(i 0).val, (i 0).isLt⟩) (vblk A ⟨(i 0).val, (i 0).isLt⟩)
    (ix3 (0 : Fin 1) ⟨(i 1).val % 1024, Nat.mod_lt _ (by decide)⟩ ⟨(i 2).val, (i 2).isLt⟩)

theorem hz3 : (![0, 0, 0] : Fin 3 → Nat) = fun _ => 0 := funext fun a => by fin_cases a <;> rfl

/-- The printed index maps, decided over the grid: point t is batch t / 2, half t mod 2; the queries' window moves with the
    output's; the keys' and values' windows sit at the batch's block, column blocks 1 and 2. -/
theorem idx_facts1 : ∀ t : Fin cfg1.N, win1_3.index t (0 : Fin 3) = t.val / 2 ∧ win1_3.index t (1 : Fin 3) = t.val % 2 ∧ win1_3.index t (2 : Fin 3) = 0
    ∧ win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = 0 ∧ win1_1.index t (2 : Fin 3) = 1
    ∧ win1_2.index t (0 : Fin 3) = t.val / 2 ∧ win1_2.index t (1 : Fin 3) = 0 ∧ win1_2.index t (2 : Fin 3) = 2 :=
  (by decide +kernel : ∀ t : Fin grid1.N, _)

theorem t_div (t : Fin cfg1.N) : t.val / 2 < 8 := by
  have h : t.val < cfg1.N := t.isLt
  have hN : cfg1.N = 16 := N_1
  omega
theorem t_mod (t : Fin cfg1.N) : t.val % 2 < 2 := Nat.mod_lt _ (by decide)

/-- The queries' window at point t holds the block of batch t / 2, half t mod 2. -/
theorem iblk1_q (V : (c : Dev nD) → (b : Ref sig .tc) → Buf (Elt Ideal) ((c : Thread nD τ).loc b)) (t : Fin cfg1.N) :
    iblk1 V c 0 t = qblk (V c main_v5) ⟨t.val / 2, t_div t⟩ ⟨t.val % 2, t_mod t⟩ := by
  obtain ⟨-, -, -, e0, e1, e2, -⟩ := idx_facts1 t
  funext y
  show V c main_v5 (((cfg1.win 0).blk t).view.emb y) = V c main_v5 _
  refine congrArg _ ?_
  funext a; apply Fin.ext
  match a with
  | ⟨0, _⟩ => show win1_0.index t (0 : Fin 3) * 1 + 1 * (y 0).val = t.val / 2; have hy : (y 0).val < 1 := (y 0).isLt; omega
  | ⟨1, _⟩ => show win1_0.index t (1 : Fin 3) * 1024 + 1 * (y 1).val = t.val % 2 * 1024 + (y 1).val; omega
  | ⟨2, _⟩ => show win1_0.index t (2 : Fin 3) * 1024 + 1 * (y 2).val = (y 2).val; omega

/-- The keys' window at point t holds batch t / 2's keys. -/
theorem iblk1_k (V : (c : Dev nD) → (b : Ref sig .tc) → Buf (Elt Ideal) ((c : Thread nD τ).loc b)) (t : Fin cfg1.N) :
    iblk1 V c 1 t = kblk (V c main_v5) ⟨t.val / 2, t_div t⟩ := by
  obtain ⟨-, -, -, -, -, -, e0, e1, e2, -⟩ := idx_facts1 t
  funext y
  show V c main_v5 (((cfg1.win 1).blk t).view.emb y) = V c main_v5 _
  refine congrArg _ ?_
  funext a; apply Fin.ext
  match a with
  | ⟨0, _⟩ => show win1_1.index t (0 : Fin 3) * 1 + 1 * (y 0).val = t.val / 2; have hy : (y 0).val < 1 := (y 0).isLt; omega
  | ⟨1, _⟩ => show win1_1.index t (1 : Fin 3) * 2048 + 1 * (y 1).val = (y 1).val; omega
  | ⟨2, _⟩ => show win1_1.index t (2 : Fin 3) * 1024 + 1 * (y 2).val = 1024 + (y 2).val; omega

/-- The values' window at point t holds batch t / 2's values. -/
theorem iblk1_v (V : (c : Dev nD) → (b : Ref sig .tc) → Buf (Elt Ideal) ((c : Thread nD τ).loc b)) (t : Fin cfg1.N) :
    iblk1 V c 2 t = vblk (V c main_v5) ⟨t.val / 2, t_div t⟩ := by
  obtain ⟨-, -, -, -, -, -, -, -, -, e0, e1, e2⟩ := idx_facts1 t
  funext y
  show V c main_v5 (((cfg1.win 2).blk t).view.emb y) = V c main_v5 _
  refine congrArg _ ?_
  funext a; apply Fin.ext
  match a with
  | ⟨0, _⟩ => show win1_2.index t (0 : Fin 3) * 1 + 1 * (y 0).val = t.val / 2; have hy : (y 0).val < 1 := (y 0).isLt; omega
  | ⟨1, _⟩ => show win1_2.index t (1 : Fin 3) * 2048 + 1 * (y 1).val = (y 1).val; omega
  | ⟨2, _⟩ => show win1_2.index t (2 : Fin 3) * 1024 + 1 * (y 2).val = 2048 + (y 2).val; omega

/-- The whole-array function at an index whose coordinates are batch β, row i·1024 + r, column cc. -/
theorem G1_at (A : S8x2048x3072.Idx → EReal) (β : Fin 8) (i : Fin 2) (r cc : Fin 1024) (j : S8x2048x1024.Idx)
    (h0 : (j 0).val = β.val) (h1 : (j 1).val = i.val * 1024 + r.val) (h2 : (j 2).val = cc.val) :
    G1 A j = k1_pay1 (F := Ideal) (qblk A β i) (kblk A β) (vblk A β) (ix3 (0 : Fin 1) r cc) := by
  obtain rfl : β = ⟨(j 0).val, (j 0).isLt⟩ := Fin.ext h0.symm
  obtain rfl : cc = ⟨(j 2).val, (j 2).isLt⟩ := Fin.ext h2.symm
  have hr := r.isLt
  obtain rfl : i = ⟨(j 1).val / 1024, by have h : (j 1).val < 2048 := (j 1).isLt; clear h1; omega⟩ := Fin.ext (by show i.val = (j 1).val / 1024; omega)
  obtain rfl : r = ⟨(j 1).val % 1024, Nat.mod_lt _ (by decide)⟩ := Fin.ext (by show r.val = (j 1).val % 1024; simp only [] at h1; omega)
  rfl

/-- WHAT POINT t WRITES BACK is block t of the whole-array function of the joined projections as the region finds them. -/
theorem flushed1_eq (t : Fin cfg1.N) :
    (dat1 (V3 (F := Ideal) m ρ) c).flushed 3 t = ((cfg1.win 3).blk t).view.read (Elt Ideal) (G1 (V3 (F := Ideal) m ρ c main_v5)) := by
  show (cfg1.win 3).cut (grid1.coords t) ((dat1 (V3 (F := Ideal) m ρ) c).after 3 t) = _
  rw [after1_3]
  unfold out1_3
  rw [View.canon_unit_zero hz3]
  simp only [View.ld_unit_zero (S := S1x1024x1024) hz3, View.ld_unit_zero (S := S1x2048x1024) hz3]
  rw [iblk1_q, iblk1_k, iblk1_v]
  obtain ⟨e0, e1, e2, -⟩ := idx_facts1 t
  funext y
  show k1_pay1 (F := Ideal) _ _ _ y = G1 (V3 (F := Ideal) m ρ c main_v5) (((cfg1.win 3).blk t).view.emb y)
  have hy0 : (y 0).val < 1 := (y 0).isLt
  rw [G1_at (V3 (F := Ideal) m ρ c main_v5) ⟨t.val / 2, t_div t⟩ ⟨t.val % 2, t_mod t⟩ ⟨(y 1).val, (y 1).isLt⟩ ⟨(y 2).val, (y 2).isLt⟩
    (((cfg1.win 3).blk t).view.emb y)
    (by show win1_3.index t (0 : Fin 3) * 1 + 1 * (y 0).val = t.val / 2; omega)
    (by show win1_3.index t (1 : Fin 3) * 1024 + 1 * (y 1).val = t.val % 2 * 1024 + (y 1).val; omega)
    (by show win1_3.index t (2 : Fin 3) * 1024 + 1 * (y 2).val = (y 2).val; omega)]
  refine congrArg _ ?_
  funext a; apply Fin.ext
  match a with
  | ⟨0, _⟩ => show (y 0).val = 0; omega
  | ⟨1, _⟩ => rfl
  | ⟨2, _⟩ => rfl

/-- An index of the array is in point t's block iff each coordinate is in the block's range on its axis. -/
theorem mem_blk1 (t : Fin cfg1.N) (i : S8x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v6).slice (win1_3.rect t)).set ↔ _
  rw [View.set_slice_whole, Rect.mem_set_unit]
  exact Iff.rfl

/-- The sixteen blocks tile the array: entry (β, q, c) is in the block of point 2β + q / 1024. -/
theorem cover1 (i : S8x2048x1024.Idx) : ∃ t : Fin cfg1.N, (cfg1.win 3).flush t = true ∧ i ∈ ((cfg1.win 3).blk t).view.set := by
  have h0 : (i 0).val < 8 := (i 0).isLt
  have h1 : (i 1).val < 2048 := (i 1).isLt
  have h2 : (i 2).val < 1024 := (i 2).isLt
  refine ⟨⟨(i 0).val * 2 + (i 1).val / 1024, by have hN : cfg1.N = 16 := N_1; omega⟩, flush1_3 _, ?_⟩
  rw [mem_blk1]
  obtain ⟨e0, e1, e2, -⟩ := idx_facts1 ⟨(i 0).val * 2 + (i 1).val / 1024, by have hN : cfg1.N = 16 := N_1; omega⟩
  intro a
  match a with
  | ⟨0, _⟩ =>
    show win1_3.index _ (0 : Fin 3) * 1 ≤ (i 0).val ∧ (i 0).val < win1_3.index _ (0 : Fin 3) * 1 + 1
    simp only [] at e0; omega
  | ⟨1, _⟩ =>
    show win1_3.index _ (1 : Fin 3) * 1024 ≤ (i 1).val ∧ (i 1).val < win1_3.index _ (1 : Fin 3) * 1024 + 1024
    simp only [] at e1; omega
  | ⟨2, _⟩ =>
    show win1_3.index _ (2 : Fin 3) * 1024 ≤ (i 2).val ∧ (i 2).val < win1_3.index _ (2 : Fin 3) * 1024 + 1024
    omega

/-- THE RESULT ARRAY after the run: the whole-array function of the joined projections as the region finds them. -/
theorem res1_eq : res1 (F := Ideal) m ρ c = G1 (V3 (F := Ideal) m ρ c main_v5) := by
  unfold res1
  exact (dat1 (V3 (F := Ideal) m ρ) c).arrAt_eq_of_cover 3 (G1 (V3 (F := Ideal) m ρ c main_v5)) (fun t _ => flushed1_eq m ρ c t) cover1

/-- Entry (β, i·1024 + r, cc) of the result array: the body's store for batch β and half i, read at row r and column cc. -/
theorem res1_apply (β : Fin 8) (i : Fin 2) (r cc : Fin 1024) :
    (res1 (F := Ideal) m ρ c : S8x2048x1024.Idx → EReal) (ix3 β ⟨i.val * 1024 + r.val, by have := i.isLt; have := r.isLt; omega⟩ cc)
      = k1_pay1 (F := Ideal) (qblk (V3 (F := Ideal) m ρ c main_v5) β i) (kblk (V3 (F := Ideal) m ρ c main_v5) β) (vblk (V3 (F := Ideal) m ρ c main_v5) β)
          (ix3 (0 : Fin 1) r cc) := by
  rw [res1_eq]
  exact G1_at _ β i r cc _ rfl rfl rfl

theorem qblk_apply (A : S8x2048x3072.Idx → EReal) (β : Fin 8) (i : Fin 2) (r d : Fin 1024) :
    qblk A β i (ix3 (0 : Fin 1) r d) = A (ix3 β ⟨i.val * 1024 + r.val, by have := i.isLt; have := r.isLt; omega⟩ ⟨d.val, by have := d.isLt; omega⟩) := rfl
theorem kblk_apply (A : S8x2048x3072.Idx → EReal) (β : Fin 8) (k : Fin 2048) (d : Fin 1024) :
    kblk A β (ix3 (0 : Fin 1) k d) = A (ix3 β k ⟨1024 + d.val, by have := d.isLt; omega⟩) := rfl
theorem vblk_apply (A : S8x2048x3072.Idx → EReal) (β : Fin 8) (k : Fin 2048) (d : Fin 1024) :
    vblk A β (ix3 (0 : Fin 1) k d) = A (ix3 β k ⟨2048 + d.val, by have := d.isLt; omega⟩) := rfl

end Cert.KernelIdeal.Hand

end
-- ==== Proof.LibSoftmax.lean ====
/-
  A row softmax read entry by entry on the extended reals.

  For a matrix L with M rows and K columns, the softmax along the rows subtracts each row's maximum, exponentiates,
  and divides by the row's sum of exponentials: entry (r, k) is exp(L(r,k) − max_j L(r,j)) / Σ_j exp(L(r,j) − max_j' L(r,j')).
  The maximum is the fold of max from −∞ over the row and the sum a finite sum over the row. A tiled kernel takes the
  maximum and the sum as lane reductions kept as columns [M, 1] and broadcast back along the rows; read at an entry this is
  the same expression. Nothing is cancelled or distributed, so the statements hold for every extended-real entry.
  Stated for any extents.
-/
import Idealize.ShloMosaic.Lib.ValueLayout
import Idealize.ShloMosaic.Lib.ValueIdx
import Idealize.ShloMosaic.Lib.Pipeline.Value
import Idealize.ShloMosaic.PureOps.Ideal.Laws

noncomputable section

namespace Cert.Softmax

open Idealize.ShloMosaic Idealize.ShloMosaic.ValueIdx
open scoped BigOperators

variable {M K : ℕ}

/-- The float word of −∞ read at the ideal values. -/
abbrev negInfWord : EReal := Ideal.ofBits .f32 0xFF800000#32

/-- The maximum of row r: the fold of max from −∞ over the row's entries. -/
def rowMax (L : (⟨2, ![M, K]⟩ : Shape).Idx → EReal) (r : Fin M) : EReal :=
  (Finset.univ : Finset (Fin K)).fold max negInfWord (fun k => L (ix2 r k))

/-- exp(L(r,k) − max of row r). -/
def expShift (L : (⟨2, ![M, K]⟩ : Shape).Idx → EReal) : (⟨2, ![M, K]⟩ : Shape).Idx → EReal :=
  fun i => Ideal.exp (L i - rowMax L (i 0))

/-- The row softmax: exp(L(r,k) − max) divided by the row's sum of those exponentials. -/
def softmax (L : (⟨2, ![M, K]⟩ : Shape).Idx → EReal) : (⟨2, ![M, K]⟩ : Shape).Idx → EReal :=
  fun i => Ideal.div (expShift L i) (∑ k : Fin K, expShift L (ix2 (i 0) k))

theorem softmax_apply (L : (⟨2, ![M, K]⟩ : Shape).Idx → EReal) (r : Fin M) (k : Fin K) :
    softmax L (ix2 r k) = Ideal.div (Ideal.exp (L (ix2 r k) - rowMax L r)) (∑ j : Fin K, Ideal.exp (L (ix2 r j) - rowMax L r)) := rfl

/-- The reduced index r of a row reduction with column k put back is (r, k). -/
theorem lift_row (h : (⟨2, ![M, K]⟩ : Shape).Reduces [1] (⟨1, ![M]⟩ : Shape)) (r : Fin M)
    (k : Fin ((⟨2, ![M, K]⟩ : Shape).size 1)) : h.lift (ix1 r) k = ix2 r (⟨k.val, k.isLt⟩ : Fin K) := by
  funext c; apply Fin.ext
  fin_cases c <;> rfl

/-- A vector over the rows cast to a column reads, at (r, u), the vector at r. -/
theorem column_apply {α : Type} (x : (⟨1, ![M]⟩ : Shape).Idx → α)
    (h : (⟨1, ![M]⟩ : Shape).ShapeCasts ⟨2, ![M, 1]⟩) (r : Fin M) (u : Fin 1) :
    shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column broadcast along the rows' entries reads, at (r, k), the column at (r, 0). -/
theorem alongRow_apply {α : Type} (v : (⟨2, ![M, 1]⟩ : Shape).Idx → α)
    (h : (⟨2, ![M, 1]⟩ : Shape).Broadcasts ⟨2, ![M, K]⟩) (r : Fin M) (k : Fin K) :
    broadcastTo ⟨2, ![M, K]⟩ v h (ix2 r k) = v (ix2 r (0 : Fin 1)) := by
  refine broadcastTo_apply v h (ix2 r k) (ix2 r (0 : Fin 1)) fun ax => ?_
  match ax with
  | ⟨0, _⟩ =>
    show r.val = if M = 1 then 0 else r.val
    split
    · have := r.isLt; omega
    · rfl
  | ⟨1, _⟩ => rfl

/-- A lane maximum from −∞ over the columns, read at row r, is the row's maximum. -/
theorem laneMax_apply (P : FVec Ideal ⟨2, ![M, K]⟩ .f32) (h : (⟨2, ![M, K]⟩ : Shape).Reduces [1] (⟨1, ![M]⟩ : Shape))
    (hφ : FKind.Formats .f32) (hacc : (0xFF800000#32 : BitVec 32) = FKind.maximumf.neutral .f32 hφ) (r : Fin M) :
    multiReduction .maximumf [1] (⟨1, ![M]⟩ : Shape) P 0xFF800000#32 h hφ hacc (ix1 r) = rowMax P r := by
  refine (Ideal.multiReduction_maximumf_single P 0xFF800000#32 h hφ hacc (ix1 r)).trans ?_
  show (Finset.univ : Finset (Fin K)).fold max (Ideal.ofBits .f32 0xFF800000#32) (P ∘ h.lift (ix1 r)) = _
  unfold rowMax
  congr 1
  funext k
  exact congrArg P (lift_row h r k)

/-- A lane sum from zero over the columns, read at row r, is the sum over the row. -/
theorem laneSum_apply (E : FVec Ideal ⟨2, ![M, K]⟩ .f32) (h : (⟨2, ![M, K]⟩ : Shape).Reduces [1] (⟨1, ![M]⟩ : Shape))
    (hφ : FKind.Formats .f32) (hacc : (0x00000000#32 : BitVec 32) = FKind.add.neutral .f32 hφ) (r : Fin M) :
    multiReduction .add [1] (⟨1, ![M]⟩ : Shape) E 0x00000000#32 h hφ hacc (ix1 r) = ∑ k : Fin K, E (ix2 r k) := by
  refine (Ideal.multiReduction_add_single E 0x00000000#32 h hφ hacc (ix1 r)).trans ?_
  show ∑ k : Fin K, E (h.lift (ix1 r) k) = _
  exact Finset.sum_congr rfl fun k _ => congrArg E (lift_row h r k)

/-- The kernel's spelling on a block: lane maximum kept as a column and broadcast back, subtracted, exponentiated, lane sum
    kept as a column and broadcast back, divided. -/
theorem blockSoftmax_eq (P : FVec Ideal ⟨2, ![M, K]⟩ .f32) (h : (⟨2, ![M, K]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, K]⟩) :
    divf (exp (subf P (broadcastTo ⟨2, ![M, K]⟩ (shapeCast ⟨2, ![M, 1]⟩
          (multiReduction .maximumf [1] (⟨1, ![M]⟩ : Shape) P 0xFF800000#32 h hφ hmax) hc) hb)))
        (broadcastTo ⟨2, ![M, K]⟩ (shapeCast ⟨2, ![M, 1]⟩
          (multiReduction .add [1] (⟨1, ![M]⟩ : Shape)
            (exp (subf P (broadcastTo ⟨2, ![M, K]⟩ (shapeCast ⟨2, ![M, 1]⟩
              (multiReduction .maximumf [1] (⟨1, ![M]⟩ : Shape) P 0xFF800000#32 h hφ hmax) hc) hb)))
            0x00000000#32 h hφ hadd) hc) hb)
      = softmax P := by
  have hE : ∀ (r : Fin M) (k : Fin K),
      (exp (subf P (broadcastTo ⟨2, ![M, K]⟩ (shapeCast ⟨2, ![M, 1]⟩
          (multiReduction .maximumf [1] (⟨1, ![M]⟩ : Shape) P 0xFF800000#32 h hφ hmax) hc) hb)) : FVec Ideal ⟨2, ![M, K]⟩ .f32) (ix2 r k)
        = Ideal.exp (P (ix2 r k) - rowMax P r) := by
    intro r k
    show Ideal.exp (P (ix2 r k) - broadcastTo ⟨2, ![M, K]⟩ (shapeCast ⟨2, ![M, 1]⟩
          (multiReduction .maximumf [1] (⟨1, ![M]⟩ : Shape) P 0xFF800000#32 h hφ hmax) hc) hb (ix2 r k)) = _
    rw [alongRow_apply, column_apply, laneMax_apply]
  funext i
  obtain ⟨r, k, rfl⟩ : ∃ (r : Fin M) (k : Fin K), i = ix2 r k := ⟨i 0, i 1, eq_ix2 i⟩
  rw [divf_apply, alongRow_apply, column_apply, laneSum_apply, softmax_apply, hE r k]
  congr 1
  exact Finset.sum_congr rfl fun j _ => hE r j

end Cert.Softmax

end
-- ==== Proof.LibAttention.lean ====
/-
  Dot-product attention read entry by entry on the extended reals.

  For queries Q of extents [B, Lq, D] and values V of extents [B, Lk, D] (the values also serve as keys), the score of
  query q against key k in batch b is Σ_d Q(b,q,d)·V(b,k,d). The attention weights are the softmax of the scores along
  the keys: exp(score(b,q,k) − max_j score(b,q,j)) / Σ_j exp(score(b,q,j) − max_j' score(b,q,j')), the maximum being the
  fold of max from −∞ over the keys. The context is the weights applied to the values: Σ_k weight(b,q,k)·V(b,k,c).
  A tiled kernel handles a slab of consecutive queries of one batch as a matrix with one row per query; since every
  quantity of a row depends on that row's scores only, the row softmax of the slab is the softmax along the keys of the
  whole array on those rows. Nothing is cancelled or distributed, so the statements hold for every extended-real entry.
  Stated for any extents.
-/
import Idealize.ShloMosaic.Lib.ValueIdx
import Idealize.ShloMosaic.PureOps.Reduce
import Idealize.ShloMosaic.PureOps.Ideal.Laws
import proofs.«156074_j40973988004641_2_alg».proof.Proof.LibSoftmax

noncomputable section

namespace Cert.Attention

open Idealize.ShloMosaic Idealize.ShloMosaic.ValueIdx
open scoped BigOperators

variable {B Lq Lk D : ℕ}

/-- The score of query q against key k in batch b: the sum over the feature axis of Q(b,q,d)·V(b,k,d). -/
def score (Q : (⟨3, ![B, Lq, D]⟩ : Shape).Idx → EReal) (V : (⟨3, ![B, Lk, D]⟩ : Shape).Idx → EReal) :
    (⟨3, ![B, Lq, Lk]⟩ : Shape).Idx → EReal :=
  fun i => ∑ d : Fin D, Q (ix3 (i 0) (i 1) d) * V (ix3 (i 0) (i 2) d)

theorem score_apply (Q : (⟨3, ![B, Lq, D]⟩ : Shape).Idx → EReal) (V : (⟨3, ![B, Lk, D]⟩ : Shape).Idx → EReal)
    (b : Fin B) (q : Fin Lq) (k : Fin Lk) :
    score Q V (ix3 b q k) = ∑ d : Fin D, Q (ix3 b q d) * V (ix3 b k d) := rfl

/-- The maximum over the keys of row (b, q): the fold of max from −∞. -/
def rowMax (S : (⟨3, ![B, Lq, Lk]⟩ : Shape).Idx → EReal) (b : Fin B) (q : Fin Lq) : EReal :=
  (Finset.univ : Finset (Fin Lk)).fold max Softmax.negInfWord (fun k => S (ix3 b q k))

/-- The softmax along the keys: exp(S(b,q,k) − max of the row) divided by the row's sum of those exponentials. -/
def softmaxKeys (S : (⟨3, ![B, Lq, Lk]⟩ : Shape).Idx → EReal) : (⟨3, ![B, Lq, Lk]⟩ : Shape).Idx → EReal :=
  fun i => Ideal.div (Ideal.exp (S i - rowMax S (i 0) (i 1)))
    (∑ k : Fin Lk, Ideal.exp (S (ix3 (i 0) (i 1) k) - rowMax S (i 0) (i 1)))

theorem softmaxKeys_apply (S : (⟨3, ![B, Lq, Lk]⟩ : Shape).Idx → EReal) (b : Fin B) (q : Fin Lq) (k : Fin Lk) :
    softmaxKeys S (ix3 b q k)
      = Ideal.div (Ideal.exp (S (ix3 b q k) - rowMax S b q)) (∑ j : Fin Lk, Ideal.exp (S (ix3 b q j) - rowMax S b q)) := rfl

/-- The attention weights: the softmax along the keys of the scores. -/
def weights (Q : (⟨3, ![B, Lq, D]⟩ : Shape).Idx → EReal) (V : (⟨3, ![B, Lk, D]⟩ : Shape).Idx → EReal) :
    (⟨3, ![B, Lq, Lk]⟩ : Shape).Idx → EReal :=
  softmaxKeys (score Q V)

/-- The context: the weights applied to the values, Σ_k weight(b,q,k)·V(b,k,c). -/
def context (Q : (⟨3, ![B, Lq, D]⟩ : Shape).Idx → EReal) (V : (⟨3, ![B, Lk, D]⟩ : Shape).Idx → EReal) :
    (⟨3, ![B, Lq, D]⟩ : Shape).Idx → EReal :=
  fun i => ∑ k : Fin Lk, weights Q V (ix3 (i 0) (i 1) k) * V (ix3 (i 0) k (i 2))

theorem context_apply (Q : (⟨3, ![B, Lq, D]⟩ : Shape).Idx → EReal) (V : (⟨3, ![B, Lk, D]⟩ : Shape).Idx → EReal)
    (b : Fin B) (q : Fin Lq) (c : Fin D) :
    context Q V (ix3 b q c) = ∑ k : Fin Lk, weights Q V (ix3 b q k) * V (ix3 b k c) := rfl

/-- A slab of rows of one batch: a matrix L whose row r holds row (b, ρ r) of S has, as its row softmax at (r, k), the
    softmax along the keys of S at (b, ρ r, k) — the row's maximum and sum read the same entries. -/
theorem softmax_slab {M : ℕ} (S : (⟨3, ![B, Lq, Lk]⟩ : Shape).Idx → EReal) (L : (⟨2, ![M, Lk]⟩ : Shape).Idx → EReal)
    (b : Fin B) (ρ : Fin M → Fin Lq) (hL : ∀ (r : Fin M) (k : Fin Lk), L (ix2 r k) = S (ix3 b (ρ r) k))
    (r : Fin M) (k : Fin Lk) :
    Softmax.softmax L (ix2 r k) = softmaxKeys S (ix3 b (ρ r) k) := by
  have hmax : Softmax.rowMax L r = rowMax S b (ρ r) := by
    unfold Softmax.rowMax rowMax
    exact congrArg (fun f => Finset.fold max Softmax.negInfWord f (Finset.univ : Finset (Fin Lk))) (funext fun j => hL r j)
  rw [Softmax.softmax_apply, softmaxKeys_apply, hmax, hL r k]
  congr 1
  exact Finset.sum_congr rfl fun j _ => by rw [hL r j]

/-- The maximum with −∞ is the other operand. -/
theorem max_negInf (y : EReal) : max (Ideal.ofBits .f32 0xFF800000#32) y = y := by
  simp [Ideal.ofBits, Ideal.ieee]

/-- The reduced index (b, q) of a reduction over the last of three axes, with key k put back, is (b, q, k). -/
theorem lift_keys (h : (⟨3, ![B, Lq, Lk]⟩ : Shape).Reduces [2] (⟨2, ![B, Lq]⟩ : Shape)) (b : Fin B) (q : Fin Lq)
    (k : Fin ((⟨3, ![B, Lq, Lk]⟩ : Shape).size 2)) : h.lift (ix2 b q) k = ix3 b q (⟨k.val, k.isLt⟩ : Fin Lk) := by
  funext c; apply Fin.ext
  fin_cases c <;> rfl

/-- The host's reduction with a maximum body from −∞ over the keys, read at (b, q), is the row's maximum. -/
theorem hostRowMax_apply (S : FVec Ideal ⟨3, ![B, Lq, Lk]⟩ .f32)
    (h' : (⟨3, ![B, Lq, Lk]⟩ : Shape).ReducesTo [2] (⟨2, ![B, Lq]⟩ : Shape))
    (h : (⟨3, ![B, Lq, Lk]⟩ : Shape).Reduces [2] (⟨2, ![B, Lq]⟩ : Shape)) (hu : 0 < (⟨0, ![]⟩ : Shape).numel)
    (b : Fin B) (q : Fin Lq) :
    Host.reduce FloatOps.maximumf S (constant (⟨0, ![]⟩ : Shape) .f32 0xFF800000#32) h' hu (ix2 b q) = rowMax S b q := by
  rw [Host.reduce_eq_fold_single FloatOps.maximumf S _ h' h hu]
  unfold rowMax
  show (Finset.univ : Finset (Fin Lk)).fold max (Ideal.ofBits .f32 0xFF800000#32) (S ∘ h.lift (ix2 b q)) = _
  refine congrArg (fun f => Finset.fold max (Ideal.ofBits .f32 0xFF800000#32) f (Finset.univ : Finset (Fin Lk))) ?_
  funext k
  exact congrArg S (lift_keys h b q k)

end Cert.Attention

end
-- ==== Proof.Spec.lean ====
/-
  Scaled dot-product attention over projected inputs, read entry by entry on the extended reals.

  For an input x of extents [8, 2048, 1024], weights W of extents [1024, 1024] and a bias b of extent [1024], the
  projection is (x·W + b)(β, s, e) = Σ_d x(β,s,d)·W(d,e) + b(e). For projected queries Q, keys K and values V the scaled
  score of query q against key k in batch β is (Σ_d Q(β,q,d)·K(β,k,d))·(1/32). With m(β,q) the maximum of row (β,q) of the
  scores (the fold of max from −∞) and p(β,q,k) = exp(score(β,q,k) − m(β,q)), attention is written in two arrangements:
  the sum Σ_k p(β,q,k)·V(β,k,c) divided once by the row sum Σ_k p(β,q,k), and the sum Σ_k (p(β,q,k) / Σ_j p(β,q,j))·V(β,k,c)
  of the normalised weights applied to the values. The two agree when every entry is a real number (the law that joins
  them, a quotient distributed over a finite sum, fails at infinite entries).
-/
import Idealize.ShloMosaic.Lib.ValueIdx
import Idealize.ShloMosaic.PureOps.Ideal.Laws
import proofs.«156074_j40973988004641_2_alg».proof.Proof.LibSoftmax
import proofs.«156074_j40973988004641_2_alg».proof.Proof.LibAttention

noncomputable section

namespace Cert.AttnSpec

open Idealize.ShloMosaic Idealize.ShloMosaic.ValueIdx
open scoped BigOperators

/-- The extents of the input, of the projections and of the result. -/
abbrev SX : Shape := ⟨3, ![8, 2048, 1024]⟩
/-- The extents of a weight matrix. -/
abbrev SW : Shape := ⟨2, ![1024, 1024]⟩
/-- The extent of a bias. -/
abbrev Sb : Shape := ⟨1, ![1024]⟩
/-- The extents of the scores. -/
abbrev SS : Shape := ⟨3, ![8, 2048, 2048]⟩

/-- The float word of 1/32 read at the ideal values. -/
abbrev scaleWord : EReal := Ideal.ofBits .f32 0x3D000000#32

/-- The projection x·W + b: entry (β, s, e) is Σ_d x(β,s,d)·W(d,e) + b(e). -/
def proj (x : SX.Idx → EReal) (W : SW.Idx → EReal) (b : Sb.Idx → EReal) : SX.Idx → EReal :=
  fun i => (∑ d : Fin 1024, x (ix3 (i 0) (i 1) d) * W (ix2 d (i 2))) + b (ix1 (i 2))

theorem proj_apply (x : SX.Idx → EReal) (W : SW.Idx → EReal) (b : Sb.Idx → EReal) (β : Fin 8) (s : Fin 2048) (e : Fin 1024) :
    proj x W b (ix3 β s e) = (∑ d : Fin 1024, x (ix3 β s d) * W (ix2 d e)) + b (ix1 e) := rfl

/-- The scaled scores: entry (β, q, k) is (Σ_d Q(β,q,d)·K(β,k,d))·(1/32). -/
def scores (Q K : SX.Idx → EReal) : SS.Idx → EReal :=
  fun i => (∑ d : Fin 1024, Q (ix3 (i 0) (i 1) d) * K (ix3 (i 0) (i 2) d)) * scaleWord

theorem scores_apply (Q K : SX.Idx → EReal) (β : Fin 8) (q k : Fin 2048) :
    scores Q K (ix3 β q k) = (∑ d : Fin 1024, Q (ix3 β q d) * K (ix3 β k d)) * scaleWord := rfl

/-- exp(S(β,q,k) − max of row (β,q)). -/
def expo (S : SS.Idx → EReal) : SS.Idx → EReal :=
  fun i => Ideal.exp (S i - Attention.rowMax S (i 0) (i 1))

theorem expo_apply (S : SS.Idx → EReal) (β : Fin 8) (q k : Fin 2048) :
    expo S (ix3 β q k) = Ideal.exp (S (ix3 β q k) - Attention.rowMax S β q) := rfl

/-- Attention with ONE division per entry: (Σ_k p(β,q,k)·V(β,k,c)) / Σ_k p(β,q,k). -/
def attnK (Q K V : SX.Idx → EReal) : SX.Idx → EReal :=
  fun i => Ideal.div (∑ k : Fin 2048, expo (scores Q K) (ix3 (i 0) (i 1) k) * V (ix3 (i 0) k (i 2)))
    (∑ k : Fin 2048, expo (scores Q K) (ix3 (i 0) (i 1) k))

theorem attnK_apply (Q K V : SX.Idx → EReal) (β : Fin 8) (q : Fin 2048) (c : Fin 1024) :
    attnK Q K V (ix3 β q c) = Ideal.div (∑ k : Fin 2048, expo (scores Q K) (ix3 β q k) * V (ix3 β k c))
      (∑ k : Fin 2048, expo (scores Q K) (ix3 β q k)) := rfl

/-- Attention with the weights normalised first: Σ_k softmax(score)(β,q,k)·V(β,k,c). -/
def attnR (Q K V : SX.Idx → EReal) : SX.Idx → EReal :=
  fun i => ∑ k : Fin 2048, Attention.softmaxKeys (scores Q K) (ix3 (i 0) (i 1) k) * V (ix3 (i 0) k (i 2))

theorem attnR_apply (Q K V : SX.Idx → EReal) (β : Fin 8) (q : Fin 2048) (c : Fin 1024) :
    attnR Q K V (ix3 β q c) = ∑ k : Fin 2048, Attention.softmaxKeys (scores Q K) (ix3 β q k) * V (ix3 β k c) := rfl

/-- An array all of whose entries are real numbers. -/
def IsReal {S : Shape} (f : S.Idx → EReal) : Prop := ∀ i, ∃ r : ℝ, f i = (r : EReal)

end Cert.AttnSpec

end
-- ==== Proof.LibSplit.lean ====
/-
  Small facts on the extended reals, stated for any extents.

  * A sum over K = a + b + c consecutive indices is the sum over the first a, plus the sum over the next b, plus the
    sum over the last c.  Only associativity of addition is used, so it holds with infinite terms too.
  * Multiplying by the reciprocal 1 / d of a divisor d ≠ 0 is dividing by d, for every extended real numerator:
    off zero the quotient x / d is x · d⁻¹, and 1 / d is 1 · d⁻¹ = d⁻¹.
  * The larger of anything and 1 is not zero.
  * The product of an M×K by a K×N matrix, accumulated into a zero splat or not, has at entry (r, c) the sum over k of
    X(r,k) · W(k,c).
-/
import Idealize.ShloMosaic.Lib.StackMember
import Idealize.ShloMosaic.Lib.KernelVsHost
import Idealize.ShloMosaic.Lib.ValueIdx
import Idealize.ShloMosaic.PureOps.Ideal.Laws

noncomputable section

namespace Cert.Bridge.Split

open Idealize.ShloMosaic Idealize.ShloMosaic.ValueIdx
open scoped BigOperators

/-- A sum over a + b + c indices, taken in three consecutive runs. -/
theorem sum_three {M : Type*} [AddCommMonoid M] {a b c K : ℕ} (hK : a + b + c = K) (f : Fin K → M) :
    ∑ j : Fin K, f j
      = (∑ j : Fin a, f ⟨j.val, by omega⟩ + ∑ j : Fin b, f ⟨a + j.val, by omega⟩)
        + ∑ j : Fin c, f ⟨a + b + j.val, by omega⟩ := by
  subst hK
  rw [Fin.sum_univ_add, Fin.sum_univ_add]
  rfl

/-- The float word of 1.0 reads the real number one. -/
theorem ofBits_one_f32 : Ideal.ofBits .f32 0x3F800000#32 = 1 := by
  simp [Ideal.ofBits, Ideal.ieee, -EReal.coe_mul]; norm_num

/-- Times the reciprocal of a nonzero divisor is the quotient by it, whatever the numerator. -/
theorem mul_one_div {one d : EReal} (h1 : one = 1) (hd : d ≠ 0) (s : EReal) :
    s * Ideal.div one d = Ideal.div s d := by
  subst h1
  unfold Ideal.div
  rw [if_neg hd, if_neg hd, one_mul]

/-- The larger of anything and one is at least one, so it is not zero. -/
theorem max_one_ne_zero {one : EReal} (h1 : one = 1) (x : EReal) : max x one ≠ 0 := by
  subst h1
  exact ne_of_gt (lt_of_lt_of_le zero_lt_one (le_max_right x 1))

variable {M K N : ℕ}

/-- A kernel's product into the zero splat, with the plain contraction, at entry (r, c). -/
theorem matmul_zero_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    matmul d none X W (constant ⟨2, ![M, N]⟩ .f32 0x00000000#32) (ix2 r c) = ∑ k : Fin K, X (ix2 r k) * W (ix2 k c) := by
  subst hd
  rw [matmul_zero_eq_dotGeneral]
  exact StackMember.dotGeneral_plain_apply none X W r c

/-- A host's product with the plain contraction, at entry (r, c). -/
theorem dotGeneral_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    Host.dotGeneral d none X W (ix2 r c) = ∑ k : Fin K, X (ix2 r k) * W (ix2 k c) := by
  subst hd
  exact StackMember.dotGeneral_plain_apply none X W r c

end Cert.Bridge.Split

end
-- ==== Proof.PayAttn.lean ====
/-
  The attention block's stored value, read entry by entry on the extended reals.

  One block holds 1024 query rows q(0,r,·), 2048 key rows κ(0,k,·) and 2048 value rows v(0,k,·), each of 1024 entries.
  The scaled score of row r against key k is (Σ_d q(0,r,d)·κ(0,k,d))·(1/32): the keys are transposed, the product is
  accumulated into a zero splat, and every entry is multiplied by the float word of 1/32. With m(r) the maximum of row r
  of the scores (the fold of max from −∞) and p(r,k) = exp(score(r,k) − m(r)), the stored entry (0, r, c) is
  (Σ_k p(r,k)·v(0,k,c)) / Σ_k p(r,k): the exponentials are multiplied into the values by a second product accumulated
  into a zero splat, and the quotient is taken once per entry by the row's sum kept as a column and broadcast back.
  A change of float format is the identity on the extended reals, and nothing is cancelled or distributed, so the
  statement holds for every extended-real entry.
-/
import proofs.«156074_j40973988004641_2_alg».proof.Proof.Gen.KernelIdeal.Skeleton
import proofs.«156074_j40973988004641_2_alg».proof.Proof.Spec
import proofs.«156074_j40973988004641_2_alg».proof.Proof.LibSoftmax
import proofs.«156074_j40973988004641_2_alg».proof.Proof.LibSplit
import Idealize.ShloMosaic.Lib.ValueLayout
import Idealize.ShloMosaic.Lib.ValueIdx

noncomputable section

namespace Cert.KernelIdeal.Pay

open Idealize.ShloMosaic Idealize.ShloMosaic.ValueIdx Cert.KernelIdeal Cert.KernelIdeal.Gen
open scoped BigOperators

/-- the block's scaled scores: entry (r, k) is (Σ_d q(0,r,d)·κ(0,k,d))·(1/32) -/
def blkScore (q : Vec Ideal S1x1024x1024 .bf16) (κ : Vec Ideal S1x2048x1024 .bf16) : (⟨2, ![1024, 2048]⟩ : Shape).Idx → EReal :=
  fun i => (∑ d : Fin 1024, q (ix3 (0 : Fin 1) (i 0) d) * κ (ix3 (0 : Fin 1) (i 1) d)) * AttnSpec.scaleWord

theorem blkScore_apply (q : Vec Ideal S1x1024x1024 .bf16) (κ : Vec Ideal S1x2048x1024 .bf16) (r : Fin 1024) (k : Fin 2048) :
    blkScore q κ (ix2 r k) = (∑ d : Fin 1024, q (ix3 (0 : Fin 1) r d) * κ (ix3 (0 : Fin 1) k d)) * AttnSpec.scaleWord := rfl

/-- The queries times the transposed keys, accumulated into a zero splat and scaled by the word of 1/32, is the block's
    scaled scores. -/
theorem score_eq (v0 : Vec Ideal S1x1024x1024 .bf16) (v2 : Vec Ideal S1x2048x1024 .bf16) :
    (mulf (matmul dot_S1024x1024_S1024x2048_S1024x2048_1_0_0_1_n_n none
            (shapeCast S1024x1024 v0 shapeCasts_S1x1024x1024_S1024x1024 : FVec Ideal S1024x1024 .bf16)
            (transpose S1024x2048 [1, 0] (shapeCast S2048x1024 v2 shapeCasts_S1x2048x1024_S2048x1024 : FVec Ideal S2048x1024 .bf16)
              transposes_S2048x1024_p1_0_S1024x2048 : FVec Ideal S1024x2048 .bf16)
            (constant S1024x2048 .f32 0x00000000#32))
          (broadcast S1024x2048 (Scalar.ofBits (F := Ideal) .f32 0x3D000000#32)) : FVec Ideal S1024x2048 .f32)
      = blkScore v0 v2 := by
  funext i
  obtain ⟨r, k, rfl⟩ : ∃ (r : Fin 1024) (k : Fin 2048), i = ix2 r k := ⟨i 0, i 1, eq_ix2 i⟩
  rw [mulf_apply, blkScore_apply]
  congr 1
  refine (Cert.Bridge.Split.matmul_zero_plain_apply (M := 1024) (K := 1024) (N := 2048) _ rfl _ _ r k).trans ?_
  refine Finset.sum_congr rfl fun d _ => ?_
  rw [shapeCast_1ab_ab_apply, transpose_ix2_apply, shapeCast_1ab_ab_apply]

/-- From a block of scores P and the values v: the lane maximum kept as a column and broadcast back, subtracted,
    exponentiated, the exponentials multiplied into the values, and divided by the broadcast column of the lane sums,
    read at (0, r, c). -/
theorem tail_apply (P : FVec Ideal S1024x2048 .f32) (v4 : Vec Ideal S1x2048x1024 .bf16) (r c : Fin 1024) :
    (shapeCast S1x1024x1024
      (divf
        (matmul dot_S1024x2048_S2048x1024_S1024x1024_1_0_0_1_n_n none
          (truncf .bf16
            (exp (subf P (broadcastTo S1024x2048 (shapeCast S1024x1
              (multiReduction .maximumf [1] S1024 P 0xFF800000#32 reduces_S1024x2048_S1024 (.inl rfl) rfl)
              shapeCasts_S1024_S1024x1) broadcasts_S1024x1_S1024x2048)) : FVec Ideal S1024x2048 .f32)
            bitsLt_bf16_f32 : FVec Ideal S1024x2048 .bf16)
          (shapeCast S2048x1024 v4 shapeCasts_S1x2048x1024_S2048x1024 : FVec Ideal S2048x1024 .bf16)
          (constant S1024x1024 .f32 0x00000000#32))
        (broadcastTo S1024x1024 (shapeCast S1024x1
          (multiReduction .add [1] S1024
            (exp (subf P (broadcastTo S1024x2048 (shapeCast S1024x1
              (multiReduction .maximumf [1] S1024 P 0xFF800000#32 reduces_S1024x2048_S1024 (.inl rfl) rfl)
              shapeCasts_S1024_S1024x1) broadcasts_S1024x1_S1024x2048)) : FVec Ideal S1024x2048 .f32)
            0x00000000#32 reduces_S1024x2048_S1024 (.inl rfl) rfl)
          shapeCasts_S1024_S1024x1) broadcasts_S1024x1_S1024x1024) : FVec Ideal S1024x1024 .f32)
      shapeCasts_S1024x1024_S1x1024x1024 : FVec Ideal S1x1024x1024 .f32) (ix3 (0 : Fin 1) r c)
      = Ideal.div (∑ k : Fin 2048, Ideal.exp (P (ix2 r k) - Softmax.rowMax P r) * v4 (ix3 (0 : Fin 1) k c))
          (∑ k : Fin 2048, Ideal.exp (P (ix2 r k) - Softmax.rowMax P r)) := by
  have hE : ∀ (k : Fin 2048),
      (exp (subf P (broadcastTo S1024x2048 (shapeCast S1024x1
          (multiReduction .maximumf [1] S1024 P 0xFF800000#32 reduces_S1024x2048_S1024 (.inl rfl) rfl)
          shapeCasts_S1024_S1024x1) broadcasts_S1024x1_S1024x2048)) : FVec Ideal S1024x2048 .f32) (ix2 r k)
        = Ideal.exp (P (ix2 r k) - Softmax.rowMax P r) := by
    intro k
    show Ideal.exp (P (ix2 r k) - broadcastTo S1024x2048 (shapeCast S1024x1
          (multiReduction .maximumf [1] S1024 P 0xFF800000#32 reduces_S1024x2048_S1024 (.inl rfl) rfl)
          shapeCasts_S1024_S1024x1) broadcasts_S1024x1_S1024x2048 (ix2 r k)) = _
    rw [Softmax.alongRow_apply, Softmax.column_apply]
    exact congrArg (fun μ => Ideal.exp (P (ix2 r k) - μ))
      (Softmax.laneMax_apply P reduces_S1024x2048_S1024 (.inl rfl) rfl r)
  rw [shapeCast_ab_1ab_apply, divf_apply, Softmax.alongRow_apply, Softmax.column_apply]
  congr 1
  · refine (Cert.Bridge.Split.matmul_zero_plain_apply (M := 1024) (K := 2048) (N := 1024) _ rfl _ _ r c).trans ?_
    refine Finset.sum_congr rfl fun k _ => ?_
    rw [truncf_apply, hE k, shapeCast_1ab_ab_apply]
  · refine (Softmax.laneSum_apply _ reduces_S1024x2048_S1024 (.inl rfl) rfl r).trans ?_
    exact Finset.sum_congr rfl fun k _ => hE k

/-- The attention block's stored value at (0, r, c). -/
theorem pay_attn (v0 : Vec Ideal S1x1024x1024 .bf16) (v2 v4 : Vec Ideal S1x2048x1024 .bf16) (r c : Fin 1024) :
    k1_pay1 (F := Ideal) v0 v2 v4 (ix3 (0 : Fin 1) r c)
      = Ideal.div (∑ k : Fin 2048, Ideal.exp (blkScore v0 v2 (ix2 r k) - Softmax.rowMax (blkScore v0 v2) r) * v4 (ix3 (0 : Fin 1) k c))
          (∑ k : Fin 2048, Ideal.exp (blkScore v0 v2 (ix2 r k) - Softmax.rowMax (blkScore v0 v2) r)) := by
  rw [← score_eq v0 v2]
  exact tail_apply _ v4 r c

end Cert.KernelIdeal.Pay

end
-- ==== Proof.LibNary.lean ====
/-
  Host operations over a literal family of operands (a concatenation of 2, 3, 8 or 9 arrays): the result buffer
  holds the operation's function of the operands' contents, each read at its own reference, so that the fold of a
  line of operations can be evaluated through it; and a literal family read at a literal position.
-/
import Idealize.ShloMosaic.Lib.StableHlo.Run

namespace Cert.Lib.Nary

open Idealize.ShloMosaic Idealize.ShloMosaic.StableHlo

variable {τ : Topo} {sig : RefSig} {Val : EltTy → Type}

/-- An operation over a literal family of 2 references: its result is its function of the operands' contents. -/
theorem nary2_result' {x0 x1 y : Ref sig .tc}
    (f : ((k : Fin 2) → ((![x0, x1] : Fin 2 → Ref sig .tc) k).ty.Contents Val) → y.ty.Contents Val) (hxs hy)
    (F : Valuation τ sig Val) :
    (nary (τ := τ) ![x0, x1] y f hxs hy).result F (no_index (Proc.devRef .tc y))
      = f (fun k => F (Proc.devRef .tc ((![x0, x1] : Fin 2 → Ref sig .tc) k))) :=
  nary_result ![x0, x1] y f hxs hy F
theorem vec2_0 {α : Type} (x0 x1 : α) : (![x0, x1] : Fin 2 → α) (0 : Fin 2) = x0 := rfl
theorem vec2_1 {α : Type} (x0 x1 : α) : (![x0, x1] : Fin 2 → α) (1 : Fin 2) = x1 := rfl

/-- An operation over a literal family of 3 references: its result is its function of the operands' contents. -/
theorem nary3_result' {x0 x1 x2 y : Ref sig .tc}
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = f (fun k => F (Proc.devRef .tc ((![x0, x1, x2] : Fin 3 → Ref sig .tc) k))) :=
  nary_result ![x0, x1, x2] y f hxs hy F
theorem vec3_0 {α : Type} (x0 x1 x2 : α) : (![x0, x1, x2] : Fin 3 → α) (0 : Fin 3) = x0 := rfl
theorem vec3_1 {α : Type} (x0 x1 x2 : α) : (![x0, x1, x2] : Fin 3 → α) (1 : Fin 3) = x1 := rfl
theorem vec3_2 {α : Type} (x0 x1 x2 : α) : (![x0, x1, x2] : Fin 3 → α) (2 : Fin 3) = x2 := rfl

/-- An operation over a literal family of 8 references: its result is its function of the operands' contents. -/
theorem nary8_result' {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (no_index (Proc.devRef .tc y))
      = f (fun k => F (Proc.devRef .tc ((![x0, x1, x2, x3, x4, x5, x6, x7] : Fin 8 → Ref sig .tc) k))) :=
  nary_result ![x0, x1, x2, x3, x4, x5, x6, x7] y f hxs hy F
theorem vec8_0 {α : Type} (x0 x1 x2 x3 x4 x5 x6 x7 : α) : (![x0, x1, x2, x3, x4, x5, x6, x7] : Fin 8 → α) (0 : Fin 8) = x0 := rfl
theorem vec8_1 {α : Type} (x0 x1 x2 x3 x4 x5 x6 x7 : α) : (![x0, x1, x2, x3, x4, x5, x6, x7] : Fin 8 → α) (1 : Fin 8) = x1 := rfl
theorem vec8_2 {α : Type} (x0 x1 x2 x3 x4 x5 x6 x7 : α) : (![x0, x1, x2, x3, x4, x5, x6, x7] : Fin 8 → α) (2 : Fin 8) = x2 := rfl
theorem vec8_3 {α : Type} (x0 x1 x2 x3 x4 x5 x6 x7 : α) : (![x0, x1, x2, x3, x4, x5, x6, x7] : Fin 8 → α) (3 : Fin 8) = x3 := rfl
theorem vec8_4 {α : Type} (x0 x1 x2 x3 x4 x5 x6 x7 : α) : (![x0, x1, x2, x3, x4, x5, x6, x7] : Fin 8 → α) (4 : Fin 8) = x4 := rfl
theorem vec8_5 {α : Type} (x0 x1 x2 x3 x4 x5 x6 x7 : α) : (![x0, x1, x2, x3, x4, x5, x6, x7] : Fin 8 → α) (5 : Fin 8) = x5 := rfl
theorem vec8_6 {α : Type} (x0 x1 x2 x3 x4 x5 x6 x7 : α) : (![x0, x1, x2, x3, x4, x5, x6, x7] : Fin 8 → α) (6 : Fin 8) = x6 := rfl
theorem vec8_7 {α : Type} (x0 x1 x2 x3 x4 x5 x6 x7 : α) : (![x0, x1, x2, x3, x4, x5, x6, x7] : Fin 8 → α) (7 : Fin 8) = x7 := rfl

/-- An operation over a literal family of 9 references: its result is its function of the operands' contents. -/
theorem nary9_result' {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (fun k => F (Proc.devRef .tc ((![x0, x1, x2, x3, x4, x5, x6, x7, x8] : Fin 9 → Ref sig .tc) k))) :=
  nary_result ![x0, x1, x2, x3, x4, x5, x6, x7, x8] y f hxs hy F
theorem vec9_0 {α : Type} (x0 x1 x2 x3 x4 x5 x6 x7 x8 : α) : (![x0, x1, x2, x3, x4, x5, x6, x7, x8] : Fin 9 → α) (0 : Fin 9) = x0 := rfl
theorem vec9_1 {α : Type} (x0 x1 x2 x3 x4 x5 x6 x7 x8 : α) : (![x0, x1, x2, x3, x4, x5, x6, x7, x8] : Fin 9 → α) (1 : Fin 9) = x1 := rfl
theorem vec9_2 {α : Type} (x0 x1 x2 x3 x4 x5 x6 x7 x8 : α) : (![x0, x1, x2, x3, x4, x5, x6, x7, x8] : Fin 9 → α) (2 : Fin 9) = x2 := rfl
theorem vec9_3 {α : Type} (x0 x1 x2 x3 x4 x5 x6 x7 x8 : α) : (![x0, x1, x2, x3, x4, x5, x6, x7, x8] : Fin 9 → α) (3 : Fin 9) = x3 := rfl
theorem vec9_4 {α : Type} (x0 x1 x2 x3 x4 x5 x6 x7 x8 : α) : (![x0, x1, x2, x3, x4, x5, x6, x7, x8] : Fin 9 → α) (4 : Fin 9) = x4 := rfl
theorem vec9_5 {α : Type} (x0 x1 x2 x3 x4 x5 x6 x7 x8 : α) : (![x0, x1, x2, x3, x4, x5, x6, x7, x8] : Fin 9 → α) (5 : Fin 9) = x5 := rfl
theorem vec9_6 {α : Type} (x0 x1 x2 x3 x4 x5 x6 x7 x8 : α) : (![x0, x1, x2, x3, x4, x5, x6, x7, x8] : Fin 9 → α) (6 : Fin 9) = x6 := rfl
theorem vec9_7 {α : Type} (x0 x1 x2 x3 x4 x5 x6 x7 x8 : α) : (![x0, x1, x2, x3, x4, x5, x6, x7, x8] : Fin 9 → α) (7 : Fin 9) = x7 := rfl
theorem vec9_8 {α : Type} (x0 x1 x2 x3 x4 x5 x6 x7 x8 : α) : (![x0, x1, x2, x3, x4, x5, x6, x7, x8] : Fin 9 → α) (8 : Fin 9) = x8 := rfl

/-- One simplification pass over the operations' result equations. -/
macro "after_results_pass" : tactic =>
  `(tactic| simp (disch := decide) only [after_cons, after_nil, nullary_result', unary_result', binary_result', ternary_result', quaternary_result', reshape_result', nary2_result', nary3_result', nary4_result', nary8_result', nary9_result', unaryIndexed_result', binaryIndexed_result', nullary_result_ne', unary_result_ne', binary_result_ne', ternary_result_ne', quaternary_result_ne', reshape_result_ne', nary_result_ne', unaryIndexed_result_ne', binaryIndexed_result_ne'])

/-- A literal family read at a literal position. -/
macro "nary_pick" : tactic =>
  `(tactic| dsimp only [vec2_0, vec2_1, vec3_0, vec3_1, vec3_2, vec8_0, vec8_1, vec8_2, vec8_3, vec8_4, vec8_5, vec8_6, vec8_7, vec9_0, vec9_1, vec9_2, vec9_3, vec9_4, vec9_5, vec9_6, vec9_7, vec9_8])

/-- The fold of a line of operations evaluated at a buffer: a pass over the result equations, a literal family read at
    its position, and again while that makes progress. -/
macro "after_results_nary" : tactic =>
  `(tactic| (after_results_pass
             repeat (nary_pick
                     after_results_pass)))

end Cert.Lib.Nary
-- ==== Proof.LibConcat.lean ====
/-
  Arrays joined side by side, read at an index.

  Joining an [M, a] array and an [M, b] array along the columns gives an [M, K] array with K = a + b: at (r, j) it reads
  the first array at (r, j) when j < a, and the second at (r, j - a) otherwise.  Three arrays [M, a], [M, b], [M, c]
  joined the same way read the first for j < a, the second at (r, j - a) for a ≤ j < a + b, and the third at
  (r, j - a - b) beyond.  Stated for any extents, over indices built by coordinates.
-/
import Idealize.ShloMosaic.Lib.Pipeline.Value
import Idealize.ShloMosaic.Lib.ValueIdx

namespace Cert.Bridge.Concat

open Idealize.ShloMosaic Idealize.ShloMosaic.ValueIdx

variable {α : Type} {M a b c K : ℕ}

/-- Two arrays joined along the columns, read in the first one's columns. -/
theorem concat2_left (x : (⟨2, ![M, a]⟩ : Shape).Idx → α) (y : (⟨2, ![M, b]⟩ : Shape).Idx → α)
    (h : Shape.Concatenates [(⟨2, ![M, a]⟩ : Shape), ⟨2, ![M, b]⟩] ⟨2, ![M, K]⟩ 1) (r : Fin M) (j : Fin K)
    (hj : j.val < a) :
    concatenate ⟨2, ![M, K]⟩ 1 [⟨⟨2, ![M, a]⟩, x⟩, ⟨⟨2, ![M, b]⟩, y⟩] h (ix2 r j) = x (ix2 r ⟨j.val, hj⟩) :=
  concatenate_pair_apply_left 1 x y h (ix2 r j) rfl (ix2 r ⟨j.val, hj⟩) (fun ax => by
    match ax with
    | ⟨0, _⟩ => rfl
    | ⟨1, _⟩ => rfl)

/-- Two arrays joined along the columns, read in the second one's columns. -/
theorem concat2_right (x : (⟨2, ![M, a]⟩ : Shape).Idx → α) (y : (⟨2, ![M, b]⟩ : Shape).Idx → α)
    (h : Shape.Concatenates [(⟨2, ![M, a]⟩ : Shape), ⟨2, ![M, b]⟩] ⟨2, ![M, K]⟩ 1) (r : Fin M) (j : Fin K)
    (hj : a ≤ j.val) (hb : j.val - a < b) :
    concatenate ⟨2, ![M, K]⟩ 1 [⟨⟨2, ![M, a]⟩, x⟩, ⟨⟨2, ![M, b]⟩, y⟩] h (ix2 r j) = y (ix2 r ⟨j.val - a, hb⟩) :=
  concatenate_pair_apply_right 1 x y h (ix2 r j) rfl rfl (ix2 r ⟨j.val - a, hb⟩) (fun ax hax => by
    match ax with
    | ⟨0, _⟩ => rfl
    | ⟨1, _⟩ => exact absurd rfl hax) (by show j.val - a + a = j.val; omega)

/-- Three arrays joined along the columns, read in the first one's columns. -/
theorem concat3_first (x : (⟨2, ![M, a]⟩ : Shape).Idx → α) (y : (⟨2, ![M, b]⟩ : Shape).Idx → α)
    (z : (⟨2, ![M, c]⟩ : Shape).Idx → α)
    (h : Shape.Concatenates [(⟨2, ![M, a]⟩ : Shape), ⟨2, ![M, b]⟩, ⟨2, ![M, c]⟩] ⟨2, ![M, K]⟩ 1) (r : Fin M) (j : Fin K)
    (hj : j.val < a) :
    concatenate ⟨2, ![M, K]⟩ 1 [⟨⟨2, ![M, a]⟩, x⟩, ⟨⟨2, ![M, b]⟩, y⟩, ⟨⟨2, ![M, c]⟩, z⟩] h (ix2 r j)
      = x (ix2 r ⟨j.val, hj⟩) :=
  concatenate_apply_piece 1 [⟨⟨2, ![M, a]⟩, x⟩, ⟨⟨2, ![M, b]⟩, y⟩, ⟨⟨2, ![M, c]⟩, z⟩] h (ix2 r j) 0 (by show 0 < 3; omega) ⟨2, ![M, a]⟩ x rfl rfl 0 rfl (ix2 r ⟨j.val, hj⟩)
    (fun ax hax => by
      match ax with
      | ⟨0, _⟩ => rfl
      | ⟨1, _⟩ => exact absurd rfl hax) (by show 0 + j.val = j.val; omega)

/-- Three arrays joined along the columns, read in the second one's columns. -/
theorem concat3_second (x : (⟨2, ![M, a]⟩ : Shape).Idx → α) (y : (⟨2, ![M, b]⟩ : Shape).Idx → α)
    (z : (⟨2, ![M, c]⟩ : Shape).Idx → α)
    (h : Shape.Concatenates [(⟨2, ![M, a]⟩ : Shape), ⟨2, ![M, b]⟩, ⟨2, ![M, c]⟩] ⟨2, ![M, K]⟩ 1) (r : Fin M) (j : Fin K)
    (hj : a ≤ j.val) (hb : j.val - a < b) :
    concatenate ⟨2, ![M, K]⟩ 1 [⟨⟨2, ![M, a]⟩, x⟩, ⟨⟨2, ![M, b]⟩, y⟩, ⟨⟨2, ![M, c]⟩, z⟩] h (ix2 r j)
      = y (ix2 r ⟨j.val - a, hb⟩) :=
  concatenate_apply_piece 1 [⟨⟨2, ![M, a]⟩, x⟩, ⟨⟨2, ![M, b]⟩, y⟩, ⟨⟨2, ![M, c]⟩, z⟩] h (ix2 r j) 1 (by show 1 < 3; omega) ⟨2, ![M, b]⟩ y rfl rfl a rfl (ix2 r ⟨j.val - a, hb⟩)
    (fun ax hax => by
      match ax with
      | ⟨0, _⟩ => rfl
      | ⟨1, _⟩ => exact absurd rfl hax) (by show a + (j.val - a) = j.val; omega)

/-- Three arrays joined along the columns, read in the third one's columns. -/
theorem concat3_third (x : (⟨2, ![M, a]⟩ : Shape).Idx → α) (y : (⟨2, ![M, b]⟩ : Shape).Idx → α)
    (z : (⟨2, ![M, c]⟩ : Shape).Idx → α)
    (h : Shape.Concatenates [(⟨2, ![M, a]⟩ : Shape), ⟨2, ![M, b]⟩, ⟨2, ![M, c]⟩] ⟨2, ![M, K]⟩ 1) (r : Fin M) (j : Fin K)
    (hj : a + b ≤ j.val) (hc : j.val - (a + b) < c) :
    concatenate ⟨2, ![M, K]⟩ 1 [⟨⟨2, ![M, a]⟩, x⟩, ⟨⟨2, ![M, b]⟩, y⟩, ⟨⟨2, ![M, c]⟩, z⟩] h (ix2 r j)
      = z (ix2 r ⟨j.val - (a + b), hc⟩) :=
  concatenate_apply_piece 1 [⟨⟨2, ![M, a]⟩, x⟩, ⟨⟨2, ![M, b]⟩, y⟩, ⟨⟨2, ![M, c]⟩, z⟩] h (ix2 r j) 2 (by show 2 < 3; omega) ⟨2, ![M, c]⟩ z rfl rfl (a + b) (by show a + (b + 0) = a + b; rfl)
    (ix2 r ⟨j.val - (a + b), hc⟩)
    (fun ax hax => by
      match ax with
      | ⟨0, _⟩ => rfl
      | ⟨1, _⟩ => exact absurd rfl hax) (by show a + b + (j.val - (a + b)) = j.val; omega)

end Cert.Bridge.Concat
-- ==== Proof.LibReshape.lean ====
/-
  Merging two leading axes of an array into one, and splitting one leading axis into two, read at an index.

  A reshape keeps the row-major position of every element. In an [a, b, n] array the element (p, q, i) sits at
  position (p·b + q)·n + i, and in an [a·b, n] array the element (m, i) sits at position m·n + i; so row b·p + q of
  the merged array is the row (p, q) of the three-axis array, and conversely.
-/
import Idealize.ShloMosaic.Lib.Pipeline.Value
import Idealize.ShloMosaic.Lib.ValueIdx

namespace LibReshape

open Idealize.ShloMosaic Idealize.ShloMosaic.ValueIdx

/-- An [a, b, n] array viewed as [a·b, n]: row b·p + q of the view is the row (p, q) of the array. -/
theorem merge_apply {α : Type} (a b n : ℕ) (v : (⟨3, ![a, b, n]⟩ : Shape).Idx → α)
    (h : (⟨3, ![a, b, n]⟩ : Shape).ShapeCasts ⟨2, ![a * b, n]⟩) (p : Fin a) (q : Fin b) (i : Fin n)
    (hm : b * p.val + q.val < a * b) :
    shapeCast (⟨2, ![a * b, n]⟩ : Shape) v h (ix2 ⟨b * p.val + q.val, hm⟩ i) = v (ix3 p q i) :=
  shapeCast_apply v h _ _ (by
    rw [Shape.rowMajor_val_three, Shape.rowMajor_val_two]
    show (p.val * b + q.val) * n + i.val = (b * p.val + q.val) * n + i.val
    rw [Nat.mul_comm b p.val])

/-- An [a·b, n] array viewed as [a, b, n]: the row (p, q) of the view is row b·p + q of the array. -/
theorem split_apply {α : Type} (a b n : ℕ) (v : (⟨2, ![a * b, n]⟩ : Shape).Idx → α)
    (h : (⟨2, ![a * b, n]⟩ : Shape).ShapeCasts ⟨3, ![a, b, n]⟩) (p : Fin a) (q : Fin b) (i : Fin n)
    (hm : b * p.val + q.val < a * b) :
    shapeCast (⟨3, ![a, b, n]⟩ : Shape) v h (ix3 p q i) = v (ix2 ⟨b * p.val + q.val, hm⟩ i) :=
  shapeCast_apply v h _ _ (by
    rw [Shape.rowMajor_val_two, Shape.rowMajor_val_three]
    show (b * p.val + q.val) * n + i.val = (p.val * b + q.val) * n + i.val
    rw [Nat.mul_comm b p.val])

/-- A [512, 8192] array viewed as [2, 256, 8192]: the row (b, s) of the view is row 256·b + s of the array. -/
theorem split_512 {α : Type} (v : (⟨2, ![512, 8192]⟩ : Shape).Idx → α)
    (h : (⟨2, ![512, 8192]⟩ : Shape).ShapeCasts ⟨3, ![2, 256, 8192]⟩) (b : Fin 2) (s : Fin 256) (o : Fin 8192) :
    shapeCast (⟨3, ![2, 256, 8192]⟩ : Shape) v h (ix3 b s o)
      = v (ix2 (⟨256 * b.val + s.val, by have := b.isLt; have := s.isLt; omega⟩ : Fin 512) o) :=
  shapeCast_apply v h _ _ (by
    rw [Shape.rowMajor_val_two, Shape.rowMajor_val_three]
    show (256 * b.val + s.val) * 8192 + o.val = (b.val * 256 + s.val) * 8192 + o.val
    omega)

/-- A [2, 256, 8192] array viewed as [512, 8192]: row m of the view is the row (m / 256, m mod 256) of the array. -/
theorem merge_512 {α : Type} (v : (⟨3, ![2, 256, 8192]⟩ : Shape).Idx → α)
    (h : (⟨3, ![2, 256, 8192]⟩ : Shape).ShapeCasts ⟨2, ![512, 8192]⟩) (m : Fin 512) (i : Fin 8192) :
    shapeCast (⟨2, ![512, 8192]⟩ : Shape) v h (ix2 m i)
      = v (ix3 (⟨m.val / 256, by have := m.isLt; omega⟩ : Fin 2)
          (⟨m.val % 256, Nat.mod_lt _ (by decide)⟩ : Fin 256) i) :=
  shapeCast_apply v h _ _ (by
    rw [Shape.rowMajor_val_three, Shape.rowMajor_val_two]
    show (m.val / 256 * 256 + m.val % 256) * 8192 + i.val = m.val * 8192 + i.val
    omega)

end LibReshape
-- ==== Proof.HostReads.lean ====
/-
  What the first host stretch leaves in its four result buffers, read entry by entry on the extended reals.

  The stretch views the input x of extents [8, 2048, 1024] as [16384, 1024], joins the three weight matrices of extents
  [1024, 1024] along the columns into [1024, 3072] and changes the format of the result, and joins the three biases of
  extent [1024] into [3072]. A reshape keeps every element's row-major position, so row β·2048 + s of the view is the row
  (β, s) of x. A change of float format is the identity on the extended reals, so column j of the joined weights is column
  j of the first matrix for j < 1024, column j − 1024 of the second for 1024 ≤ j < 2048, and column j − 2048 of the third
  beyond; the joined bias reads the same way.
-/
import proofs.«156074_j40973988004641_2_alg».proof.Proof.Gen.KernelIdeal.Regions
import proofs.«156074_j40973988004641_2_alg».proof.Proof.LibNary
import proofs.«156074_j40973988004641_2_alg».proof.Proof.LibConcat
import proofs.«156074_j40973988004641_2_alg».proof.Proof.LibReshape
import Idealize.ShloMosaic.Lib.StableHlo.Run
import Idealize.ShloMosaic.Lib.Pipeline.Value
import Idealize.ShloMosaic.Lib.ValueIdx

noncomputable section

namespace Cert.KernelIdeal.Pay

open Idealize.ShloMosaic Idealize.ShloMosaic.ValueIdx Idealize.ShloMosaic.TcCoe Cert.KernelIdeal Cert.KernelIdeal.Gen
open Idealize.ShloMosaic.StableHlo Cert.Lib.Nary

/-! ## Three vectors joined end to end, read at an index -/

section Join

variable {α : Type} {a b c K : ℕ}

/-- Three vectors joined end to end, read in the first one's span. -/
theorem join3_first (x : (⟨1, ![a]⟩ : Shape).Idx → α) (y : (⟨1, ![b]⟩ : Shape).Idx → α) (z : (⟨1, ![c]⟩ : Shape).Idx → α)
    (h : Shape.Concatenates [(⟨1, ![a]⟩ : Shape), ⟨1, ![b]⟩, ⟨1, ![c]⟩] ⟨1, ![K]⟩ 0) (j : Fin K) (hj : j.val < a) :
    concatenate ⟨1, ![K]⟩ 0 [⟨⟨1, ![a]⟩, x⟩, ⟨⟨1, ![b]⟩, y⟩, ⟨⟨1, ![c]⟩, z⟩] h (ix1 j) = x (ix1 ⟨j.val, hj⟩) :=
  concatenate_apply_piece 0 [⟨⟨1, ![a]⟩, x⟩, ⟨⟨1, ![b]⟩, y⟩, ⟨⟨1, ![c]⟩, z⟩] h (ix1 j) 0 (by show 0 < 3; omega) ⟨1, ![a]⟩ x rfl rfl 0 rfl
    (ix1 ⟨j.val, hj⟩)
    (fun ax hax => by
      match ax with
      | ⟨0, _⟩ => exact absurd rfl hax) (by show 0 + j.val = j.val; omega)

/-- Three vectors joined end to end, read in the second one's span. -/
theorem join3_second (x : (⟨1, ![a]⟩ : Shape).Idx → α) (y : (⟨1, ![b]⟩ : Shape).Idx → α) (z : (⟨1, ![c]⟩ : Shape).Idx → α)
    (h : Shape.Concatenates [(⟨1, ![a]⟩ : Shape), ⟨1, ![b]⟩, ⟨1, ![c]⟩] ⟨1, ![K]⟩ 0) (j : Fin K) (hj : a ≤ j.val)
    (hb : j.val - a < b) :
    concatenate ⟨1, ![K]⟩ 0 [⟨⟨1, ![a]⟩, x⟩, ⟨⟨1, ![b]⟩, y⟩, ⟨⟨1, ![c]⟩, z⟩] h (ix1 j) = y (ix1 ⟨j.val - a, hb⟩) :=
  concatenate_apply_piece 0 [⟨⟨1, ![a]⟩, x⟩, ⟨⟨1, ![b]⟩, y⟩, ⟨⟨1, ![c]⟩, z⟩] h (ix1 j) 1 (by show 1 < 3; omega) ⟨1, ![b]⟩ y rfl rfl a rfl
    (ix1 ⟨j.val - a, hb⟩)
    (fun ax hax => by
      match ax with
      | ⟨0, _⟩ => exact absurd rfl hax) (by show a + (j.val - a) = j.val; omega)

/-- Three vectors joined end to end, read in the third one's span. -/
theorem join3_third (x : (⟨1, ![a]⟩ : Shape).Idx → α) (y : (⟨1, ![b]⟩ : Shape).Idx → α) (z : (⟨1, ![c]⟩ : Shape).Idx → α)
    (h : Shape.Concatenates [(⟨1, ![a]⟩ : Shape), ⟨1, ![b]⟩, ⟨1, ![c]⟩] ⟨1, ![K]⟩ 0) (j : Fin K) (hj : a + b ≤ j.val)
    (hc : j.val - (a + b) < c) :
    concatenate ⟨1, ![K]⟩ 0 [⟨⟨1, ![a]⟩, x⟩, ⟨⟨1, ![b]⟩, y⟩, ⟨⟨1, ![c]⟩, z⟩] h (ix1 j) = z (ix1 ⟨j.val - (a + b), hc⟩) :=
  concatenate_apply_piece 0 [⟨⟨1, ![a]⟩, x⟩, ⟨⟨1, ![b]⟩, y⟩, ⟨⟨1, ![c]⟩, z⟩] h (ix1 j) 2 (by show 2 < 3; omega) ⟨1, ![c]⟩ z rfl rfl (a + b)
    (by show a + (b + 0) = a + b; rfl) (ix1 ⟨j.val - (a + b), hc⟩)
    (fun ax hax => by
      match ax with
      | ⟨0, _⟩ => exact absurd rfl hax) (by show a + b + (j.val - (a + b)) = j.val; omega)

end Join

/-! ## The stretch's result buffers as terms over the launch contents -/

variable (m : (ℓ : Loc nD τ sig) → Buf (Elt Ideal) ℓ) (c : Dev nD)

/-- The first result buffer is the input viewed as [16384, 1024]. -/
theorem V1_v0_eq :
    (V1 (F := Ideal) m c main_v0 : S16384x1024.Idx → EReal)
      = shapeCast S16384x1024 (m ((c : Thread nD τ).loc main_arg0) : S8x2048x1024.Idx → EReal)
          shapeCasts_S8x2048x1024_S16384x1024 := by
  dsimp only [V1, V0, hostOps0]
  after_results_nary
  rfl

/-- The third result buffer is the three weight matrices joined along the columns (the format change is the identity). -/
theorem V1_v2_eq :
    (V1 (F := Ideal) m c main_v2 : S1024x3072.Idx → EReal)
      = concatenate S1024x3072 1
          ([⟨S1024x1024, (m ((c : Thread nD τ).loc main_arg1) : S1024x1024.Idx → EReal)⟩,
            ⟨S1024x1024, (m ((c : Thread nD τ).loc main_arg3) : S1024x1024.Idx → EReal)⟩,
            ⟨S1024x1024, (m ((c : Thread nD τ).loc main_arg5) : S1024x1024.Idx → EReal)⟩] :
            List ((s : Shape) × (s.Idx → EReal)))
          concatenates_S1024x1024_S1024x1024_S1024x1024_S1024x3072_d1 := by
  dsimp only [V1, V0, hostOps0]
  after_results_nary
  rfl

/-- The fourth result buffer is the three biases joined end to end. -/
theorem V1_v3_eq :
    (V1 (F := Ideal) m c main_v3 : S3072.Idx → EReal)
      = concatenate S3072 0
          ([⟨S1024, (m ((c : Thread nD τ).loc main_arg2) : S1024.Idx → EReal)⟩,
            ⟨S1024, (m ((c : Thread nD τ).loc main_arg4) : S1024.Idx → EReal)⟩,
            ⟨S1024, (m ((c : Thread nD τ).loc main_arg6) : S1024.Idx → EReal)⟩] :
            List ((s : Shape) × (s.Idx → EReal)))
          concatenates_S1024_S1024_S1024_S3072_d0 := by
  dsimp only [V1, V0, hostOps0]
  after_results_nary
  rfl

/-! ## The result buffers read at an index -/

/-- Row β·2048 + s of the viewed input is the row (β, s) of the input. -/
theorem V1_x (β : Fin 8) (s : Fin 2048) (d : Fin 1024) :
    (V1 (F := Ideal) m c main_v0 : S16384x1024.Idx → EReal)
        (ix2 ⟨β.val * 2048 + s.val, by have := β.isLt; have := s.isLt; omega⟩ d)
      = (m ((c : Thread nD τ).loc main_arg0) : S8x2048x1024.Idx → EReal) (ix3 β s d) := by
  refine (congrFun (V1_v0_eq m c) _).trans ?_
  exact shapeCast_apply _ _ _ _ (by
    show (S8x2048x1024.rowMajor (ix3 β s d)).val
      = (S16384x1024.rowMajor (ix2 ⟨β.val * 2048 + s.val, by have := β.isLt; have := s.isLt; omega⟩ d)).val
    rw [Shape.rowMajor_val_three, Shape.rowMajor_val_two]
    rfl)

/-- Column j of the joined weights: which of the three matrices, and at which of its columns. -/
theorem V1_w (d : Fin 1024) (j : Fin 3072) :
    (V1 (F := Ideal) m c main_v2 : S1024x3072.Idx → EReal) (ix2 d j)
      = if h : j.val < 1024 then (m ((c : Thread nD τ).loc main_arg1) : S1024x1024.Idx → EReal) (ix2 d ⟨j.val, h⟩)
        else if h2 : j.val < 2048 then
          (m ((c : Thread nD τ).loc main_arg3) : S1024x1024.Idx → EReal) (ix2 d ⟨j.val - 1024, by omega⟩)
        else (m ((c : Thread nD τ).loc main_arg5) : S1024x1024.Idx → EReal)
          (ix2 d ⟨j.val - 2048, by have := j.isLt; omega⟩) := by
  refine (congrFun (V1_v2_eq m c) _).trans ?_
  by_cases h : j.val < 1024
  · rw [dif_pos h]
    exact Cert.Bridge.Concat.concat3_first _ _ _ _ d j h
  · rw [dif_neg h]
    by_cases h2 : j.val < 2048
    · rw [dif_pos h2]
      exact Cert.Bridge.Concat.concat3_second _ _ _ _ d j (by omega) (by omega)
    · rw [dif_neg h2]
      exact Cert.Bridge.Concat.concat3_third _ _ _ _ d j (by omega) (by have := j.isLt; omega)

/-- Entry j of the joined bias: which of the three biases, and at which of its entries. -/
theorem V1_b (j : Fin 3072) :
    (V1 (F := Ideal) m c main_v3 : S3072.Idx → EReal) (ix1 j)
      = if h : j.val < 1024 then (m ((c : Thread nD τ).loc main_arg2) : S1024.Idx → EReal) (ix1 ⟨j.val, h⟩)
        else if h2 : j.val < 2048 then
          (m ((c : Thread nD τ).loc main_arg4) : S1024.Idx → EReal) (ix1 ⟨j.val - 1024, by omega⟩)
        else (m ((c : Thread nD τ).loc main_arg6) : S1024.Idx → EReal)
          (ix1 ⟨j.val - 2048, by have := j.isLt; omega⟩) := by
  refine (congrFun (V1_v3_eq m c) _).trans ?_
  by_cases h : j.val < 1024
  · rw [dif_pos h]
    exact join3_first _ _ _ _ j h
  · rw [dif_neg h]
    by_cases h2 : j.val < 2048
    · rw [dif_pos h2]
      exact join3_second _ _ _ _ j (by omega) (by omega)
    · rw [dif_neg h2]
      exact join3_third _ _ _ _ j (by omega) (by have := j.isLt; omega)

end Cert.KernelIdeal.Pay

end
-- ==== Proof.KVCore.lean ====
/-
  The attention region's result array is attention over the three projections of the launch arguments.

  After the projection region and the reshape, the joined array A of extents [8, 2048, 3072] holds at (β, s, j) the value
  (Σ_d x(β,s,d)·w(d,j)) + b(j), where w is the three weight matrices joined along the columns and b the three biases
  joined end to end. Column j < 1024 of w is column j of the first matrix, column 1024 + e is column e of the second and
  column 2048 + e is column e of the third, and b reads the same way; so columns 0 … 1023 of A are the first projection
  Q, columns 1024 … 2047 the second projection K and columns 2048 … 3071 the third projection V.

  The attention region stores, for batch β, half i and row r, the body's value on the block of queries A(β, i·1024 + r, 0…)
  and on the batch's keys and values. Entry by entry that value is (Σ_k p(r,k)·V(β,k,c)) / Σ_k p(r,k) with
  p(r,k) = exp(score(r,k) − max of row r) and score(r,k) = (Σ_d Q(β,i·1024+r,d)·K(β,k,d))·(1/32): the block's scores are
  rows i·1024 … of the batch's scores, a row's maximum is a fold over that row only, and so the stored value is attention
  with one division per entry at (β, i·1024 + r, c). Every row q < 2048 is i·1024 + r for i = q / 1024 and r = q mod 1024.

  The two facts about the projection region's output and the reshape after it are taken here as hypotheses.
-/
import proofs.«156074_j40973988004641_2_alg».proof.Proof.KI.Run
import proofs.«156074_j40973988004641_2_alg».proof.Proof.KI.Final1
import proofs.«156074_j40973988004641_2_alg».proof.Proof.PayAttn
import proofs.«156074_j40973988004641_2_alg».proof.Proof.HostReads
import proofs.«156074_j40973988004641_2_alg».proof.Proof.Spec
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)

/-! ## The launch arguments and their three projections -/

/-- The input array as launched, on core c. -/
abbrev argX : S8x2048x1024.Idx → EReal := m ((c.tc : Thread nD τ).loc main_arg0)
/-- The projection region's input rows: the input viewed as [16384, 1024], as the first host stretch leaves it. -/
abbrev inX : S16384x1024.Idx → EReal := V1 (F := Ideal) m ρ c main_v0
/-- The joined weights, as the first host stretch leaves them. -/
abbrev inW : S1024x3072.Idx → EReal := V1 (F := Ideal) m ρ c main_v2
/-- The joined bias, as the first host stretch leaves it. -/
abbrev inB : S3072.Idx → EReal := V1 (F := Ideal) m ρ c main_v3

/-- The first projection of the launch arguments (the queries). -/
abbrev projQ : AttnSpec.SX.Idx → EReal :=
  AttnSpec.proj (m ((c.tc : Thread nD τ).loc main_arg0)) (m ((c.tc : Thread nD τ).loc main_arg1)) (m ((c.tc : Thread nD τ).loc main_arg2))
/-- The second projection of the launch arguments (the keys). -/
abbrev projK : AttnSpec.SX.Idx → EReal :=
  AttnSpec.proj (m ((c.tc : Thread nD τ).loc main_arg0)) (m ((c.tc : Thread nD τ).loc main_arg3)) (m ((c.tc : Thread nD τ).loc main_arg4))
/-- The third projection of the launch arguments (the values). -/
abbrev projV : AttnSpec.SX.Idx → EReal :=
  AttnSpec.proj (m ((c.tc : Thread nD τ).loc main_arg0)) (m ((c.tc : Thread nD τ).loc main_arg5)) (m ((c.tc : Thread nD τ).loc main_arg6))

/-! ## The first host stretch's buffers at an index -/

/-- Row β·2048 + s of the viewed input is the row (β, s) of the input. -/
theorem hV1_x (β : Fin 8) (s : Fin 2048) (d : Fin 1024) (hb : β.val * 2048 + s.val < 16384) :
    inX m ρ c (ix2 ⟨β.val * 2048 + s.val, hb⟩ d) = argX m c (ix3 β s d) :=
  Pay.V1_x m c β s d

/-- Column e < 1024 of the joined weights is column e of the first matrix. -/
theorem hV1_w0 (d e : Fin 1024) (hb : e.val < 3072) :
    inW m ρ c (ix2 d ⟨e.val, hb⟩)
      = (m ((c.tc : Thread nD τ).loc main_arg1) : S1024x1024.Idx → EReal) (ix2 d e) := by
  have h1 : (⟨e.val, hb⟩ : Fin 3072).val < 1024 := e.isLt
  exact (Pay.V1_w m c d ⟨e.val, hb⟩).trans (dif_pos h1)

/-- Column 1024 + e of the joined weights is column e of the second matrix. -/
theorem hV1_w1 (d e : Fin 1024) (hb : 1024 + e.val < 3072) :
    inW m ρ c (ix2 d ⟨1024 + e.val, hb⟩)
      = (m ((c.tc : Thread nD τ).loc main_arg3) : S1024x1024.Idx → EReal) (ix2 d e) := by
  have h1 : ¬ (⟨1024 + e.val, hb⟩ : Fin 3072).val < 1024 := by show ¬ 1024 + e.val < 1024; omega
  have h2 : (⟨1024 + e.val, hb⟩ : Fin 3072).val < 2048 := by show 1024 + e.val < 2048; have := e.isLt; omega
  refine (Pay.V1_w m c d ⟨1024 + e.val, hb⟩).trans ((dif_neg h1).trans ((dif_pos h2).trans ?_))
  exact congrArg (fun t => (m ((c.tc : Thread nD τ).loc main_arg3) : S1024x1024.Idx → EReal) (ix2 d t))
    (Fin.ext (by show 1024 + e.val - 1024 = e.val; omega))

/-- Column 2048 + e of the joined weights is column e of the third matrix. -/
theorem hV1_w2 (d e : Fin 1024) (hb : 2048 + e.val < 3072) :
    inW m ρ c (ix2 d ⟨2048 + e.val, hb⟩)
      = (m ((c.tc : Thread nD τ).loc main_arg5) : S1024x1024.Idx → EReal) (ix2 d e) := by
  have h1 : ¬ (⟨2048 + e.val, hb⟩ : Fin 3072).val < 1024 := by show ¬ 2048 + e.val < 1024; omega
  have h2 : ¬ (⟨2048 + e.val, hb⟩ : Fin 3072).val < 2048 := by show ¬ 2048 + e.val < 2048; omega
  refine (Pay.V1_w m c d ⟨2048 + e.val, hb⟩).trans ((dif_neg h1).trans ((dif_neg h2).trans ?_))
  exact congrArg (fun t => (m ((c.tc : Thread nD τ).loc main_arg5) : S1024x1024.Idx → EReal) (ix2 d t))
    (Fin.ext (by show 2048 + e.val - 2048 = e.val; omega))

/-- Entry e < 1024 of the joined bias is entry e of the first bias. -/
theorem hV1_b0 (e : Fin 1024) (hb : e.val < 3072) :
    inB m ρ c (ix1 ⟨e.val, hb⟩)
      = (m ((c.tc : Thread nD τ).loc main_arg2) : S1024.Idx → EReal) (ix1 e) := by
  have h1 : (⟨e.val, hb⟩ : Fin 3072).val < 1024 := e.isLt
  exact (Pay.V1_b m c ⟨e.val, hb⟩).trans (dif_pos h1)

/-- Entry 1024 + e of the joined bias is entry e of the second bias. -/
theorem hV1_b1 (e : Fin 1024) (hb : 1024 + e.val < 3072) :
    inB m ρ c (ix1 ⟨1024 + e.val, hb⟩)
      = (m ((c.tc : Thread nD τ).loc main_arg4) : S1024.Idx → EReal) (ix1 e) := by
  have h1 : ¬ (⟨1024 + e.val, hb⟩ : Fin 3072).val < 1024 := by show ¬ 1024 + e.val < 1024; omega
  have h2 : (⟨1024 + e.val, hb⟩ : Fin 3072).val < 2048 := by show 1024 + e.val < 2048; have := e.isLt; omega
  refine (Pay.V1_b m c ⟨1024 + e.val, hb⟩).trans ((dif_neg h1).trans ((dif_pos h2).trans ?_))
  exact congrArg (fun t => (m ((c.tc : Thread nD τ).loc main_arg4) : S1024.Idx → EReal) (ix1 t))
    (Fin.ext (by show 1024 + e.val - 1024 = e.val; omega))

/-- Entry 2048 + e of the joined bias is entry e of the third bias. -/
theorem hV1_b2 (e : Fin 1024) (hb : 2048 + e.val < 3072) :
    inB m ρ c (ix1 ⟨2048 + e.val, hb⟩)
      = (m ((c.tc : Thread nD τ).loc main_arg6) : S1024.Idx → EReal) (ix1 e) := by
  have h1 : ¬ (⟨2048 + e.val, hb⟩ : Fin 3072).val < 1024 := by show ¬ 2048 + e.val < 1024; omega
  have h2 : ¬ (⟨2048 + e.val, hb⟩ : Fin 3072).val < 2048 := by show ¬ 2048 + e.val < 2048; omega
  refine (Pay.V1_b m c ⟨2048 + e.val, hb⟩).trans ((dif_neg h1).trans ((dif_neg h2).trans ?_))
  exact congrArg (fun t => (m ((c.tc : Thread nD τ).loc main_arg6) : S1024.Idx → EReal) (ix1 t))
    (Fin.ext (by show 2048 + e.val - 2048 = e.val; omega))

/-! ## The joined projections, over the two facts about the projection region -/

section Over

variable
  (hres0 : ∀ (r : Fin 16384) (j : Fin 3072),
    (res0 (F := Ideal) m ρ c : S16384x3072.Idx → EReal) (ix2 r j)
      = (∑ d : Fin 1024, inX m ρ c (ix2 r d) * inW m ρ c (ix2 d j)) + inB m ρ c (ix1 j))
  (hV3 : ∀ (β : Fin 8) (s : Fin 2048) (j : Fin 3072),
    (V3 (F := Ideal) m ρ c main_v5 : S8x2048x3072.Idx → EReal) (ix3 β s j)
      = (res0 (F := Ideal) m ρ c : S16384x3072.Idx → EReal)
          (ix2 ⟨β.val * 2048 + s.val, by have := β.isLt; have := s.isLt; omega⟩ j))

include hres0 hV3

/-- The joined array at (β, s, j): the row (β, s) of the input against column j of the joined weights, plus the joined
    bias at j. -/
theorem joined_apply (β : Fin 8) (s : Fin 2048) (j : Fin 3072) :
    (V3 (F := Ideal) m ρ c main_v5 : S8x2048x3072.Idx → EReal) (ix3 β s j)
      = (∑ d : Fin 1024, argX m c (ix3 β s d) * inW m ρ c (ix2 d j)) + inB m ρ c (ix1 j) := by
  refine (hV3 β s j).trans ((hres0 _ j).trans ?_)
  congr 1
  refine Finset.sum_congr rfl fun d _ => ?_
  exact congrArg (fun t => t * inW m ρ c (ix2 d j)) (hV1_x m ρ c β s d _)

/-- Columns 0 … 1023 of the joined array are the first projection. -/
theorem joined_q (β : Fin 8) (s : Fin 2048) (e : Fin 1024) (hb : e.val < 3072) :
    (V3 (F := Ideal) m ρ c main_v5 : S8x2048x3072.Idx → EReal) (ix3 β s ⟨e.val, hb⟩) = projQ m c (ix3 β s e) := by
  refine (joined_apply m ρ c hres0 hV3 β s _).trans ?_
  show _ = AttnSpec.proj _ _ _ (ix3 β s e)
  rw [AttnSpec.proj_apply]
  refine congrArg₂ (fun a b : EReal => a + b) ?_ ?_
  · refine Finset.sum_congr rfl fun d _ => ?_
    rw [hV1_w0 m ρ c d e hb]
  · exact hV1_b0 m ρ c e hb

/-- Columns 1024 … 2047 of the joined array are the second projection. -/
theorem joined_k (β : Fin 8) (s : Fin 2048) (e : Fin 1024) (hb : 1024 + e.val < 3072) :
    (V3 (F := Ideal) m ρ c main_v5 : S8x2048x3072.Idx → EReal) (ix3 β s ⟨1024 + e.val, hb⟩) = projK m c (ix3 β s e) := by
  refine (joined_apply m ρ c hres0 hV3 β s _).trans ?_
  show _ = AttnSpec.proj _ _ _ (ix3 β s e)
  rw [AttnSpec.proj_apply]
  refine congrArg₂ (fun a b : EReal => a + b) ?_ ?_
  · refine Finset.sum_congr rfl fun d _ => ?_
    rw [hV1_w1 m ρ c d e hb]
  · exact hV1_b1 m ρ c e hb

/-- Columns 2048 … 3071 of the joined array are the third projection. -/
theorem joined_v (β : Fin 8) (s : Fin 2048) (e : Fin 1024) (hb : 2048 + e.val < 3072) :
    (V3 (F := Ideal) m ρ c main_v5 : S8x2048x3072.Idx → EReal) (ix3 β s ⟨2048 + e.val, hb⟩) = projV m c (ix3 β s e) := by
  refine (joined_apply m ρ c hres0 hV3 β s _).trans ?_
  show _ = AttnSpec.proj _ _ _ (ix3 β s e)
  rw [AttnSpec.proj_apply]
  refine congrArg₂ (fun a b : EReal => a + b) ?_ ?_
  · refine Finset.sum_congr rfl fun d _ => ?_
    rw [hV1_w2 m ρ c d e hb]
  · exact hV1_b2 m ρ c e hb

/-! ## The attention region's blocks are blocks of the projections -/

/-- The block of queries of batch β, half i, at (0, r, d) is the first projection at (β, i·1024 + r, d). -/
theorem qblk_eq (β : Fin 8) (i : Fin 2) (r d : Fin 1024) (hq : i.val * 1024 + r.val < 2048) :
    qblk (V3 (F := Ideal) m ρ c main_v5) β i (ix3 (0 : Fin 1) r d) = projQ m c (ix3 β ⟨i.val * 1024 + r.val, hq⟩ d) :=
  (qblk_apply _ β i r d).trans (joined_q m ρ c hres0 hV3 β ⟨i.val * 1024 + r.val, hq⟩ d _)

/-- The keys of batch β at (0, k, d) are the second projection at (β, k, d). -/
theorem kblk_eq (β : Fin 8) (k : Fin 2048) (d : Fin 1024) :
    kblk (V3 (F := Ideal) m ρ c main_v5) β (ix3 (0 : Fin 1) k d) = projK m c (ix3 β k d) :=
  (kblk_apply _ β k d).trans (joined_k m ρ c hres0 hV3 β k d _)

/-- The values of batch β at (0, k, d) are the third projection at (β, k, d). -/
theorem vblk_eq (β : Fin 8) (k : Fin 2048) (d : Fin 1024) :
    vblk (V3 (F := Ideal) m ρ c main_v5) β (ix3 (0 : Fin 1) k d) = projV m c (ix3 β k d) :=
  (vblk_apply _ β k d).trans (joined_v m ρ c hres0 hV3 β k d _)

/-- The block's scaled scores are rows i·1024 … of the batch's scaled scores. -/
theorem score_blk (β : Fin 8) (i : Fin 2) (r : Fin 1024) (k : Fin 2048) (hq : i.val * 1024 + r.val < 2048) :
    Pay.blkScore (qblk (V3 (F := Ideal) m ρ c main_v5) β i) (kblk (V3 (F := Ideal) m ρ c main_v5) β) (ix2 r k)
      = AttnSpec.scores (projQ m c) (projK m c) (ix3 β ⟨i.val * 1024 + r.val, hq⟩ k) := by
  rw [Pay.blkScore_apply, AttnSpec.scores_apply]
  congr 1
  refine Finset.sum_congr rfl fun d _ => ?_
  rw [qblk_eq m ρ c hres0 hV3 β i r d hq, kblk_eq m ρ c hres0 hV3 β k d]

/-- The maximum of the block's row r is the maximum of the batch's row i·1024 + r. -/
theorem rowMax_blk (β : Fin 8) (i : Fin 2) (r : Fin 1024) (hq : i.val * 1024 + r.val < 2048) :
    Softmax.rowMax (Pay.blkScore (qblk (V3 (F := Ideal) m ρ c main_v5) β i) (kblk (V3 (F := Ideal) m ρ c main_v5) β)) r
      = Attention.rowMax (AttnSpec.scores (projQ m c) (projK m c)) β ⟨i.val * 1024 + r.val, hq⟩ := by
  unfold Softmax.rowMax Attention.rowMax
  congr 1
  funext k
  exact score_blk m ρ c hres0 hV3 β i r k hq

/-! ## The result array -/

/-- The result array at (β, i·1024 + r, cc) is attention with one division per entry. -/
theorem kernel_value_at (β : Fin 8) (i : Fin 2) (r cc : Fin 1024) (hq : i.val * 1024 + r.val < 2048) :
    (res1 (F := Ideal) m ρ c : S8x2048x1024.Idx → EReal) (ix3 β ⟨i.val * 1024 + r.val, hq⟩ cc)
      = AttnSpec.attnK (projQ m c) (projK m c) (projV m c) (ix3 β ⟨i.val * 1024 + r.val, hq⟩ cc) := by
  refine (res1_apply m ρ c β i r cc).trans ?_
  refine (Pay.pay_attn _ _ _ r cc).trans ?_
  rw [AttnSpec.attnK_apply]
  have hE : ∀ k : Fin 2048,
      Ideal.exp (Pay.blkScore (qblk (V3 (F := Ideal) m ρ c main_v5) β i) (kblk (V3 (F := Ideal) m ρ c main_v5) β) (ix2 r k)
          - Softmax.rowMax (Pay.blkScore (qblk (V3 (F := Ideal) m ρ c main_v5) β i) (kblk (V3 (F := Ideal) m ρ c main_v5) β)) r)
        = AttnSpec.expo (AttnSpec.scores (projQ m c) (projK m c)) (ix3 β ⟨i.val * 1024 + r.val, hq⟩ k) := by
    intro k
    rw [AttnSpec.expo_apply, score_blk m ρ c hres0 hV3 β i r k hq, rowMax_blk m ρ c hres0 hV3 β i r hq]
  refine congrArg₂ Ideal.div ?_ ?_
  · refine Finset.sum_congr rfl fun k _ => ?_
    rw [hE k, vblk_eq m ρ c hres0 hV3 β k cc]
  · exact Finset.sum_congr rfl fun k _ => hE k

/-- The result array is attention, with one division per entry, of the three projections of the launch arguments. -/
theorem kernel_value_of :
    (res1 (F := Ideal) m ρ c : S8x2048x1024.Idx → EReal)
      = AttnSpec.attnK (projQ m c) (projK m c) (projV m c) := by
  funext j
  obtain ⟨β, q, cc, rfl⟩ : ∃ (β : Fin 8) (q : Fin 2048) (cc : Fin 1024), j = ix3 β q cc := ⟨j 0, j 1, j 2, eq_ix3 j⟩
  have hq2 : q.val / 1024 < 2 := by have := q.isLt; omega
  have hr : q.val % 1024 < 1024 := Nat.mod_lt _ (by decide)
  have hlt : (⟨q.val / 1024, hq2⟩ : Fin 2).val * 1024 + (⟨q.val % 1024, hr⟩ : Fin 1024).val < 2048 := by
    show q.val / 1024 * 1024 + q.val % 1024 < 2048
    have := q.isLt; omega
  have e : q = ⟨(⟨q.val / 1024, hq2⟩ : Fin 2).val * 1024 + (⟨q.val % 1024, hr⟩ : Fin 1024).val, hlt⟩ :=
    Fin.ext (by show q.val = q.val / 1024 * 1024 + q.val % 1024; omega)
  rw [e]
  exact kernel_value_at m ρ c hres0 hV3 β ⟨q.val / 1024, hq2⟩ ⟨q.val % 1024, hr⟩ cc hlt

end Over

end Cert.KernelIdeal.Hand

end
-- ==== Proof.PayLinear.lean ====
/-
  The linear block's stored value, read entry by entry on the extended reals.

  One block holds 1024 rows x(r,·) of 1024 entries, the joined weights w of extents [1024, 3072] and the joined bias b of
  extent [3072]. The product x·w is accumulated into a zero splat and the bias, viewed as one row, is broadcast over the
  1024 rows and added: the stored entry (r, j) is (Σ_d x(r,d)·w(d,j)) + b(j). A change of float format is the identity on
  the extended reals and a cast to the same extents is the identity, so the statement holds for every extended-real entry.
-/
import proofs.«156074_j40973988004641_2_alg».proof.Proof.Gen.KernelIdeal.Skeleton
import proofs.«156074_j40973988004641_2_alg».proof.Proof.LibSplit
import Idealize.ShloMosaic.Lib.ValueLayout
import Idealize.ShloMosaic.Lib.ValueIdx
import Idealize.ShloMosaic.Lib.Pipeline.Value

noncomputable section

namespace Cert.KernelIdeal.Pay

open Idealize.ShloMosaic Idealize.ShloMosaic.ValueIdx Cert.KernelIdeal Cert.KernelIdeal.Gen
open scoped BigOperators

/-- The linear block's stored value at (r, j). -/
theorem pay_linear (v0 : Vec Ideal S1024x1024 .f32) (v3 : Vec Ideal S1024x3072 .bf16) (v6 : Vec Ideal S3072 .f32) (r : Fin 1024) (j : Fin 3072) :
    k0_pay1 (F := Ideal) v0 v3 v6 (ix2 r j) = (∑ d : Fin 1024, v0 (ix2 r d) * v3 (ix2 d j)) + v6 (ix1 j) := by
  unfold k0_pay1
  rw [truncf_apply, addf_apply]
  congr 1
  · refine (Cert.Bridge.Split.matmul_zero_plain_apply (M := 1024) (K := 1024) (N := 3072) _ rfl _ _ r j).trans ?_
    refine Finset.sum_congr rfl fun d _ => ?_
    rw [truncf_apply, shapeCast_self, shapeCast_self]
  · rw [broadcastTo_1b_ab_apply, shapeCast_a_1a_apply, shapeCast_self]

end Cert.KernelIdeal.Pay

end
-- ==== Proof.KI.Final0.lean ====
/-
  The projection region's output array as one function of its three input arrays, and the reshape after it.

  The region's sixteen points each write back one block of 1024 rows of the output: rows t·1024 … t·1024 + 1023 at point t,
  all 3072 columns. The block a point writes is the stored value of the body on the point's input blocks — rows
  t·1024 … of the flattened input, the whole joined weights, the whole joined bias — which at (r, j) is
  (Σ_d x(t·1024 + r, d)·w(d, j)) + b(j): the same block of the whole-array function G(x, w, b)(R, j) = (Σ_d x(R,d)·w(d,j)) + b(j).
  The sixteen blocks cover the array (row R is in block R / 1024), so the array ends holding G. The reshape of
  [16384, 3072] into [8, 2048, 3072] reads entry (β, s, j) at row β·2048 + s.
-/
import proofs.«156074_j40973988004641_2_alg».proof.Proof.KI.Run
import proofs.«156074_j40973988004641_2_alg».proof.Proof.PayLinear
import proofs.«156074_j40973988004641_2_alg».proof.Proof.LibReshape
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (HostSeg RegionSeg Seg)
open Idealize.ShloMosaic.ValueIdx
open scoped BigOperators

variable (m : (ℓ : Loc nD τ sig) → Buf (Elt Ideal) ℓ) (ρ : Dev nD → PrngReg) (c : Dev nD)

/-- The region's three input arrays as it finds them — the flattened input, the joined weights, the joined bias — as arrays
    of extended reals. -/
abbrev xin : S16384x1024.Idx → EReal := V1 (F := Ideal) m ρ c main_v0
abbrev win : S1024x3072.Idx → EReal := V1 (F := Ideal) m ρ c main_v2
abbrev bin : S3072.Idx → EReal := V1 (F := Ideal) m ρ c main_v3

/-- The same three arrays as the first host stretch's results over the launch memory. -/
theorem xin_eq : xin m ρ c = (Cert.KernelIdeal.Gen.V1 (F := Ideal) m c main_v0 : S16384x1024.Idx → EReal) := rfl
theorem win_eq : win m ρ c = (Cert.KernelIdeal.Gen.V1 (F := Ideal) m c main_v2 : S1024x3072.Idx → EReal) := rfl
theorem bin_eq : bin m ρ c = (Cert.KernelIdeal.Gen.V1 (F := Ideal) m c main_v3 : S3072.Idx → EReal) := rfl

theorem zero2 : (![0, 0] : Fin 2 → Nat) = fun _ => 0 := funext fun a => by fin_cases a <;> rfl
theorem zero1 : (![0] : Fin 1 → Nat) = fun _ => 0 := funext fun a => by fin_cases a; rfl

/-- The output array as one function of the input arrays: entry (R, j) is (Σ_d x(R,d)·w(d,j)) + b(j). -/
def G0 (x : S16384x1024.Idx → EReal) (w : S1024x3072.Idx → EReal) (b : S3072.Idx → EReal) : S16384x3072.Idx → EReal :=
  fun i => (∑ d : Fin 1024, x (ix2 (i 0 : Fin 16384) d) * w (ix2 d (i 1 : Fin 3072))) + b (ix1 (i 1 : Fin 3072))

/-- The printed index maps over the grid: the input's block and the output's block are both block t along the rows and
    block 0 along the columns; the weights' and the bias' blocks are block 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The grid has sixteen points. -/
theorem point_lt (t : Fin cfg0.N) : t.val < 16 := lt_of_lt_of_eq t.isLt N_0

/-- Row r of point t's block is row t·1024 + r of the array. -/
abbrev rowOf (t : Fin cfg0.N) (r : Fin 1024) : Fin 16384 :=
  ⟨t.val * 1024 + r.val, by have := point_lt t; have := r.isLt; omega⟩

/-- The input's block at point t, read at (r, d): the array at (t·1024 + r, d). -/
theorem blk0_read (t : Fin cfg0.N) (r d : Fin 1024) :
    iblk0 (V1 (F := Ideal) m ρ) c 0 t (ix2 r d)
      = xin m ρ c (ix2 (rowOf t r) d) := by
  show xin m ρ c (((cfg0.win 0).blk t).view.emb (ix2 r d)) = _
  refine congrArg _ ?_
  obtain ⟨e0, e1, -⟩ := index_facts t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * d.val = d.val; omega

/-- The weights' block at any point is the whole array. -/
theorem blk1_read (t : Fin cfg0.N) (d : Fin 1024) (j : Fin 3072) :
    iblk0 (V1 (F := Ideal) m ρ) c 1 t (ix2 d j)
      = win m ρ c (ix2 d j) := by
  show win m ρ c (((cfg0.win 1).blk t).view.emb (ix2 d j)) = _
  refine congrArg _ ?_
  obtain ⟨-, -, e2, e3, -⟩ := index_facts t
  funext a; apply Fin.ext
  match a with
  | ⟨0, _⟩ => show win0_1.index t (0 : Fin 2) * 1024 + 1 * d.val = d.val; omega
  | ⟨1, _⟩ => show win0_1.index t (1 : Fin 2) * 3072 + 1 * j.val = j.val; omega

/-- The bias' block at any point is the whole array. -/
theorem blk2_read (t : Fin cfg0.N) (j : Fin 3072) :
    iblk0 (V1 (F := Ideal) m ρ) c 2 t (ix1 j)
      = bin m ρ c (ix1 j) := by
  show bin m ρ c (((cfg0.win 2).blk t).view.emb (ix1 j)) = _
  refine congrArg _ ?_
  obtain ⟨-, -, -, -, e4, -⟩ := index_facts t
  funext a; apply Fin.ext
  match a with
  | ⟨0, _⟩ => show win0_2.index t (0 : Fin 1) * 3072 + 1 * j.val = j.val; omega

/-- Entry (r, j) of the output's block at point t is entry (t·1024 + r, j) of the array. -/
theorem out_emb (t : Fin cfg0.N) (r : Fin 1024) (j : Fin 3072) :
    ((cfg0.win 3).blk t).view.emb (ix2 r j) = (ix2 (rowOf t r) j : S16384x3072.Idx) := by
  obtain ⟨-, -, -, -, -, e5, e6⟩ := index_facts t
  funext a; apply Fin.ext
  match a with
  | ⟨0, _⟩ => show win0_3.index t (0 : Fin 2) * 1024 + 1 * r.val = t.val * 1024 + r.val; omega
  | ⟨1, _⟩ => show win0_3.index t (1 : Fin 2) * 3072 + 1 * j.val = j.val; omega

/-- WHAT POINT t WRITES BACK is block t of G0 of the input arrays as the region finds them. -/
theorem flushed_eq (t : Fin cfg0.N) :
    (dat0 (V1 (F := Ideal) m ρ) c).flushed 3 t = ((cfg0.win 3).blk t).view.read (Elt Ideal)
      (G0 (xin m ρ c) (win m ρ c) (bin m ρ c)) := by
  show (cfg0.win 3).cut (grid0.coords t) ((dat0 (V1 (F := Ideal) m ρ) c).after 3 t) = _
  rw [after0_3]
  unfold out0_3
  rw [View.canon_unit_zero zero2]
  simp only [View.ld_unit_zero (S := S1024x1024) zero2, View.ld_unit_zero (S := S1024x3072) zero2, View.ld_unit_zero (S := S3072) zero1]
  funext y
  obtain ⟨r, j, rfl⟩ : ∃ (r : Fin 1024) (j : Fin 3072), y = ix2 r j := ⟨y 0, y 1, eq_ix2 (n0 := 1024) (n1 := 3072) y⟩
  show k0_pay1 (F := Ideal) (iblk0 (V1 (F := Ideal) m ρ) c 0 t) (iblk0 (V1 (F := Ideal) m ρ) c 1 t) (iblk0 (V1 (F := Ideal) m ρ) c 2 t) (ix2 r j)
    = G0 (xin m ρ c) (win m ρ c) (bin m ρ c)
        (((cfg0.win 3).blk t).view.emb (ix2 r j))
  refine (Pay.pay_linear (iblk0 (V1 (F := Ideal) m ρ) c 0 t) (iblk0 (V1 (F := Ideal) m ρ) c 1 t) (iblk0 (V1 (F := Ideal) m ρ) c 2 t) r j).trans ?_
  rw [out_emb t r j]
  show _ = (∑ d : Fin 1024, xin m ρ c (ix2 (rowOf t r) d)
      * win m ρ c (ix2 d j)) + bin m ρ c (ix1 j)
  rw [blk2_read m ρ c t j]
  refine congrArg (· + _) ?_
  exact Finset.sum_congr rfl fun d _ => by rw [blk0_read m ρ c t r d, blk1_read m ρ c t d j]

/-- An index of the array is in point t's block iff each coordinate is in the block's range on its axis. -/
theorem mem_blk (t : Fin cfg0.N) (i : S16384x3072.Idx) :
    i ∈ ((cfg0.win 3).blk t).view.set ↔ ∀ a : Fin 2, win0_3.index t a * S1024x3072.size a ≤ (i a).val
      ∧ (i a).val < win0_3.index t a * S1024x3072.size a + S1024x3072.size a := by
  show i ∈ ((View.whole main_v4).slice (win0_3.rect t)).set ↔ _
  rw [View.set_slice_whole, Rect.mem_set_unit]
  exact Iff.rfl

/-- The sixteen blocks cover the array: row R is in block R / 1024. -/
theorem cover (i : S16384x3072.Idx) :
    ∃ t : Fin cfg0.N, (cfg0.win 3).flush t = true ∧ i ∈ ((cfg0.win 3).blk t).view.set := by
  have hi0 : (i 0).val < 16384 := (i 0).isLt
  have hi1 : (i 1).val < 3072 := (i 1).isLt
  have hN : (i 0).val / 1024 < cfg0.N := lt_of_lt_of_eq (by omega : (i 0).val / 1024 < 16) N_0.symm
  obtain ⟨-, -, -, -, -, e5, e6⟩ := index_facts ⟨(i 0).val / 1024, hN⟩
  have e5' : win0_3.index ⟨(i 0).val / 1024, hN⟩ (0 : Fin 2) = (i 0).val / 1024 := e5
  refine ⟨⟨(i 0).val / 1024, hN⟩, flush0_3 _, ?_⟩
  rw [mem_blk]
  intro a
  match a with
  | ⟨0, _⟩ =>
    show win0_3.index ⟨(i 0).val / 1024, hN⟩ (0 : Fin 2) * 1024 ≤ (i 0).val
      ∧ (i 0).val < win0_3.index ⟨(i 0).val / 1024, hN⟩ (0 : Fin 2) * 1024 + 1024
    omega
  | ⟨1, _⟩ =>
    show win0_3.index ⟨(i 0).val / 1024, hN⟩ (1 : Fin 2) * 3072 ≤ (i 1).val
      ∧ (i 1).val < win0_3.index ⟨(i 0).val / 1024, hN⟩ (1 : Fin 2) * 3072 + 3072
    omega

/-- THE ARRAY the region leaves: G0 of the input arrays as the region finds them. -/
theorem res0_eq :
    (res0 (F := Ideal) m ρ c : S16384x3072.Idx → EReal)
      = G0 (xin m ρ c) (win m ρ c) (bin m ρ c) := by
  unfold res0
  exact (dat0 (V1 (F := Ideal) m ρ) c).arrAt_eq_of_cover 3
    (G0 (xin m ρ c) (win m ρ c) (bin m ρ c))
    (fun t _ => flushed_eq m ρ c t) cover

theorem res0_apply (r : Fin 16384) (j : Fin 3072) :
    (res0 (F := Ideal) m ρ c : S16384x3072.Idx → EReal) (ix2 r j)
      = (∑ d : Fin 1024, xin m ρ c (ix2 r d) * win m ρ c (ix2 d j))
        + bin m ρ c (ix1 j) :=
  congrFun (res0_eq m ρ c) (ix2 r j)

/-- The reshape between the regions leaves, in its result buffer, the projection region's output viewed as
    [8, 2048, 3072]. -/
theorem V3_v5_eq :
    (V3 (F := Ideal) m ρ c main_v5 : S8x2048x3072.Idx → EReal)
      = shapeCast S8x2048x3072 (res0 (F := Ideal) m ρ c : S16384x3072.Idx → EReal) shapeCasts_S16384x3072_S8x2048x3072 := by
  dsimp only [V3, W3, hostOps1]
  after_results
  rw [W2_v4]
  rfl

theorem V3_v5_apply (β : Fin 8) (s : Fin 2048) (j : Fin 3072) :
    (V3 (F := Ideal) m ρ c main_v5 : S8x2048x3072.Idx → EReal) (ix3 β s j)
      = (res0 (F := Ideal) m ρ c : S16384x3072.Idx → EReal) (ix2 ⟨β.val * 2048 + s.val, by have := β.isLt; have := s.isLt; omega⟩ j) := by
  refine (congrFun (V3_v5_eq m ρ c) _).trans ?_
  exact shapeCast_apply _ _ _ _ (by
    show (S16384x3072.rowMajor (ix2 ⟨β.val * 2048 + s.val, by have := β.isLt; have := s.isLt; omega⟩ j)).val
      = (S8x2048x3072.rowMajor (ix3 β s j)).val
    rw [Shape.rowMajor_val_two, Shape.rowMajor_val_three]
    rfl)

end Cert.KernelIdeal.Hand

end
-- ==== Proof.KernelValue.lean ====
/-
  The idealized kernel's result array is the specification's attention of the three projections of the launch arguments.

  The projection region leaves in its output array the value (Σ_d x(R,d)·w(d,j)) + b(j) at (R, j), over the input viewed
  as [16384, 1024], the joined weights and the joined bias; the reshape after it reads entry (β, s, j) at row β·2048 + s.
  With these two facts the result array, as the attention region's write-backs leave it, is attention with one division
  per entry of the projections x·W₁ + b₁, x·W₂ + b₂ and x·W₃ + b₃ of the launch arguments.
-/
import proofs.«156074_j40973988004641_2_alg».proof.Proof.KVCore
import proofs.«156074_j40973988004641_2_alg».proof.Proof.KI.Final0

noncomputable section

namespace Cert.KernelIdeal.Hand

open Cert.KernelIdeal Cert.KernelIdeal.Gen Idealize.ShloMosaic Idealize.ShloMosaic.TcCoe Idealize.ShloMosaic.ValueIdx

/-- The result array is attention, with one division per entry, of the three projections of the launch arguments. -/
theorem kernel_value (m : (ℓ : Loc nD τ sig) → Buf (Elt Ideal) ℓ) (ρ : Dev nD → PrngReg) (c : Dev nD) :
    (res1 (F := Ideal) m ρ c : S8x2048x1024.Idx → EReal)
      = AttnSpec.attnK
          (AttnSpec.proj (m ((c.tc : Thread nD τ).loc main_arg0)) (m ((c.tc : Thread nD τ).loc main_arg1)) (m ((c.tc : Thread nD τ).loc main_arg2)))
          (AttnSpec.proj (m ((c.tc : Thread nD τ).loc main_arg0)) (m ((c.tc : Thread nD τ).loc main_arg3)) (m ((c.tc : Thread nD τ).loc main_arg4)))
          (AttnSpec.proj (m ((c.tc : Thread nD τ).loc main_arg0)) (m ((c.tc : Thread nD τ).loc main_arg5)) (m ((c.tc : Thread nD τ).loc main_arg6))) :=
  kernel_value_of m ρ c (res0_apply m ρ c) (V3_v5_apply m ρ c)

end Cert.KernelIdeal.Hand

end
-- ==== Proof.RefScale.lean ====
/-
  The scale of the scores. The reference divides one by the square root of 1024 and spreads the quotient over the
  scores. Since 1024 = 32·32, the square root is 32 and the quotient is 1/32, which is what the float word 0x3D000000
  denotes; so the spread scalar reads that word at every index.
-/
import proofs.«156074_j40973988004641_2_alg».proof.Proof.Gen.ReferenceIdeal.Read
import proofs.«156074_j40973988004641_2_alg».proof.Proof.Spec

noncomputable section

namespace Cert.RefValue

open Idealize.ShloMosaic Cert.ReferenceIdeal Cert.ReferenceIdeal.Read

/-- The float word of 1024.0 denotes the real number 1024: significand 2^23, exponent field 137. -/
theorem word_1024 : Ideal.ofBits .f32 0x44800000#32 = ((1024 : ℝ) : EReal) := by
  simp [Ideal.ofBits, Ideal.ieee]
  rw [← EReal.coe_mul]
  exact congrArg (fun r : ℝ => (r : EReal)) (by norm_num)

/-- The float word of 1.0 denotes the real number one. -/
theorem word_one : Ideal.ofBits .f32 0x3F800000#32 = ((1 : ℝ) : EReal) := by
  simp [Ideal.ofBits, Ideal.ieee]
  rw [← EReal.coe_mul]
  exact congrArg (fun r : ℝ => (r : EReal)) (by norm_num)

/-- The float word 0x3D000000 denotes 1/32: significand 2^23, exponent field 122. -/
theorem word_scale : Ideal.ofBits .f32 0x3D000000#32 = (((1 : ℝ) / 32 : ℝ) : EReal) := by
  simp [Ideal.ofBits, Ideal.ieee]
  rw [← EReal.coe_mul]
  exact congrArg (fun r : ℝ => (r : EReal)) (by norm_num)

/-- The square root of 1024 is 32, because 32·32 = 1024 and 32 is not negative. -/
theorem sqrt_1024 : Ideal.sqrt ((1024 : ℝ) : EReal) = ((32 : ℝ) : EReal) := by
  have h : Real.sqrt 1024 = 32 := by
    rw [show (1024 : ℝ) = 32 * 32 by norm_num]
    exact Real.sqrt_mul_self (by norm_num)
  rw [Ideal.sqrt_coe, if_neg (by norm_num), h]

/-- One divided by the square root of 1024 is the word of 1/32. -/
theorem scale_eq :
    Ideal.div (Ideal.ofBits .f32 0x3F800000#32) (Ideal.sqrt (Ideal.ofBits .f32 0x44800000#32)) = AttnSpec.scaleWord := by
  rw [word_one, word_1024, sqrt_1024, Ideal.div_coe (by norm_num)]
  show _ = Ideal.ofBits .f32 0x3D000000#32
  rw [word_scale, ← EReal.coe_mul]
  exact congrArg (fun r : ℝ => (r : EReal)) (by norm_num)

/-- The reference's quotient of the two scalar constants is the word of 1/32. -/
theorem val_v13_eq (i : S_.Idx) : val_main_v13 (F := Ideal) i = AttnSpec.scaleWord := by
  rw [val_main_v13_apply, val_main_cst_0_apply, val_main_v12_apply, val_main_cst_apply]
  simp only [Ideal.hostDivf_def, Ideal.hostUnary_sqrt_def, Ideal.ofBits_def]
  exact scale_eq

/-- The scalar spread over the scores reads the word of 1/32 at every index. -/
theorem val_v15_eq (i : S8x2048x2048.Idx) : val_main_v15 (F := Ideal) i = AttnSpec.scaleWord := by
  rw [val_main_v15_apply]
  exact val_v13_eq _

end Cert.RefValue

end
-- ==== Proof.RefProj.lean ====
/-
  The three projections of the reference. Each is a product contracting the last axis of x with the first of a weight
  matrix, plus the bias spread over the batch and sequence axes: entry (β, s, e) is Σ_d x(β,s,d)·W(d,e) + b(e).
-/
import proofs.«156074_j40973988004641_2_alg».proof.Proof.Gen.ReferenceIdeal.Read
import proofs.«156074_j40973988004641_2_alg».proof.Proof.Spec

noncomputable section

namespace Cert.RefValue

open Idealize.ShloMosaic Idealize.ShloMosaic.ValueIdx Cert.ReferenceIdeal Cert.ReferenceIdeal.Read
open scoped BigOperators

/-- The queries: the product of x with the first weight matrix plus the first bias is the projection. -/
theorem val_v3_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) :
    val_main_v3 (F := Ideal) x0 x1 x2 = AttnSpec.proj x0 x1 x2 := by
  funext i
  obtain ⟨β, s, e, rfl⟩ : ∃ (β : Fin 8) (s : Fin 2048) (e : Fin 1024), i = ix3 β s e := ⟨i 0, i 1, i 2, eq_ix3 i⟩
  rw [AttnSpec.proj_apply, val_main_v3_apply, val_main_v0_apply, val_main_v2_apply, val_main_v1_apply]
  simp only [Ideal.addf_def]
  have hl : ∀ k : Fin 1024, lidx_main_v0 (ix3 β s e) k = ix3 β s k := fun k =>
    funext fun a => Fin.ext (by match a with | ⟨0, _⟩ => rfl | ⟨1, _⟩ => rfl | ⟨2, _⟩ => rfl)
  have hr : ∀ k : Fin 1024, ridx_main_v0 (ix3 β s e) k = ix2 k e := fun k =>
    funext fun a => Fin.ext (by match a with | ⟨0, _⟩ => rfl | ⟨1, _⟩ => rfl)
  have hb : idx_main_v1 (idx_main_v2 (ix3 β s e)) = ix1 e :=
    funext fun a => Fin.ext (by match a with | ⟨0, _⟩ => rfl)
  simp only [hl, hr, hb]

/-- The keys: the product of x with the second weight matrix plus the second bias is the projection. -/
theorem val_v7_eq (x0 : (⟨S8x2048x1024, .f32⟩ : BufTy).Contents (Elt Ideal)) (x3 : (⟨S1024x1024, .f32⟩ : BufTy).Contents (Elt Ideal))
    (x4 : (⟨S1024, .f32⟩ : BufTy).Contents (Elt Ideal)) :
    val_main_v7 (F := Ideal) x0 x3 x4 = AttnSpec.proj x0 x3 x4 := by
  funext i
  obtain ⟨β, s, e, rfl⟩ : ∃ (β : Fin 8) (s : Fin 2048) (e : Fin 1024), i = ix3 β s e := ⟨i 0, i 1, i 2, eq_ix3 i⟩
  rw [AttnSpec.proj_apply, val_main_v7_apply, val_main_v4_apply, val_main_v6_apply, val_main_v5_apply]
  simp only [Ideal.addf_def]
  have hl : ∀ k : Fin 1024, lidx_main_v4 (ix3 β s e) k = ix3 β s k := fun k =>
    funext fun a => Fin.ext (by match a with | ⟨0, _⟩ => rfl | ⟨1, _⟩ => rfl | ⟨2, _⟩ => rfl)
  have hr : ∀ k : Fin 1024, ridx_main_v4 (ix3 β s e) k = ix2 k e := fun k =>
    funext fun a => Fin.ext (by match a with | ⟨0, _⟩ => rfl | ⟨1, _⟩ => rfl)
  have hb : idx_main_v5 (idx_main_v6 (ix3 β s e)) = ix1 e :=
    funext fun a => Fin.ext (by match a with | ⟨0, _⟩ => rfl)
  simp only [hl, hr, hb]

/-- The values: the product of x with the third weight matrix plus the third bias is the projection. -/
theorem val_v11_eq (x0 : (⟨S8x2048x1024, .f32⟩ : BufTy).Contents (Elt Ideal)) (x5 : (⟨S1024x1024, .f32⟩ : BufTy).Contents (Elt Ideal))
    (x6 : (⟨S1024, .f32⟩ : BufTy).Contents (Elt Ideal)) :
    val_main_v11 (F := Ideal) x0 x5 x6 = AttnSpec.proj x0 x5 x6 := by
  funext i
  obtain ⟨β, s, e, rfl⟩ : ∃ (β : Fin 8) (s : Fin 2048) (e : Fin 1024), i = ix3 β s e := ⟨i 0, i 1, i 2, eq_ix3 i⟩
  rw [AttnSpec.proj_apply, val_main_v11_apply, val_main_v8_apply, val_main_v10_apply, val_main_v9_apply]
  simp only [Ideal.addf_def]
  have hl : ∀ k : Fin 1024, lidx_main_v8 (ix3 β s e) k = ix3 β s k := fun k =>
    funext fun a => Fin.ext (by match a with | ⟨0, _⟩ => rfl | ⟨1, _⟩ => rfl | ⟨2, _⟩ => rfl)
  have hr : ∀ k : Fin 1024, ridx_main_v8 (ix3 β s e) k = ix2 k e := fun k =>
    funext fun a => Fin.ext (by match a with | ⟨0, _⟩ => rfl | ⟨1, _⟩ => rfl)
  have hb : idx_main_v9 (idx_main_v10 (ix3 β s e)) = ix1 e :=
    funext fun a => Fin.ext (by match a with | ⟨0, _⟩ => rfl)
  simp only [hl, hr, hb]

end Cert.RefValue

end
-- ==== Proof.RefScores.lean ====
/-
  The scaled scores of the reference. The product of the queries and the keys keeps the batch axis and contracts the
  feature axes, so its entry (β, q, k) is Σ_d Q(β,q,d)·K(β,k,d); it is then multiplied by the scalar 1/√1024 spread over
  every entry, which is the word of 1/32.
-/
import proofs.«156074_j40973988004641_2_alg».proof.Proof.RefScale
import proofs.«156074_j40973988004641_2_alg».proof.Proof.RefProj

noncomputable section

namespace Cert.RefValue

open Idealize.ShloMosaic Idealize.ShloMosaic.ValueIdx Cert.ReferenceIdeal Cert.ReferenceIdeal.Read
open scoped BigOperators

/-- The scaled product of the queries and the keys is the scores of the two projections. -/
theorem val_v16_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) :
    val_main_v16 (F := Ideal) x0 x1 x2 x3 x4 = AttnSpec.scores (AttnSpec.proj x0 x1 x2) (AttnSpec.proj x0 x3 x4) := by
  funext i
  obtain ⟨β, q, k, rfl⟩ : ∃ (β : Fin 8) (q k : Fin 2048), i = ix3 β q k := ⟨i 0, i 1, i 2, eq_ix3 i⟩
  rw [AttnSpec.scores_apply, val_main_v16_apply, val_main_v14_apply, val_v15_eq, val_v3_eq, val_v7_eq]
  simp only [Ideal.mulf_def]
  have hl : ∀ d : Fin 1024, lidx_main_v14 (ix3 β q k) d = ix3 β q d := fun d =>
    funext fun a => Fin.ext (by match a with | ⟨0, _⟩ => rfl | ⟨1, _⟩ => rfl | ⟨2, _⟩ => rfl)
  have hr : ∀ d : Fin 1024, ridx_main_v14 (ix3 β q k) d = ix3 β k d := fun d =>
    funext fun a => Fin.ext (by match a with | ⟨0, _⟩ => rfl | ⟨1, _⟩ => rfl | ⟨2, _⟩ => rfl)
  simp only [hl, hr]

end Cert.RefValue

end
-- ==== Proof.RefSoftmax.lean ====
/-
  The softmax of the reference along the keys. With S the scaled scores: the row's maximum is the fold of max from −∞ over
  the keys (the further maximum with a splat of −∞ changes nothing); it is spread back over the keys and subtracted; the
  exponentials are summed over the keys from zero; the sum is spread back and divides each exponential. Entry (β, q, k) is
  exp(S(β,q,k) − m(β,q)) / Σ_j exp(S(β,q,j) − m(β,q)).
-/
import proofs.«156074_j40973988004641_2_alg».proof.Proof.RefScores

noncomputable section

namespace Cert.RefValue

open Idealize.ShloMosaic Idealize.ShloMosaic.ValueIdx Cert.ReferenceIdeal Cert.ReferenceIdeal.Gen Cert.ReferenceIdeal.Read
open scoped BigOperators

/-- The reduction with a maximum body from −∞ over the keys is the row's maximum of the scaled scores. -/
theorem val_v17_apply (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (β : Fin 8) (q : Fin 2048) :
    val_main_v17 (F := Ideal) x0 x1 x2 x3 x4 (ix2 β q) = Attention.rowMax (val_main_v16 (F := Ideal) x0 x1 x2 x3 x4) β q := by
  unfold val_main_v17 val_main_cst_1
  exact Attention.hostRowMax_apply (val_main_v16 (F := Ideal) x0 x1 x2 x3 x4) reducesTo_S8x2048x2048_S8x2048_d2 (by decide) h_S_ β q

/-- The further maximum with a splat of −∞ is still the row's maximum. -/
theorem val_v19_apply (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (β : Fin 8) (q : Fin 2048) :
    val_main_v19 (F := Ideal) x0 x1 x2 x3 x4 (ix2 β q) = Attention.rowMax (val_main_v16 (F := Ideal) x0 x1 x2 x3 x4) β q := by
  rw [val_main_v19_apply, val_main_v18_apply, val_main_cst_2_apply, val_v17_apply]
  simp only [Ideal.maximumf_def, Ideal.ofBits_def]
  exact Attention.max_negInf _

/-- The row's maximum spread back over the keys. -/
theorem val_v21_apply (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (β : Fin 8) (q k : Fin 2048) :
    val_main_v21 (F := Ideal) x0 x1 x2 x3 x4 (ix3 β q k) = Attention.rowMax (val_main_v16 (F := Ideal) x0 x1 x2 x3 x4) β q := by
  have hi : idx_main_v20 (idx_main_v21 (ix3 β q k)) = ix2 β q :=
    funext fun a => Fin.ext (by match a with | ⟨0, _⟩ => rfl | ⟨1, _⟩ => rfl)
  rw [val_main_v21_apply, val_main_v20_apply, hi]
  exact val_v19_apply x0 x1 x2 x3 x4 β q

/-- The exponential of a score less its row's maximum. -/
theorem val_v23_apply (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (β : Fin 8) (q k : Fin 2048) :
    val_main_v23 (F := Ideal) x0 x1 x2 x3 x4 (ix3 β q k)
      = Ideal.exp ((val_main_v16 (F := Ideal) x0 x1 x2 x3 x4) (ix3 β q k) - Attention.rowMax (val_main_v16 (F := Ideal) x0 x1 x2 x3 x4) β q) := by
  rw [val_main_v23_apply, val_main_v22_apply, val_v21_apply]
  simp only [Ideal.hostUnary_exp_def, Ideal.subf_def]

/-- The sum of the row's exponentials, from zero. -/
theorem val_v24_apply (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (β : Fin 8) (q : Fin 2048) :
    val_main_v24 (F := Ideal) x0 x1 x2 x3 x4 (ix2 β q)
      = ∑ j : Fin 2048, Ideal.exp ((val_main_v16 (F := Ideal) x0 x1 x2 x3 x4) (ix3 β q j) - Attention.rowMax (val_main_v16 (F := Ideal) x0 x1 x2 x3 x4) β q) := by
  rw [val_main_v24_apply, val_main_cst_3_apply]
  simp only [Ideal.ofBits_def]
  rw [Ideal.ofBits_zero_f32, zero_add]
  refine Finset.sum_congr rfl fun j _ => ?_
  have hi : idx_main_v24 (ix2 β q) j = ix3 β q j :=
    funext fun a => Fin.ext (by match a with | ⟨0, _⟩ => rfl | ⟨1, _⟩ => rfl | ⟨2, _⟩ => rfl)
  rw [hi]
  exact val_v23_apply x0 x1 x2 x3 x4 β q j

/-- The row's sum spread back over the keys. -/
theorem val_v26_apply (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (β : Fin 8) (q k : Fin 2048) :
    val_main_v26 (F := Ideal) x0 x1 x2 x3 x4 (ix3 β q k)
      = ∑ j : Fin 2048, Ideal.exp ((val_main_v16 (F := Ideal) x0 x1 x2 x3 x4) (ix3 β q j) - Attention.rowMax (val_main_v16 (F := Ideal) x0 x1 x2 x3 x4) β q) := by
  have hi : idx_main_v25 (idx_main_v26 (ix3 β q k)) = ix2 β q :=
    funext fun a => Fin.ext (by match a with | ⟨0, _⟩ => rfl | ⟨1, _⟩ => rfl)
  rw [val_main_v26_apply, val_main_v25_apply, hi]
  exact val_v24_apply x0 x1 x2 x3 x4 β q

/-- The quotient is the softmax along the keys of the scores of the two projections. -/
theorem val_v27_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) :
    val_main_v27 (F := Ideal) x0 x1 x2 x3 x4
      = Attention.softmaxKeys (AttnSpec.scores (AttnSpec.proj x0 x1 x2) (AttnSpec.proj x0 x3 x4)) := by
  rw [← val_v16_eq]
  funext i
  obtain ⟨β, q, k, rfl⟩ : ∃ (β : Fin 8) (q k : Fin 2048), i = ix3 β q k := ⟨i 0, i 1, i 2, eq_ix3 i⟩
  rw [Attention.softmaxKeys_apply, val_main_v27_apply, val_v23_apply, val_v26_apply]
  simp only [Ideal.hostDivf_def]

end Cert.RefValue

end
-- ==== Proof.RefValue.lean ====
/-
  The reference program's result, read entry by entry on the extended reals: the projections x·W + b, the scaled scores,
  the softmax along the keys and the weights applied to the values — attention with the weights normalised first.
-/
import proofs.«156074_j40973988004641_2_alg».proof.Proof.Gen.ReferenceIdeal.Read
import proofs.«156074_j40973988004641_2_alg».proof.Proof.Spec
import proofs.«156074_j40973988004641_2_alg».proof.Proof.RefSoftmax

noncomputable section

namespace Cert.RefValue

open Idealize.ShloMosaic Idealize.ShloMosaic.ValueIdx Cert.ReferenceIdeal Cert.ReferenceIdeal.Read
open scoped BigOperators

/-- The last product keeps the batch axis and contracts the key axis: entry (β, q, c) is the sum over the keys of the
    softmax weight at (β, q, k) times the value at (β, k, c), the weights being the softmax of the scores of the projected
    queries and keys. -/
theorem val_v28_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) :
    val_main_v28 (F := Ideal) x0 x1 x2 x3 x4 x5 x6
      = AttnSpec.attnR (AttnSpec.proj x0 x1 x2) (AttnSpec.proj x0 x3 x4) (AttnSpec.proj x0 x5 x6) := by
  funext i
  obtain ⟨β, q, c, rfl⟩ : ∃ (β : Fin 8) (q : Fin 2048) (c : Fin 1024), i = ix3 β q c := ⟨i 0, i 1, i 2, eq_ix3 i⟩
  rw [AttnSpec.attnR_apply, val_main_v28_apply, val_v27_eq, val_v11_eq]
  have hl : ∀ k : Fin 2048, lidx_main_v28 (ix3 β q c) k = ix3 β q k := fun k =>
    funext fun a => Fin.ext (by match a with | ⟨0, _⟩ => rfl | ⟨1, _⟩ => rfl | ⟨2, _⟩ => rfl)
  have hr : ∀ k : Fin 2048, ridx_main_v28 (ix3 β q c) k = ix3 β k c := fun k =>
    funext fun a => Fin.ext (by match a with | ⟨0, _⟩ => rfl | ⟨1, _⟩ => rfl | ⟨2, _⟩ => rfl)
  simp only [hl, hr]

/-- The result buffer of the reference's run is attention, with the weights normalised first, of the three projections of
    the first argument by the three weight matrices and biases. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m c
      = AttnSpec.attnR
          (AttnSpec.proj (m ((c.tc : Thread Cert.ReferenceIdeal.nD Cert.ReferenceIdeal.τ).loc main_arg0)) (m ((c.tc : Thread _ _).loc main_arg1)) (m ((c.tc : Thread _ _).loc main_arg2)))
          (AttnSpec.proj (m ((c.tc : Thread _ _).loc main_arg0)) (m ((c.tc : Thread _ _).loc main_arg3)) (m ((c.tc : Thread _ _).loc main_arg4)))
          (AttnSpec.proj (m ((c.tc : Thread _ _).loc main_arg0)) (m ((c.tc : Thread _ _).loc main_arg5)) (m ((c.tc : Thread _ _).loc main_arg6))) :=
  (val_main_v28_eq (F := Ideal) m c).trans (val_v28_eq _ _ _ _ _ _ _)

end Cert.RefValue

end
-- ==== Proof.Algebra.lean ====
/-
  The two arrangements of attention agree on real entries.

  With every entry a real number, a projection Σ_d x·W + b is real, every scaled score is real, the maximum of a row of
  scores (the fold of max from −∞ over a nonempty range of real numbers) is real, every p_k = exp(s_k − max) is a
  positive real and so is the row sum ℓ = Σ_k p_k. Then (Σ_k p_k·v_k)/ℓ and Σ_k (p_k/ℓ)·v_k are both the real number
  (Σ_k p_k·v_k)·(1/ℓ): the quotient by a nonzero real is the product with its reciprocal, and a product distributes over
  a finite sum of reals.
-/
import proofs.«156074_j40973988004641_2_alg».proof.Proof.Spec

noncomputable section

namespace Cert.AttnSpec

open Idealize.ShloMosaic Idealize.ShloMosaic.ValueIdx
open scoped BigOperators

/-- A finite sum of real numbers, taken in the extended reals, is the real sum. -/
theorem coe_sum {ι : Type} (s : Finset ι) (f : ι → ℝ) :
    (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

/-- The scale word denotes a real number. -/
theorem scaleWord_real : ∃ c : ℝ, scaleWord = (c : EReal) := by
  unfold scaleWord
  simp only [Ideal.ofBits, Ideal.ieee]
  norm_num
  exact ⟨_, rfl⟩

/-- The fold of max from −∞ over a nonempty finite range of real numbers is a real number. -/
theorem fold_max_real {ι : Type} (s : Finset ι) (f : ι → ℝ) (hs : s.Nonempty) :
    ∃ r : ℝ, s.fold max Softmax.negInfWord (fun k => (f k : EReal)) = (r : EReal) := by
  classical
  revert hs
  refine Finset.induction_on s (fun h => absurd h Finset.not_nonempty_empty) ?_
  intro a s ha ih _
  rw [Finset.fold_insert ha]
  rcases s.eq_empty_or_nonempty with rfl | hne
  · refine ⟨f a, ?_⟩
    rw [Finset.fold_empty, max_comm]
    exact Attention.max_negInf _
  · obtain ⟨r, hr⟩ := ih hne
    exact ⟨max (f a) r, by rw [hr]; exact (EReal.coe_strictMono.monotone.map_max).symm⟩

/-- A projection of real inputs is real: Σ_d x·W + b is the real sum of the real products plus the real bias. -/
theorem proj_real (x : SX.Idx → EReal) (W : SW.Idx → EReal) (b : Sb.Idx → EReal) (hx : IsReal x) (hW : IsReal W)
    (hb : IsReal b) : IsReal (proj x W b) := by
  have hx' : ∀ i, ∃ r : ℝ, x i = (r : EReal) := hx
  have hW' : ∀ i, ∃ r : ℝ, W i = (r : EReal) := hW
  have hb' : ∀ i, ∃ r : ℝ, b i = (r : EReal) := hb
  choose xr hxr using hx'
  choose wr hwr using hW'
  choose br hbr using hb'
  intro i
  refine ⟨(∑ d : Fin 1024, xr (ix3 (i 0) (i 1) d) * wr (ix2 d (i 2))) + br (ix1 (i 2)), ?_⟩
  show (∑ d : Fin 1024, x (ix3 (i 0) (i 1) d) * W (ix2 d (i 2))) + b (ix1 (i 2)) = _
  rw [EReal.coe_add, ← coe_sum]
  congr 1
  · exact Finset.sum_congr rfl fun d _ => by rw [hxr, hwr, EReal.coe_mul]
  · exact hbr _

/-- The scaled scores of real queries and keys are real. -/
theorem scores_real (Q K : SX.Idx → EReal) (hQ : IsReal Q) (hK : IsReal K) : IsReal (scores Q K) := by
  obtain ⟨c, hc⟩ := scaleWord_real
  have hQ' : ∀ i, ∃ r : ℝ, Q i = (r : EReal) := hQ
  have hK' : ∀ i, ∃ r : ℝ, K i = (r : EReal) := hK
  choose qr hqr using hQ'
  choose kr hkr using hK'
  intro i
  refine ⟨(∑ d : Fin 1024, qr (ix3 (i 0) (i 1) d) * kr (ix3 (i 0) (i 2) d)) * c, ?_⟩
  show (∑ d : Fin 1024, Q (ix3 (i 0) (i 1) d) * K (ix3 (i 0) (i 2) d)) * scaleWord = _
  rw [EReal.coe_mul, ← coe_sum, hc]
  congr 1
  exact Finset.sum_congr rfl fun d _ => by rw [hqr, hkr, EReal.coe_mul]

/-- The maximum of a row of real scores is real. -/
theorem rowMax_real (S : SS.Idx → EReal) (hS : IsReal S) (β : Fin 8) (q : Fin 2048) :
    ∃ m : ℝ, Attention.rowMax S β q = (m : EReal) := by
  have hS' : ∀ i, ∃ r : ℝ, S i = (r : EReal) := hS
  choose s hs using hS'
  obtain ⟨r, hr⟩ := fold_max_real (Finset.univ : Finset (Fin 2048)) (fun k => s (ix3 β q k)) Finset.univ_nonempty
  refine ⟨r, ?_⟩
  rw [← hr]
  unfold Attention.rowMax
  exact congrArg (fun f => Finset.fold max Softmax.negInfWord f (Finset.univ : Finset (Fin 2048))) (funext fun k => hs _)

/-- On real scores and values, one division of the weighted sum by the row sum is the sum of the normalised weights
    applied to the values: both are the real number (Σ_k p_k·v_k)·(1/ℓ). -/
theorem attn_core (S : SS.Idx → EReal) (V : SX.Idx → EReal) (hS : IsReal S) (hV : IsReal V) (β : Fin 8) (q : Fin 2048)
    (c : Fin 1024) :
    Ideal.div (∑ k : Fin 2048, expo S (ix3 β q k) * V (ix3 β k c)) (∑ k : Fin 2048, expo S (ix3 β q k))
      = ∑ k : Fin 2048, Attention.softmaxKeys S (ix3 β q k) * V (ix3 β k c) := by
  obtain ⟨m, hm⟩ := rowMax_real S hS β q
  have hS' : ∀ i, ∃ r : ℝ, S i = (r : EReal) := hS
  have hV' : ∀ i, ∃ r : ℝ, V i = (r : EReal) := hV
  choose s hs using hS'
  choose v hv using hV'
  -- the weights p_k = exp(s_k − m), positive reals
  have hp : ∀ k : Fin 2048, expo S (ix3 β q k) = ((Real.exp (s (ix3 β q k) - m) : ℝ) : EReal) := fun k => by
    rw [expo_apply, hs, hm, ← EReal.coe_sub, Ideal.exp_coe]
  -- the row sum ℓ, a positive real
  have hl : (∑ k : Fin 2048, expo S (ix3 β q k)) = ((∑ k : Fin 2048, Real.exp (s (ix3 β q k) - m) : ℝ) : EReal) := by
    rw [← coe_sum]; exact Finset.sum_congr rfl fun k _ => hp k
  have hpos : (∑ k : Fin 2048, Real.exp (s (ix3 β q k) - m)) ≠ 0 :=
    ne_of_gt (Finset.sum_pos (fun k _ => Real.exp_pos _) Finset.univ_nonempty)
  have hnum : (∑ k : Fin 2048, expo S (ix3 β q k) * V (ix3 β k c))
      = ((∑ k : Fin 2048, Real.exp (s (ix3 β q k) - m) * v (ix3 β k c) : ℝ) : EReal) := by
    rw [← coe_sum]; exact Finset.sum_congr rfl fun k _ => by rw [hp, hv, EReal.coe_mul]
  have hsm : ∀ k : Fin 2048, Attention.softmaxKeys S (ix3 β q k) * V (ix3 β k c)
      = ((Real.exp (s (ix3 β q k) - m) * (1 / ∑ j : Fin 2048, Real.exp (s (ix3 β q j) - m)) * v (ix3 β k c) : ℝ) : EReal) :=
    fun k => by
      show Ideal.div (expo S (ix3 β q k)) (∑ j : Fin 2048, expo S (ix3 β q j)) * V (ix3 β k c) = _
      rw [hl, hp, hv, Ideal.div_coe hpos, ← EReal.coe_mul, ← EReal.coe_mul]
  rw [hnum, hl, Ideal.div_coe hpos, ← EReal.coe_mul, Finset.sum_congr rfl fun k _ => hsm k, coe_sum]
  congr 1
  rw [Finset.sum_mul]
  exact Finset.sum_congr rfl fun k _ => by ring

/-- The two arrangements of attention agree when the queries, keys and values are real. -/
theorem attnK_eq_attnR (Q K V : SX.Idx → EReal) (hQ : IsReal Q) (hK : IsReal K) (hV : IsReal V) :
    attnK Q K V = attnR Q K V := by
  funext i
  exact attn_core (scores Q K) V (scores_real Q K hQ hK) hV (i 0) (i 1) (i 2)

end Cert.AttnSpec

end
-- ==== Proof.Finite.lean ====
/-
  From the printed precondition to "every entry of every input is a real number".

  The precondition is the conjunction of seven tests, one per input: the test of an input x is the conjunction over
  all its entries of |x| < +∞, printed as a reduction by `and` from 1 of the entrywise comparison of max(x, −x) with the
  word of +∞. A conjunction that is 1 has every conjunct 1; a reduction by `and` into a single result that is 1 had a 1 at
  every entry; and an extended real x with max(x, −x) < +∞ is neither +∞ nor −∞ (−(−∞) = +∞), hence a real number.
-/
import proofs.«156074_j40973988004641_2_alg».proof.Pre_finite_inputs
import proofs.«156074_j40973988004641_2_alg».proof.Proof.Gen.Pre_finite_inputs
import Idealize.ShloMosaic.Lib.ReduceAll
import proofs.«156074_j40973988004641_2_alg».proof.Proof.Spec

noncomputable section

namespace Cert.Finite

open Idealize.ShloMosaic Idealize.ShloMosaic.ValueIdx

/-- The rank-0 shape has one index. -/
instance : Subsingleton Cert.Pre_finite_inputs.S_.Idx := ⟨fun a b => funext fun d => d.elim0⟩

/-- The word 0x7F800000 denotes +∞. -/
theorem posInf_word : Ideal.ofBits .f32 0x7F800000#32 = (⊤ : EReal) := by
  simp [Ideal.ofBits, Ideal.ieee]

/-- An extended real whose absolute value max(x, −x) compares below +∞ is a real number. -/
theorem real_of_lt (x : EReal) (h : Ideal.cmp .olt (max x (-x)) (Ideal.ofBits .f32 0x7F800000#32) = 1#1) :
    ∃ r : ℝ, x = (r : EReal) := by
  rw [posInf_word] at h
  have hlt : max x (-x) < ⊤ := by
    unfold Ideal.cmp at h
    by_contra hn
    simp [hn] at h
  induction x using EReal.rec with
  | bot => simp at hlt
  | coe r => exact ⟨r, rfl⟩
  | top => simp at hlt

/-- One test of the precondition: if the reduction by `and` of the entrywise |a| < +∞ is 1, every entry of a is real. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf a) (broadcastInDim s ![] hb (constant (F := Ideal) Cert.Pre_finite_inputs.S_ .f32 0x7F800000#32)))
        (constantI Cert.Pre_finite_inputs.S_ 1 1#1) hr hu j = 1#1) :
    AttnSpec.IsReal a := by
  intro i
  have hi := Host.reduce_andi_all _ _ hr hu j e i
  exact real_of_lt (a i) hi

/-- The precondition holds only of real inputs: each of its seven tests gives that its input is real. -/
theorem real_of_pre [Cert.Pre_finite_inputs.Facts]
    (a0 : FVec Ideal Cert.Pre_finite_inputs.S8x2048x1024 .f32) (a1 : FVec Ideal Cert.Pre_finite_inputs.S1024x1024 .f32)
    (a2 : FVec Ideal Cert.Pre_finite_inputs.S1024 .f32) (a3 : FVec Ideal Cert.Pre_finite_inputs.S1024x1024 .f32)
    (a4 : FVec Ideal Cert.Pre_finite_inputs.S1024 .f32) (a5 : FVec Ideal Cert.Pre_finite_inputs.S1024x1024 .f32)
    (a6 : FVec Ideal Cert.Pre_finite_inputs.S1024 .f32)
    (h : Cert.Pre_finite_inputs.fn (F := Ideal) a0 a1 a2 a3 a4 a5 a6 = fun _ => 1#1) :
    AttnSpec.IsReal a0 ∧ AttnSpec.IsReal a1 ∧ AttnSpec.IsReal a2 ∧ AttnSpec.IsReal a3 ∧ AttnSpec.IsReal a4 ∧
      AttnSpec.IsReal a5 ∧ AttnSpec.IsReal a6 := by
  have h0 := congrFun h ValueIdx.ix0
  dsimp only [Cert.Pre_finite_inputs.fn, Cert.Pre_finite_inputs.fn_part1, Idealize.ShloMosaic.andi] at h0
  simp only [IntOp.andi_eq_one] at h0
  obtain ⟨⟨⟨⟨⟨⟨e0, e1⟩, e2⟩, e3⟩, e4⟩, e5⟩, e6⟩ := h0
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6⟩

end Cert.Finite

end
-- ==== Proof.lean ====
/-
  The certificate of a two-kernel attention layer against its whole-array reference, on the extended reals.

  The program projects the input x of extents [8, 2048, 1024] through three weight matrices at once — the joined projections
  x·[Wq | Wk | Wv] + [bq | bk | bv], a first kernel over sixteen blocks of rows — and a second kernel computes, for every batch
  and every block of 1024 queries, the scores q·kᵀ/32, their row maxima m, the exponentials p = exp(s − m), the row sums ℓ,
  and (p·v)/ℓ. The reference computes the three projections one by one, the scores times 1/√1024, the softmax p/ℓ of every
  row, and then (p/ℓ)·v. Read at the ideal values the two agree entry by entry: √1024 = 32 exactly; a matrix product in blocks
  is the same sum; and (Σ_k p_k v_k)/ℓ = Σ_k (p_k/ℓ) v_k because every entry is a real number — the inputs are finite, so
  the projections, the scores, their maxima, the exponentials and the positive row sums are all real.

  The three frame claims: both kernels' programs run through their host operations and their two regions, each region's
  body on the blocks of its windows at every grid point, and leave the argument arrays unchanged; the reference is a line of
  host operations. The ideal pass rewrote nothing, so that claim is trivial.
-/
import proofs.«156074_j40973988004641_2_alg».proof.Defs
import proofs.«156074_j40973988004641_2_alg».proof.Proof.Gen.Kernel
import proofs.«156074_j40973988004641_2_alg».proof.Proof.Gen.KernelIdeal
import proofs.«156074_j40973988004641_2_alg».proof.Proof.Gen.ReferenceIdeal
import proofs.«156074_j40973988004641_2_alg».proof.Proof.Gen.Pre_finite_inputs
import proofs.«156074_j40973988004641_2_alg».proof.Proof.Gen.ReferenceIdeal.Run
import proofs.«156074_j40973988004641_2_alg».proof.Proof.K.Run
import proofs.«156074_j40973988004641_2_alg».proof.Proof.KI.Run
import proofs.«156074_j40973988004641_2_alg».proof.Proof.KernelValue
import proofs.«156074_j40973988004641_2_alg».proof.Proof.RefValue
import proofs.«156074_j40973988004641_2_alg».proof.Proof.Algebra
import proofs.«156074_j40973988004641_2_alg».proof.Proof.Finite

noncomputable section

namespace Cert.Proof

open Idealize.ShloMosaic Idealize.SL.Sem

/-- The kernel's program at the word level runs and leaves its arguments unchanged. -/
theorem frame_k : Cert.frame_Kernel := fun m ρ _ =>
  (θ_run Cert.Kernel.defs _ _).mono (fun _ h c => (h c).2) (Cert.Kernel.Hand.run_main (F := Bits) m ρ)

/-- The idealized kernel's program runs and leaves its arguments unchanged. -/
theorem frame_ki : Cert.frame_KernelIdeal := fun m ρ _ =>
  (θ_run Cert.KernelIdeal.defs _ _).mono (fun _ h c => (h c).2) (Cert.KernelIdeal.Hand.run_main (F := Ideal) m ρ)

/-- The idealized reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values the kernel's result array ends at attention with one division per entry of the three projections,
    the reference's at attention with the weights normalised first; on finite inputs these are one function. -/
theorem algebraic : Cert.algebraic_KernelIdeal_ReferenceIdeal := by
  intro m ρ m' ρ' hpre hagree
  refine ⟨fun c => Cert.KernelIdeal.Hand.res1 (F := Ideal) m ρ c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := Cert.Finite.real_of_pre _ _ _ _ _ _ _ (hpre c)
  have hk := Cert.KernelIdeal.Hand.kernel_value m ρ c
  have hr := Cert.RefValue.res_eq m' c
  rw [(hagree c).1, (hagree c).2.1, (hagree c).2.2.1, (hagree c).2.2.2.1, (hagree c).2.2.2.2.1, (hagree c).2.2.2.2.2.1,
    (hagree c).2.2.2.2.2.2] at hr
  exact hr.trans ((Cert.AttnSpec.attnK_eq_attnR _ _ _ (Cert.AttnSpec.proj_real _ _ _ h0 h1 h2) (Cert.AttnSpec.proj_real _ _ _ h0 h3 h4)
    (Cert.AttnSpec.proj_real _ _ _ h0 h5 h6)).symm.trans hk.symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
